-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v195)) (v1 : (c : Dev Cert.KernelIdeal.nD) → Buf (Elt Ideal) ((c.tc : Thread Cert.KernelIdeal.nD Cert.KernelIdeal.τ).loc Cert.KernelIdeal.main_v203)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v195) = v0 c
          ∧ r.2.mem ((c.tc : Thread Cert.KernelIdeal.nD Cert.KernelIdeal.τ).loc Cert.KernelIdeal.main_v203) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v310) = v0 c
          ∧ r.2.mem ((c.tc : Thread Cert.ReferenceIdeal.nD Cert.ReferenceIdeal.τ).loc Cert.ReferenceIdeal.main_v317) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x5x128x128x128 : Shape := ⟨5, ![4, 5, 128, 128, 128]⟩
abbrev S4x4096x5 : Shape := ⟨3, ![4, 4096, 5]⟩
abbrev S4x5x3x3 : Shape := ⟨4, ![4, 5, 3, 3]⟩
abbrev S4x5x3 : Shape := ⟨3, ![4, 5, 3]⟩
abbrev S4x5x2 : Shape := ⟨3, ![4, 5, 2]⟩
abbrev S4x5x2x3 : Shape := ⟨4, ![4, 5, 2, 3]⟩
abbrev S2 : Shape := ⟨1, ![2]⟩
abbrev S_ : Shape := ⟨0, ![]⟩

class Facts : Prop where
  bcast_S_S4x5x128x128x128 : S_.BroadcastsInDim S4x5x128x128x128 (![] : Fin 0 → Fin S4x5x128x128x128.rank)
  reducesTo_S4x5x128x128x128_S_d0_1_2_3_4 : S4x5x128x128x128.ReducesTo [0, 1, 2, 3, 4] S_
  h_S_ : 0 < S_.numel
  bcast_S_S4x4096x5 : S_.BroadcastsInDim S4x4096x5 (![] : Fin 0 → Fin S4x4096x5.rank)
  reducesTo_S4x4096x5_S_d0_1_2 : S4x4096x5.ReducesTo [0, 1, 2] S_
  bcast_S_S4x5x3x3 : S_.BroadcastsInDim S4x5x3x3 (![] : Fin 0 → Fin S4x5x3x3.rank)
  reducesTo_S4x5x3x3_S_d0_1_2_3 : S4x5x3x3.ReducesTo [0, 1, 2, 3] S_
  bcast_S_S4x5x3 : S_.BroadcastsInDim S4x5x3 (![] : Fin 0 → Fin S4x5x3.rank)
  reducesTo_S4x5x3_S_d0_1_2 : S4x5x3.ReducesTo [0, 1, 2] S_
  bcast_S_S4x5x2 : S_.BroadcastsInDim S4x5x2 (![] : Fin 0 → Fin S4x5x2.rank)
  reducesTo_S4x5x2_S_d0_1_2 : S4x5x2.ReducesTo [0, 1, 2] S_
  bcast_S_S4x5x2x3 : S_.BroadcastsInDim S4x5x2x3 (![] : Fin 0 → Fin S4x5x2x3.rank)
  reducesTo_S4x5x2x3_S_d0_1_2_3 : S4x5x2x3.ReducesTo [0, 1, 2, 3] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S4x5x2 .f32) (main_arg8 : FVec F S4x5x2x3 .f32) (main_arg9 : FVec F S4x5x2 .f32) (main_arg10 : FVec F S2 .f32) (main_v33 : IVec S_ 1) : IVec S_ 1 :=
  let main_v34 : FVec F S4x5x2 .f32 := Host.absf main_arg7
  let main_cst_12 : FVec F S_ .f32 := constant S_ .f32 0x7F800000#32
  let main_v35 : FVec F S4x5x2 .f32 := broadcastInDim S4x5x2 ![] bcast_S_S4x5x2 main_cst_12
  let main_v36 : IVec S4x5x2 1 := cmpf .olt main_v34 main_v35
  let main_c_13 : IVec S_ 1 := constantI S_ 1 1#1
  let main_v37 : IVec S_ 1 := (fun x v => Host.reduce IntOp.andi x v reducesTo_S4x5x2_S_d0_1_2 h_S_) main_v36 main_c_13
  let main_v38 : IVec S_ 1 := andi main_v33 main_v37
  let main_v39 : FVec F S4x5x2x3 .f32 := Host.absf main_arg8
  let main_cst_14 : FVec F S_ .f32 := constant S_ .f32 0x7F800000#32
  let main_v40 : FVec F S4x5x2x3 .f32 := broadcastInDim S4x5x2x3 ![] bcast_S_S4x5x2x3 main_cst_14
  let main_v41 : IVec S4x5x2x3 1 := cmpf .olt main_v39 main_v40
  let main_c_15 : IVec S_ 1 := constantI S_ 1 1#1
  let main_v42 : IVec S_ 1 := (fun x v => Host.reduce IntOp.andi x v reducesTo_S4x5x2x3_S_d0_1_2_3 h_S_) main_v41 main_c_15
  let main_v43 : IVec S_ 1 := andi main_v38 main_v42
  let main_v44 : FVec F S4x5x2 .f32 := Host.absf main_arg9
  let main_cst_16 : FVec F S_ .f32 := constant S_ .f32 0x7F800000#32
  let main_v45 : FVec F S4x5x2 .f32 := broadcastInDim S4x5x2 ![] bcast_S_S4x5x2 main_cst_16
  let main_v46 : IVec S4x5x2 1 := cmpf .olt main_v44 main_v45
  let main_c_17 : IVec S_ 1 := constantI S_ 1 1#1
  let main_v47 : IVec S_ 1 := (fun x v => Host.reduce IntOp.andi x v reducesTo_S4x5x2_S_d0_1_2 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S4x5x2 .f32) (main_arg5 : FVec F S4x5x2 .f32) (main_arg6 : FVec F S4x5x3 .f32) (main_arg7 : FVec F S4x5x2 .f32) (main_arg8 : FVec F S4x5x2x3 .f32) (main_arg9 : FVec F S4x5x2 .f32) (main_arg10 : FVec F S2 .f32) (main_v13 : IVec S_ 1) (main_v16 : IVec S4x5x3 1) : IVec S_ 1 :=
  let main_c_5 : IVec S_ 1 := constantI S_ 1 1#1
  let main_v17 : IVec S_ 1 := (fun x v => Host.reduce IntOp.andi x v reducesTo_S4x5x3_S_d0_1_2 h_S_) main_v16 main_c_5
  let main_v18 : IVec S_ 1 := andi main_v13 main_v17
  let main_v19 : FVec F S4x5x2 .f32 := Host.absf main_arg4
  let main_cst_6 : FVec F S_ .f32 := constant S_ .f32 0x7F800000#32
  let main_v20 : FVec F S4x5x2 .f32 := broadcastInDim S4x5x2 ![] bcast_S_S4x5x2 main_cst_6
  let main_v21 : IVec S4x5x2 1 := cmpf .olt main_v19 main_v20
  let main_c_7 : IVec S_ 1 := constantI S_ 1 1#1
  let main_v22 : IVec S_ 1 := (fun x v => Host.reduce IntOp.andi x v reducesTo_S4x5x2_S_d0_1_2 h_S_) main_v21 main_c_7
  let main_v23 : IVec S_ 1 := andi main_v18 main_v22
  let main_v24 : FVec F S4x5x2 .f32 := Host.absf main_arg5
  let main_cst_8 : FVec F S_ .f32 := constant S_ .f32 0x7F800000#32
  let main_v25 : FVec F S4x5x2 .f32 := broadcastInDim S4x5x2 ![] bcast_S_S4x5x2 main_cst_8
  let main_v26 : IVec S4x5x2 1 := cmpf .olt main_v24 main_v25
  let main_c_9 : IVec S_ 1 := constantI S_ 1 1#1
  let main_v27 : IVec S_ 1 := (fun x v => Host.reduce IntOp.andi x v reducesTo_S4x5x2_S_d0_1_2 h_S_) main_v26 main_c_9
  let main_v28 : IVec S_ 1 := andi main_v23 main_v27
  let main_v29 : FVec F S4x5x3 .f32 := Host.absf main_arg6
  let main_cst_10 : FVec F S_ .f32 := constant S_ .f32 0x7F800000#32
  let main_v30 : FVec F S4x5x3 .f32 := broadcastInDim S4x5x3 ![] bcast_S_S4x5x3 main_cst_10
  let main_v31 : IVec S4x5x3 1 := cmpf .olt main_v29 main_v30
  let main_c_11 : IVec S_ 1 := constantI S_ 1 1#1
  let main_v32 : IVec S_ 1 := (fun x v => Host.reduce IntOp.andi x v reducesTo_S4x5x3_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S4x5x128x128x128 .f32) (main_arg1 : FVec F S4x4096x5 .f32) (main_arg2 : FVec F S4x5x3x3 .f32) (main_arg3 : FVec F S4x5x3 .f32) (main_arg4 : FVec F S4x5x2 .f32) (main_arg5 : FVec F S4x5x2 .f32) (main_arg6 : FVec F S4x5x3 .f32) (main_arg7 : FVec F S4x5x2 .f32) (main_arg8 : FVec F S4x5x2x3 .f32) (main_arg9 : FVec F S4x5x2 .f32) (main_arg10 : FVec F S2 .f32) : IVec S_ 1 :=
  let main_v0 : FVec F S4x5x128x128x128 .f32 := Host.absf main_arg0
  let main_cst : FVec F S_ .f32 := constant S_ .f32 0x7F800000#32
  let main_v1 : FVec F S4x5x128x128x128 .f32 := broadcastInDim S4x5x128x128x128 ![] bcast_S_S4x5x128x128x128 main_cst
  let main_v2 : IVec S4x5x128x128x128 1 := cmpf .olt main_v0 main_v1
  let main_c : IVec S_ 1 := constantI S_ 1 1#1
  let main_v3 : IVec S_ 1 := (fun x v => Host.reduce IntOp.andi x v reducesTo_S4x5x128x128x128_S_d0_1_2_3_4 h_S_) main_v2 main_c
  let main_v4 : FVec F S4x4096x5 .f32 := Host.absf main_arg1
  let main_cst_0 : FVec F S_ .f32 := constant S_ .f32 0x7F800000#32
  let main_v5 : FVec F S4x4096x5 .f32 := broadcastInDim S4x4096x5 ![] bcast_S_S4x4096x5 main_cst_0
  let main_v6 : IVec S4x4096x5 1 := cmpf .olt main_v4 main_v5
  let main_c_1 : IVec S_ 1 := constantI S_ 1 1#1
  let main_v7 : IVec S_ 1 := (fun x v => Host.reduce IntOp.andi x v reducesTo_S4x4096x5_S_d0_1_2 h_S_) main_v6 main_c_1
  let main_v8 : IVec S_ 1 := andi main_v3 main_v7
  let main_v9 : FVec F S4x5x3x3 .f32 := Host.absf main_arg2
  let main_cst_2 : FVec F S_ .f32 := constant S_ .f32 0x7F800000#32
  let main_v10 : FVec F S4x5x3x3 .f32 := broadcastInDim S4x5x3x3 ![] bcast_S_S4x5x3x3 main_cst_2
  let main_v11 : IVec S4x5x3x3 1 := cmpf .olt main_v9 main_v10
  let main_c_3 : IVec S_ 1 := constantI S_ 1 1#1
  let main_v12 : IVec S_ 1 := (fun x v => Host.reduce IntOp.andi x v reducesTo_S4x5x3x3_S_d0_1_2_3 h_S_) main_v11 main_c_3
  let main_v13 : IVec S_ 1 := andi main_v8 main_v12
  let main_v14 : FVec F S4x5x3 .f32 := Host.absf main_arg3
  let main_cst_4 : FVec F S_ .f32 := constant S_ .f32 0x7F800000#32
  let main_v15 : FVec F S4x5x3 .f32 := broadcastInDim S4x5x3 ![] bcast_S_S4x5x3 main_cst_4
  let main_v16 : IVec S4x5x3 1 := cmpf .olt main_v14 main_v15
  fn_part1 (F := F) main_arg4 main_arg5 main_arg6 main_arg7 main_arg8 main_arg9 main_arg10 main_v13 main_v16
-- ==== Kernel.lean ====
abbrev S4x5x128x128x128 : Shape := ⟨5, ![4, 5, 128, 128, 128]⟩
abbrev S4x4096x5 : Shape := ⟨3, ![4, 4096, 5]⟩
abbrev S4x5x3x3 : Shape := ⟨4, ![4, 5, 3, 3]⟩
abbrev S4x5x3 : Shape := ⟨3, ![4, 5, 3]⟩
abbrev S4x5x2 : Shape := ⟨3, ![4, 5, 2]⟩
abbrev S4x5x2x3 : Shape := ⟨4, ![4, 5, 2, 3]⟩
abbrev S2 : Shape := ⟨1, ![2]⟩
abbrev S4x4096x3 : Shape := ⟨3, ![4, 4096, 3]⟩
abbrev S4x1x4096x3 : Shape := ⟨4, ![4, 1, 4096, 3]⟩
abbrev S4x5x1x3 : Shape := ⟨4, ![4, 5, 1, 3]⟩
abbrev S4x5x4096x3 : Shape := ⟨4, ![4, 5, 4096, 3]⟩
abbrev S4x5x4096x1 : Shape := ⟨4, ![4, 5, 4096, 1]⟩
abbrev S4x5x4096 : Shape := ⟨3, ![4, 5, 4096]⟩
abbrev S4x5x1 : Shape := ⟨3, ![4, 5, 1]⟩
abbrev S_ : Shape := ⟨0, ![]⟩
abbrev S4x5x4096x2 : Shape := ⟨4, ![4, 5, 4096, 2]⟩
abbrev S4x5x1x2 : Shape := ⟨4, ![4, 5, 1, 2]⟩
abbrev S4x5 : Shape := ⟨2, ![4, 5]⟩
abbrev S4x5x1x1 : Shape := ⟨4, ![4, 5, 1, 1]⟩
abbrev S4x5x2x2 : Shape := ⟨4, ![4, 5, 2, 2]⟩
abbrev S4x5x2x1 : Shape := ⟨4, ![4, 5, 2, 1]⟩
abbrev S1x1x1x2 : Shape := ⟨4, ![1, 1, 1, 2]⟩
abbrev S128 : Shape := ⟨1, ![128]⟩
abbrev S1x1x128x1 : Shape := ⟨4, ![1, 1, 128, 1]⟩
abbrev S4x5x1x4096 : Shape := ⟨4, ![4, 5, 1, 4096]⟩
abbrev S4x5x128x4096 : Shape := ⟨4, ![4, 5, 128, 4096]⟩
abbrev S20x128x128x128 : Shape := ⟨4, ![20, 128, 128, 128]⟩
abbrev S20x128x4096 : Shape := ⟨3, ![20, 128, 4096]⟩
abbrev S20x1x4096 : Shape := ⟨3, ![20, 1, 4096]⟩
abbrev S1x32x128x128 : Shape := ⟨4, ![1, 32, 128, 128]⟩
abbrev S1x128x4096 : Shape := ⟨3, ![1, 128, 4096]⟩
abbrev S1x1x4096 : Shape := ⟨3, ![1, 1, 4096]⟩
abbrev S1x32x4096 : Shape := ⟨3, ![1, 32, 4096]⟩
abbrev S128x4096 : Shape := ⟨2, ![128, 4096]⟩
abbrev S4096 : Shape := ⟨1, ![4096]⟩
abbrev S1x1x128x128 : Shape := ⟨4, ![1, 1, 128, 128]⟩
abbrev S128x128 : Shape := ⟨2, ![128, 128]⟩
abbrev S4x4096x5x128 : Shape := ⟨4, ![4, 4096, 5, 128]⟩
abbrev S4x4096 : Shape := ⟨2, ![4, 4096]⟩

abbrev nBuf : Space → Nat
  | .hbm => 250
  | .vmem => 10
  | .smem => 0
  | _ => 0

abbrev hbmTy0_0 (i : Nat) : BufTy := match i % 128 with
  | 0 => ⟨S4x5x128x128x128, .f32⟩
  | 1 => ⟨S4x4096x5, .f32⟩
  | 2 => ⟨S4x5x3x3, .f32⟩
  | 3 => ⟨S4x5x3, .f32⟩
  | 4 => ⟨S4x5x2, .f32⟩
  | 5 => ⟨S4x5x2, .f32⟩
  | 6 => ⟨S4x5x3, .f32⟩
  | 7 => ⟨S4x5x2, .f32⟩
  | 8 => ⟨S4x5x2x3, .f32⟩
  | 9 => ⟨S4x5x2, .f32⟩
  | 10 => ⟨S2, .f32⟩
  | 11 => ⟨S4x4096x3, .f32⟩
  | 12 => ⟨S4x1x4096x3, .f32⟩
  | 13 => ⟨S4x5x1x3, .f32⟩
  | 14 => ⟨S4x5x4096x3, .f32⟩
  | 15 => ⟨S4x5x4096x3, .f32⟩
  | 16 => ⟨S4x5x4096x3, .f32⟩
  | 17 => ⟨S4x5x4096x3, .f32⟩
  | 18 => ⟨S4x5x4096x1, .f32⟩
  | 19 => ⟨S4x5x4096, .f32⟩
  | 20 => ⟨S4x5x4096x1, .f32⟩
  | 21 => ⟨S4x5x4096, .f32⟩
  | 22 => ⟨S4x5x4096, .f32⟩
  | 23 => ⟨S4x5x4096x1, .f32⟩
  | 24 => ⟨S4x5x4096, .f32⟩
  | 25 => ⟨S4x5x4096x1, .f32⟩
  | 26 => ⟨S4x5x4096, .f32⟩
  | 27 => ⟨S4x5x4096, .f32⟩
  | 28 => ⟨S4x5x4096, .f32⟩
  | 29 => ⟨S4x5x4096, .f32⟩
  | 30 => ⟨S4x5x4096, .f32⟩
  | 31 => ⟨S4x5x1, .f32⟩
  | 32 => ⟨S4x5x1, .f32⟩
  | 33 => ⟨S4x5x1, .f32⟩
  | 34 => ⟨S4x5x1, .f32⟩
  | 35 => ⟨S4x5x1, .f32⟩
  | 36 => ⟨S4x5x4096, .f32⟩
  | 37 => ⟨S4x5x4096, .f32⟩
  | 38 => ⟨S_, .f32⟩
  | 39 => ⟨S4x5x4096, .f32⟩
  | 40 => ⟨S4x5x4096, .f32⟩
  | 41 => ⟨S4x5x4096, .f32⟩
  | 42 => ⟨S4x5x4096, .f32⟩
  | 43 => ⟨S4x5x4096, .f32⟩
  | 44 => ⟨S4x5x4096, .f32⟩
  | 45 => ⟨S4x5x4096, .f32⟩
  | 46 => ⟨S4x5x4096, .f32⟩
  | 47 => ⟨S4x5x4096, .f32⟩
  | 48 => ⟨S4x5x4096, .f32⟩
  | 49 => ⟨S4x5x4096, .f32⟩
  | 50 => ⟨S4x5x4096, .f32⟩
  | 51 => ⟨S_, .f32⟩
  | 52 => ⟨S4x5x1, .f32⟩
  | 53 => ⟨S4x5x1, .f32⟩
  | 54 => ⟨S4x5x4096, .f32⟩
  | 55 => ⟨S4x5x4096, .f32⟩
  | 56 => ⟨S4x5x4096, .f32⟩
  | 57 => ⟨S4x5x4096, .f32⟩
  | 58 => ⟨S_, .f32⟩
  | 59 => ⟨S4x5x4096, .f32⟩
  | 60 => ⟨S4x5x4096, .f32⟩
  | 61 => ⟨S4x5x4096, .f32⟩
  | 62 => ⟨S4x5x4096, .f32⟩
  | 63 => ⟨S4x5x4096, .f32⟩
  | 64 => ⟨S4x5x4096, .f32⟩
  | 65 => ⟨S4x5x4096, .f32⟩
  | 66 => ⟨S4x5x4096, .f32⟩
  | 67 => ⟨S_, .f32⟩
  | 68 => ⟨S4x5x4096, .f32⟩
  | 69 => ⟨S4x5x4096, .f32⟩
  | 70 => ⟨S4x5x4096, .f32⟩
  | 71 => ⟨S4x5x4096, .f32⟩
  | 72 => ⟨S4x5x4096, .f32⟩
  | 73 => ⟨S4x5x4096, .f32⟩
  | 74 => ⟨S4x5x4096, .f32⟩
  | 75 => ⟨S_, .f32⟩
  | 76 => ⟨S4x5x1, .f32⟩
  | 77 => ⟨S4x5x1, .f32⟩
  | 78 => ⟨S4x5x4096, .f32⟩
  | 79 => ⟨S4x5x4096, .f32⟩
  | 80 => ⟨S4x5x4096, .f32⟩
  | 81 => ⟨S4x5x4096, .f32⟩
  | 82 => ⟨S4x5x4096x1, .f32⟩
  | 83 => ⟨S4x5x4096x1, .f32⟩
  | 84 => ⟨S4x5x4096x2, .f32⟩
  | 85 => ⟨S4x5x1x2, .f32⟩
  | 86 => ⟨S4x5x4096x2, .f32⟩
  | 87 => ⟨S4x5x4096x2, .f32⟩
  | 88 => ⟨S4x5x1x2, .f32⟩
  | 89 => ⟨S4x5x4096x2, .f32⟩
  | 90 => ⟨S4x5x4096x2, .f32⟩
  | 91 => ⟨S4x5x1, .f32⟩
  | 92 => ⟨S4x5x1, .f32⟩
  | 93 => ⟨S4x5x4096x1, .f32⟩
  | 94 => ⟨S4x5x4096, .f32⟩
  | 95 => ⟨S_, .f32⟩
  | 96 => ⟨S4x5x4096, .f32⟩
  | 97 => ⟨S4x5x4096, .i1⟩
  | 98 => ⟨S4x5x4096x1, .f32⟩
  | 99 => ⟨S4x5x4096, .f32⟩
  | 100 => ⟨S_, .f32⟩
  | 101 => ⟨S4x5x4096, .f32⟩
  | 102 => ⟨S4x5x4096, .i1⟩
  | 103 => ⟨S4x5x4096, .i1⟩
  | 104 => ⟨S4x5x4096x1, .f32⟩
  | 105 => ⟨S4x5x4096, .f32⟩
  | 106 => ⟨S4x5x4096, .f32⟩
  | 107 => ⟨S4x5x4096, .i1⟩
  | 108 => ⟨S4x5x4096, .i1⟩
  | 109 => ⟨S4x5x4096x1, .f32⟩
  | 110 => ⟨S4x5x4096, .f32⟩
  | 111 => ⟨S4x5x4096, .f32⟩
  | 112 => ⟨S4x5x4096, .i1⟩
  | 113 => ⟨S4x5x4096, .i1⟩
  | 114 => ⟨S4x5x1, .f32⟩
  | 115 => ⟨S4x5, .f32⟩
  | 116 => ⟨S4x5x1, .f32⟩
  | 117 => ⟨S4x5, .f32⟩
  | 118 => ⟨S4x5, .f32⟩
  | 119 => ⟨S4x5x1x1, .f32⟩
  | 120 => ⟨S_, .f32⟩
  | 121 => ⟨S_, .f32⟩
  | 122 => ⟨S4x5x4096x2, .f32⟩
  | 123 => ⟨S4x5x4096x2, .f32⟩
  | 124 => ⟨S4x5x4096x2, .f32⟩
  | 125 => ⟨S4x5x4096x2, .f32⟩
  | 126 => ⟨S4x5x2x2, .f32⟩
  | 127 => ⟨S4x5x4096x2, .f32⟩
  | _ => ⟨S4x5x128x128x128, .f32⟩

abbrev hbmTy0_1 (i : Nat) : BufTy := match i % 128 with
  | 0 => ⟨S4x5x2x1, .f32⟩
  | 1 => ⟨S4x5x2, .f32⟩
  | 2 => ⟨S4x5x1x2, .f32⟩
  | 3 => ⟨S4x5x4096x2, .f32⟩
  | 4 => ⟨S4x5x4096x2, .f32⟩
  | 5 => ⟨S_, .f32⟩
  | 6 => ⟨S2, .f32⟩
  | 7 => ⟨S2, .f32⟩
  | 8 => ⟨S1x1x1x2, .f32⟩
  | 9 => ⟨S4x5x4096x2, .f32⟩
  | 10 => ⟨S4x5x4096x2, .f32⟩
  | 11 => ⟨S_, .f32⟩
  | 12 => ⟨S4x5x4096x2, .f32⟩
  | 13 => ⟨S4x5x4096x2, .f32⟩
  | 14 => ⟨S_, .f32⟩
  | 15 => ⟨S4x5x4096x2, .f32⟩
  | 16 => ⟨S4x5x4096x2, .f32⟩
  | 17 => ⟨S_, .f32⟩
  | 18 => ⟨S_, .f32⟩
  | 19 => ⟨S_, .f32⟩
  | 20 => ⟨S4x5x4096x2, .f32⟩
  | 21 => ⟨S4x5x4096x2, .f32⟩
  | 22 => ⟨S_, .f32⟩
  | 23 => ⟨S4x5x4096x2, .f32⟩
  | 24 => ⟨S4x5x4096x2, .f32⟩
  | 25 => ⟨S4x5x4096x1, .f32⟩
  | 26 => ⟨S4x5x4096, .f32⟩
  | 27 => ⟨S_, .f32⟩
  | 28 => ⟨S4x5x4096, .f32⟩
  | 29 => ⟨S4x5x4096, .f32⟩
  | 30 => ⟨S_, .f32⟩
  | 31 => ⟨S4x5x4096, .f32⟩
  | 32 => ⟨S4x5x4096, .f32⟩
  | 33 => ⟨S_, .f32⟩
  | 34 => ⟨S4x5x4096, .f32⟩
  | 35 => ⟨S4x5x4096, .f32⟩
  | 36 => ⟨S4x5x4096x1, .f32⟩
  | 37 => ⟨S4x5x4096, .f32⟩
  | 38 => ⟨S_, .f32⟩
  | 39 => ⟨S4x5x4096, .f32⟩
  | 40 => ⟨S4x5x4096, .f32⟩
  | 41 => ⟨S_, .f32⟩
  | 42 => ⟨S4x5x4096, .f32⟩
  | 43 => ⟨S4x5x4096, .f32⟩
  | 44 => ⟨S_, .f32⟩
  | 45 => ⟨S4x5x4096, .f32⟩
  | 46 => ⟨S4x5x4096, .f32⟩
  | 47 => ⟨S4x5x4096, .f32⟩
  | 48 => ⟨S4x5x4096, .f32⟩
  | 49 => ⟨S4x5x4096, .f32⟩
  | 50 => ⟨S_, .f32⟩
  | 51 => ⟨S4x5x4096, .f32⟩
  | 52 => ⟨S4x5x4096, .f32⟩
  | 53 => ⟨S4x5x4096, .f32⟩
  | 54 => ⟨S_, .f32⟩
  | 55 => ⟨S4x5x4096, .f32⟩
  | 56 => ⟨S4x5x4096, .f32⟩
  | 57 => ⟨S4x5x4096, .i32⟩
  | 58 => ⟨S4x5x4096, .i32⟩
  | 59 => ⟨S128, .i32⟩
  | 60 => ⟨S1x1x128x1, .i32⟩
  | 61 => ⟨S128, .i32⟩
  | 62 => ⟨S1x1x128x1, .i32⟩
  | 63 => ⟨S4x5x1x4096, .i32⟩
  | 64 => ⟨S4x5x1x4096, .i32⟩
  | 65 => ⟨S4x5x1x4096, .f32⟩
  | 66 => ⟨S4x5x1x4096, .f32⟩
  | 67 => ⟨S4x5x1x4096, .f32⟩
  | 68 => ⟨S4x5x1x4096, .f32⟩
  | 69 => ⟨S4x5x128x4096, .i32⟩
  | 70 => ⟨S4x5x128x4096, .i32⟩
  | 71 => ⟨S4x5x128x4096, .i1⟩
  | 72 => ⟨S4x5x128x4096, .f32⟩
  | 73 => ⟨S4x5x128x4096, .f32⟩
  | 74 => ⟨S4x5x128x4096, .f32⟩
  | 75 => ⟨S_, .i32⟩
  | 76 => ⟨S4x5x1x4096, .i32⟩
  | 77 => ⟨S4x5x1x4096, .i32⟩
  | 78 => ⟨S4x5x128x4096, .i32⟩
  | 79 => ⟨S4x5x128x4096, .i32⟩
  | 80 => ⟨S4x5x128x4096, .i1⟩
  | 81 => ⟨S4x5x128x4096, .f32⟩
  | 82 => ⟨S4x5x128x4096, .f32⟩
  | 83 => ⟨S4x5x128x4096, .f32⟩
  | 84 => ⟨S4x5x128x4096, .f32⟩
  | 85 => ⟨S4x5x128x4096, .i32⟩
  | 86 => ⟨S4x5x128x4096, .i32⟩
  | 87 => ⟨S4x5x128x4096, .i1⟩
  | 88 => ⟨S4x5x128x4096, .f32⟩
  | 89 => ⟨S4x5x128x4096, .f32⟩
  | 90 => ⟨S4x5x128x4096, .f32⟩
  | 91 => ⟨S_, .i32⟩
  | 92 => ⟨S4x5x1x4096, .i32⟩
  | 93 => ⟨S4x5x1x4096, .i32⟩
  | 94 => ⟨S4x5x128x4096, .i32⟩
  | 95 => ⟨S4x5x128x4096, .i32⟩
  | 96 => ⟨S4x5x128x4096, .i1⟩
  | 97 => ⟨S4x5x128x4096, .f32⟩
  | 98 => ⟨S4x5x128x4096, .f32⟩
  | 99 => ⟨S4x5x128x4096, .f32⟩
  | 100 => ⟨S4x5x128x4096, .f32⟩
  | 101 => ⟨S20x128x128x128, .f32⟩
  | 102 => ⟨S20x128x4096, .f32⟩
  | 103 => ⟨S20x128x4096, .bf16⟩
  | 104 => ⟨S20x128x4096, .f32⟩
  | 105 => ⟨S20x128x4096, .bf16⟩
  | 106 => ⟨S4x5x4096, .f32⟩
  | 107 => ⟨S20x1x4096, .f32⟩
  | 108 => ⟨S20x128x4096, .f32⟩
  | 109 => ⟨S4x5x128x4096, .f32⟩
  | 110 => ⟨S4x4096x5x128, .f32⟩
  | 111 => ⟨S4x4096x5x128, .i1⟩
  | 112 => ⟨S_, .i1⟩
  | 113 => ⟨S4x4096, .i1⟩
  | 114 => ⟨S4x4096, .i1⟩
  | 115 => ⟨S4x5x4096, .i32⟩
  | 116 => ⟨S_, .i32⟩
  | 117 => ⟨S4x4096, .i32⟩
  | 118 => ⟨S_, .i32⟩
  | 119 => ⟨S4x4096, .i32⟩
  | 120 => ⟨S4x4096, .i1⟩
  | 121 => ⟨S4x4096, .i1⟩
  | _ => ⟨S4x5x128x128x128, .f32⟩

abbrev hbmTy (i : Nat) : BufTy := match i / 128 with
  | 0 => hbmTy0_0 i
  | 1 => hbmTy0_1 i
  | _ => ⟨S4x5x128x128x128, .f32⟩

abbrev bufTy : (tb : Table) → Fin (tcTables nBuf tb) → BufTy
  | .hbm, ⟨i, _⟩ => hbmTy i
  | .local _ .vmem, ⟨0, _⟩ => ⟨S1x32x128x128, .f32⟩
  | .local _ .vmem, ⟨1, _⟩ => ⟨S1x32x128x128, .f32⟩
  | .local _ .vmem, ⟨2, _⟩ => ⟨S1x128x4096, .bf16⟩
  | .local _ .vmem, ⟨3, _⟩ => ⟨S1x128x4096, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x1x4096, .f32⟩
  | .local _ .vmem, ⟨7, _⟩ => ⟨S1x1x4096, .f32⟩
  | .local _ .vmem, ⟨8, _⟩ => ⟨S1x32x4096, .f32⟩
  | .local _ .vmem, ⟨9, _⟩ => ⟨S1x32x4096, .f32⟩
  | _, _ => ⟨S4x5x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_2 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_3 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_4 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_5 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_6 : Ref sig .tc := ⟨.hbm, 120, rfl⟩
abbrev main_call0_v0 : Ref sig .tc := ⟨.hbm, 121, rfl⟩
abbrev main_call0_v1 : Ref sig .tc := ⟨.hbm, 122, rfl⟩
abbrev main_call0_v2 : Ref sig .tc := ⟨.hbm, 123, rfl⟩
abbrev main_call0_v3 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_7 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_8 : Ref sig .tc := ⟨.hbm, 139, rfl⟩
abbrev main_v115 : Ref sig .tc := ⟨.hbm, 140, rfl⟩
abbrev main_v116 : Ref sig .tc := ⟨.hbm, 141, rfl⟩
abbrev main_cst_9 : Ref sig .tc := ⟨.hbm, 142, rfl⟩
abbrev main_v117 : Ref sig .tc := ⟨.hbm, 143, rfl⟩
abbrev main_v118 : Ref sig .tc := ⟨.hbm, 144, rfl⟩
abbrev main_cst_10 : Ref sig .tc := ⟨.hbm, 145, rfl⟩
abbrev main_cst_11 : Ref sig .tc := ⟨.hbm, 146, rfl⟩
abbrev main_call1_v0 : Ref sig .tc := ⟨.hbm, 147, rfl⟩
abbrev main_call1_v1 : Ref sig .tc := ⟨.hbm, 148, rfl⟩
abbrev main_call1_v2 : Ref sig .tc := ⟨.hbm, 149, rfl⟩
abbrev main_call1_v3 : Ref sig .tc := ⟨.hbm, 150, rfl⟩
abbrev main_call1_v4 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_12 : Ref sig .tc := ⟨.hbm, 155, rfl⟩
abbrev main_v122 : Ref sig .tc := ⟨.hbm, 156, rfl⟩
abbrev main_v123 : Ref sig .tc := ⟨.hbm, 157, rfl⟩
abbrev main_cst_13 : Ref sig .tc := ⟨.hbm, 158, rfl⟩
abbrev main_v124 : Ref sig .tc := ⟨.hbm, 159, rfl⟩
abbrev main_v125 : Ref sig .tc := ⟨.hbm, 160, rfl⟩
abbrev main_cst_14 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_15 : Ref sig .tc := ⟨.hbm, 166, rfl⟩
abbrev main_v130 : Ref sig .tc := ⟨.hbm, 167, rfl⟩
abbrev main_v131 : Ref sig .tc := ⟨.hbm, 168, rfl⟩
abbrev main_cst_16 : Ref sig .tc := ⟨.hbm, 169, rfl⟩
abbrev main_v132 : Ref sig .tc := ⟨.hbm, 170, rfl⟩
abbrev main_v133 : Ref sig .tc := ⟨.hbm, 171, rfl⟩
abbrev main_cst_17 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_18 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_19 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_c : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_c_20 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_c_21 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_c_22 : Ref sig .tc := ⟨.hbm, 244, rfl⟩
abbrev main_v200 : Ref sig .tc := ⟨.hbm, 245, rfl⟩
abbrev main_c_23 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![20, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S4x4096x5_S4x4096x3_0_0_0 : S4x4096x5.Slices ![0, 0, 0] S4x4096x3
  bcast_S4x4096x3_S4x1x4096x3_0_2_3 : S4x4096x3.BroadcastsInDim S4x1x4096x3 (![0, 2, 3] : Fin 3 → Fin S4x1x4096x3.rank)
  bcast_S4x5x3_S4x5x1x3_0_1_3 : S4x5x3.BroadcastsInDim S4x5x1x3 (![0, 1, 3] : Fin 3 → Fin S4x5x1x3.rank)
  bcast_S4x1x4096x3_S4x5x4096x3_0_1_2_3 : S4x1x4096x3.BroadcastsInDim S4x5x4096x3 (![0, 1, 2, 3] : Fin 4 → Fin S4x5x4096x3.rank)
  bcast_S4x5x1x3_S4x5x4096x3_0_1_2_3 : S4x5x1x3.BroadcastsInDim S4x5x4096x3 (![0, 1, 2, 3] : Fin 4 → Fin S4x5x4096x3.rank)
  slices_S4x5x4096x3_S4x5x4096x1_0_0_0_0 : S4x5x4096x3.Slices ![0, 0, 0, 0] S4x5x4096x1
  shapeCasts_S4x5x4096x1_S4x5x4096 : S4x5x4096x1.ShapeCasts S4x5x4096
  slices_S4x5x4096x3_S4x5x4096x1_0_0_0_2 : S4x5x4096x3.Slices ![0, 0, 0, 2] S4x5x4096x1
  slices_S4x5x4096x3_S4x5x4096x1_0_0_0_1 : S4x5x4096x3.Slices ![0, 0, 0, 1] S4x5x4096x1
  slices_S4x5x3_S4x5x1_0_0_0 : S4x5x3.Slices ![0, 0, 0] S4x5x1
  slices_S4x5x3_S4x5x1_0_0_1 : S4x5x3.Slices ![0, 0, 1] S4x5x1
  slices_S4x5x3_S4x5x1_0_0_2 : S4x5x3.Slices ![0, 0, 2] S4x5x1
  slices_S4x5x2_S4x5x1_0_0_0 : S4x5x2.Slices ![0, 0, 0] S4x5x1
  slices_S4x5x2_S4x5x1_0_0_1 : S4x5x2.Slices ![0, 0, 1] S4x5x1
  bcast_S4x5x1_S4x5x4096_0_1_2 : S4x5x1.BroadcastsInDim S4x5x4096 (![0, 1, 2] : Fin 3 → Fin S4x5x4096.rank)
  bcast_S_S4x5x4096 : S_.BroadcastsInDim S4x5x4096 (![] : Fin 0 → Fin S4x5x4096.rank)
  bcast_S_S4x5x1 : S_.BroadcastsInDim S4x5x1 (![] : Fin 0 → Fin S4x5x1.rank)
  bcast_S4x5x4096_S4x5x4096x1_0_1_2 : S4x5x4096.BroadcastsInDim S4x5x4096x1 (![0, 1, 2] : Fin 3 → Fin S4x5x4096x1.rank)
  concatenates_S4x5x4096x1_S4x5x4096x1_S4x5x4096x2_d3 : Shape.Concatenates [S4x5x4096x1, S4x5x4096x1] S4x5x4096x2 3
  bcast_S4x5x2_S4x5x1x2_0_1_3 : S4x5x2.BroadcastsInDim S4x5x1x2 (![0, 1, 3] : Fin 3 → Fin S4x5x1x2.rank)
  bcast_S4x5x1x2_S4x5x4096x2_0_1_2_3 : S4x5x1x2.BroadcastsInDim S4x5x4096x2 (![0, 1, 2, 3] : Fin 4 → Fin S4x5x4096x2.rank)
  slices_S4x5x4096x2_S4x5x4096x1_0_0_0_0 : S4x5x4096x2.Slices ![0, 0, 0, 0] S4x5x4096x1
  slices_S4x5x4096x2_S4x5x4096x1_0_0_0_1 : S4x5x4096x2.Slices ![0, 0, 0, 1] S4x5x4096x1
  shapeCasts_S4x5x1_S4x5 : S4x5x1.ShapeCasts S4x5
  bcast_S4x5_S4x5x1x1_0_1 : S4x5.BroadcastsInDim S4x5x1x1 (![0, 1] : Fin 2 → Fin S4x5x1x1.rank)
  bcast_S_S4x5x4096x2 : S_.BroadcastsInDim S4x5x4096x2 (![] : Fin 0 → Fin S4x5x4096x2.rank)
  bcast_S4x5x1x1_S4x5x4096x2_0_1_2_3 : S4x5x1x1.BroadcastsInDim S4x5x4096x2 (![0, 1, 2, 3] : Fin 4 → Fin S4x5x4096x2.rank)
  slices_S4x5x2x3_S4x5x2x2_0_0_0_0 : S4x5x2x3.Slices ![0, 0, 0, 0] S4x5x2x2
  slices_S4x5x2x3_S4x5x2x1_0_0_0_2 : S4x5x2x3.Slices ![0, 0, 0, 2] S4x5x2x1
  shapeCasts_S4x5x2x1_S4x5x2 : S4x5x2x1.ShapeCasts S4x5x2
  bcast_S_S2 : S_.BroadcastsInDim S2 (![] : Fin 0 → Fin S2.rank)
  bcast_S2_S1x1x1x2_3 : S2.BroadcastsInDim S1x1x1x2 (![3] : Fin 1 → Fin S1x1x1x2.rank)
  bcast_S1x1x1x2_S4x5x4096x2_0_1_2_3 : S1x1x1x2.BroadcastsInDim S4x5x4096x2 (![0, 1, 2, 3] : Fin 4 → Fin S4x5x4096x2.rank)
  bcast_S128_S1x1x128x1_2 : S128.BroadcastsInDim S1x1x128x1 (![2] : Fin 1 → Fin S1x1x128x1.rank)
  bcast_S4x5x4096_S4x5x1x4096_0_1_3 : S4x5x4096.BroadcastsInDim S4x5x1x4096 (![0, 1, 3] : Fin 3 → Fin S4x5x1x4096.rank)
  bcast_S1x1x128x1_S4x5x128x4096_0_1_2_3 : S1x1x128x1.BroadcastsInDim S4x5x128x4096 (![0, 1, 2, 3] : Fin 4 → Fin S4x5x128x4096.rank)
  bcast_S4x5x1x4096_S4x5x128x4096_0_1_2_3 : S4x5x1x4096.BroadcastsInDim S4x5x128x4096 (![0, 1, 2, 3] : Fin 4 → Fin S4x5x128x4096.rank)
  bcast_S_S4x5x1x4096 : S_.BroadcastsInDim S4x5x1x4096 (![] : Fin 0 → Fin S4x5x1x4096.rank)
  shapeCasts_S4x5x128x128x128_S20x128x128x128 : S4x5x128x128x128.ShapeCasts S20x128x128x128
  shapeCasts_S4x5x128x4096_S20x128x4096 : S4x5x128x4096.ShapeCasts S20x128x4096
  bitsLt_bf16_f32 : FTy.bits .bf16 < FTy.bits .f32
  shapeCasts_S4x5x4096_S20x1x4096 : S4x5x4096.ShapeCasts S20x1x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  inb_S1x32x128x128_S1x1x128x128_0_0_0_0 : ∀ a, (![0, 0, 0, 0] : Fin 4 → Nat) a + S1x1x128x128.size a ≤ S1x32x128x128.size a
  h_S1x1x128x128 : 0 < S1x1x128x128.numel
  shapeCasts_S1x1x128x128_S128x128 : S1x1x128x128.ShapeCasts S128x128
  reduces_S128x4096_S4096 : S128x4096.Reduces [0] S4096
  inb_S1x32x4096_S1x1x4096_0_0_0 : ∀ a, (![0, 0, 0] : Fin 3 → Nat) a + S1x1x4096.size a ≤ S1x32x4096.size a
  shapeCasts_S4096_S1x1x4096 : S4096.ShapeCasts S1x1x4096
  inb_S1x32x128x128_S1x1x128x128_0_1_0_0 : ∀ a, (![0, 1, 0, 0] : Fin 4 → Nat) a + S1x1x128x128.size a ≤ S1x32x128x128.size a
  inb_S1x32x4096_S1x1x4096_0_1_0 : ∀ a, (![0, 1, 0] : Fin 3 → Nat) a + S1x1x4096.size a ≤ S1x32x4096.size a
  inb_S1x32x128x128_S1x1x128x128_0_2_0_0 : ∀ a, (![0, 2, 0, 0] : Fin 4 → Nat) a + S1x1x128x128.size a ≤ S1x32x128x128.size a
  inb_S1x32x4096_S1x1x4096_0_2_0 : ∀ a, (![0, 2, 0] : Fin 3 → Nat) a + S1x1x4096.size a ≤ S1x32x4096.size a
  inb_S1x32x128x128_S1x1x128x128_0_3_0_0 : ∀ a, (![0, 3, 0, 0] : Fin 4 → Nat) a + S1x1x128x128.size a ≤ S1x32x128x128.size a
  inb_S1x32x4096_S1x1x4096_0_3_0 : ∀ a, (![0, 3, 0] : Fin 3 → Nat) a + S1x1x4096.size a ≤ S1x32x4096.size a
  inb_S1x32x128x128_S1x1x128x128_0_4_0_0 : ∀ a, (![0, 4, 0, 0] : Fin 4 → Nat) a + S1x1x128x128.size a ≤ S1x32x128x128.size a
  inb_S1x32x4096_S1x1x4096_0_4_0 : ∀ a, (![0, 4, 0] : Fin 3 → Nat) a + S1x1x4096.size a ≤ S1x32x4096.size a
  inb_S1x32x128x128_S1x1x128x128_0_5_0_0 : ∀ a, (![0, 5, 0, 0] : Fin 4 → Nat) a + S1x1x128x128.size a ≤ S1x32x128x128.size a
  inb_S1x32x4096_S1x1x4096_0_5_0 : ∀ a, (![0, 5, 0] : Fin 3 → Nat) a + S1x1x4096.size a ≤ S1x32x4096.size a
  inb_S1x32x128x128_S1x1x128x128_0_6_0_0 : ∀ a, (![0, 6, 0, 0] : Fin 4 → Nat) a + S1x1x128x128.size a ≤ S1x32x128x128.size a
  inb_S1x32x4096_S1x1x4096_0_6_0 : ∀ a, (![0, 6, 0] : Fin 3 → Nat) a + S1x1x4096.size a ≤ S1x32x4096.size a
  inb_S1x32x128x128_S1x1x128x128_0_7_0_0 : ∀ a, (![0, 7, 0, 0] : Fin 4 → Nat) a + S1x1x128x128.size a ≤ S1x32x128x128.size a
  inb_S1x32x4096_S1x1x4096_0_7_0 : ∀ a, (![0, 7, 0] : Fin 3 → Nat) a + S1x1x4096.size a ≤ S1x32x4096.size a
  inb_S1x32x128x128_S1x1x128x128_0_8_0_0 : ∀ a, (![0, 8, 0, 0] : Fin 4 → Nat) a + S1x1x128x128.size a ≤ S1x32x128x128.size a
  inb_S1x32x4096_S1x1x4096_0_8_0 : ∀ a, (![0, 8, 0] : Fin 3 → Nat) a + S1x1x4096.size a ≤ S1x32x4096.size a
  inb_S1x32x128x128_S1x1x128x128_0_9_0_0 : ∀ a, (![0, 9, 0, 0] : Fin 4 → Nat) a + S1x1x128x128.size a ≤ S1x32x128x128.size a
  inb_S1x32x4096_S1x1x4096_0_9_0 : ∀ a, (![0, 9, 0] : Fin 3 → Nat) a + S1x1x4096.size a ≤ S1x32x4096.size a
  inb_S1x32x128x128_S1x1x128x128_0_10_0_0 : ∀ a, (![0, 10, 0, 0] : Fin 4 → Nat) a + S1x1x128x128.size a ≤ S1x32x128x128.size a
  inb_S1x32x4096_S1x1x4096_0_10_0 : ∀ a, (![0, 10, 0] : Fin 3 → Nat) a + S1x1x4096.size a ≤ S1x32x4096.size a
  inb_S1x32x128x128_S1x1x128x128_0_11_0_0 : ∀ a, (![0, 11, 0, 0] : Fin 4 → Nat) a + S1x1x128x128.size a ≤ S1x32x128x128.size a
  inb_S1x32x4096_S1x1x4096_0_11_0 : ∀ a, (![0, 11, 0] : Fin 3 → Nat) a + S1x1x4096.size a ≤ S1x32x4096.size a
  inb_S1x32x128x128_S1x1x128x128_0_12_0_0 : ∀ a, (![0, 12, 0, 0] : Fin 4 → Nat) a + S1x1x128x128.size a ≤ S1x32x128x128.size a
  inb_S1x32x4096_S1x1x4096_0_12_0 : ∀ a, (![0, 12, 0] : Fin 3 → Nat) a + S1x1x4096.size a ≤ S1x32x4096.size a
  inb_S1x32x128x128_S1x1x128x128_0_13_0_0 : ∀ a, (![0, 13, 0, 0] : Fin 4 → Nat) a + S1x1x128x128.size a ≤ S1x32x128x128.size a
  inb_S1x32x4096_S1x1x4096_0_13_0 : ∀ a, (![0, 13, 0] : Fin 3 → Nat) a + S1x1x4096.size a ≤ S1x32x4096.size a
  inb_S1x32x128x128_S1x1x128x128_0_14_0_0 : ∀ a, (![0, 14, 0, 0] : Fin 4 → Nat) a + S1x1x128x128.size a ≤ S1x32x128x128.size a
  inb_S1x32x4096_S1x1x4096_0_14_0 : ∀ a, (![0, 14, 0] : Fin 3 → Nat) a + S1x1x4096.size a ≤ S1x32x4096.size a
  inb_S1x32x128x128_S1x1x128x128_0_15_0_0 : ∀ a, (![0, 15, 0, 0] : Fin 4 → Nat) a + S1x1x128x128.size a ≤ S1x32x128x128.size a
  inb_S1x32x4096_S1x1x4096_0_15_0 : ∀ a, (![0, 15, 0] : Fin 3 → Nat) a + S1x1x4096.size a ≤ S1x32x4096.size a
  inb_S1x32x128x128_S1x1x128x128_0_16_0_0 : ∀ a, (![0, 16, 0, 0] : Fin 4 → Nat) a + S1x1x128x128.size a ≤ S1x32x128x128.size a
  inb_S1x32x4096_S1x1x4096_0_16_0 : ∀ a, (![0, 16, 0] : Fin 3 → Nat) a + S1x1x4096.size a ≤ S1x32x4096.size a
  inb_S1x32x128x128_S1x1x128x128_0_17_0_0 : ∀ a, (![0, 17, 0, 0] : Fin 4 → Nat) a + S1x1x128x128.size a ≤ S1x32x128x128.size a
  inb_S1x32x4096_S1x1x4096_0_17_0 : ∀ a, (![0, 17, 0] : Fin 3 → Nat) a + S1x1x4096.size a ≤ S1x32x4096.size a
  inb_S1x32x128x128_S1x1x128x128_0_18_0_0 : ∀ a, (![0, 18, 0, 0] : Fin 4 → Nat) a + S1x1x128x128.size a ≤ S1x32x128x128.size a
  inb_S1x32x4096_S1x1x4096_0_18_0 : ∀ a, (![0, 18, 0] : Fin 3 → Nat) a + S1x1x4096.size a ≤ S1x32x4096.size a
  inb_S1x32x128x128_S1x1x128x128_0_19_0_0 : ∀ a, (![0, 19, 0, 0] : Fin 4 → Nat) a + S1x1x128x128.size a ≤ S1x32x128x128.size a
  inb_S1x32x4096_S1x1x4096_0_19_0 : ∀ a, (![0, 19, 0] : Fin 3 → Nat) a + S1x1x4096.size a ≤ S1x32x4096.size a
  inb_S1x32x128x128_S1x1x128x128_0_20_0_0 : ∀ a, (![0, 20, 0, 0] : Fin 4 → Nat) a + S1x1x128x128.size a ≤ S1x32x128x128.size a
  inb_S1x32x4096_S1x1x4096_0_20_0 : ∀ a, (![0, 20, 0] : Fin 3 → Nat) a + S1x1x4096.size a ≤ S1x32x4096.size a
  inb_S1x32x128x128_S1x1x128x128_0_21_0_0 : ∀ a, (![0, 21, 0, 0] : Fin 4 → Nat) a + S1x1x128x128.size a ≤ S1x32x128x128.size a
  inb_S1x32x4096_S1x1x4096_0_21_0 : ∀ a, (![0, 21, 0] : Fin 3 → Nat) a + S1x1x4096.size a ≤ S1x32x4096.size a
  inb_S1x32x128x128_S1x1x128x128_0_22_0_0 : ∀ a, (![0, 22, 0, 0] : Fin 4 → Nat) a + S1x1x128x128.size a ≤ S1x32x128x128.size a
  inb_S1x32x4096_S1x1x4096_0_22_0 : ∀ a, (![0, 22, 0] : Fin 3 → Nat) a + S1x1x4096.size a ≤ S1x32x4096.size a
  inb_S1x32x128x128_S1x1x128x128_0_23_0_0 : ∀ a, (![0, 23, 0, 0] : Fin 4 → Nat) a + S1x1x128x128.size a ≤ S1x32x128x128.size a
  inb_S1x32x4096_S1x1x4096_0_23_0 : ∀ a, (![0, 23, 0] : Fin 3 → Nat) a + S1x1x4096.size a ≤ S1x32x4096.size a
  inb_S1x32x128x128_S1x1x128x128_0_24_0_0 : ∀ a, (![0, 24, 0, 0] : Fin 4 → Nat) a + S1x1x128x128.size a ≤ S1x32x128x128.size a
  inb_S1x32x4096_S1x1x4096_0_24_0 : ∀ a, (![0, 24, 0] : Fin 3 → Nat) a + S1x1x4096.size a ≤ S1x32x4096.size a
  inb_S1x32x128x128_S1x1x128x128_0_25_0_0 : ∀ a, (![0, 25, 0, 0] : Fin 4 → Nat) a + S1x1x128x128.size a ≤ S1x32x128x128.size a
  inb_S1x32x4096_S1x1x4096_0_25_0 : ∀ a, (![0, 25, 0] : Fin 3 → Nat) a + S1x1x4096.size a ≤ S1x32x4096.size a
  inb_S1x32x128x128_S1x1x128x128_0_26_0_0 : ∀ a, (![0, 26, 0, 0] : Fin 4 → Nat) a + S1x1x128x128.size a ≤ S1x32x128x128.size a
  inb_S1x32x4096_S1x1x4096_0_26_0 : ∀ a, (![0, 26, 0] : Fin 3 → Nat) a + S1x1x4096.size a ≤ S1x32x4096.size a
  inb_S1x32x128x128_S1x1x128x128_0_27_0_0 : ∀ a, (![0, 27, 0, 0] : Fin 4 → Nat) a + S1x1x128x128.size a ≤ S1x32x128x128.size a
  inb_S1x32x4096_S1x1x4096_0_27_0 : ∀ a, (![0, 27, 0] : Fin 3 → Nat) a + S1x1x4096.size a ≤ S1x32x4096.size a
  inb_S1x32x128x128_S1x1x128x128_0_28_0_0 : ∀ a, (![0, 28, 0, 0] : Fin 4 → Nat) a + S1x1x128x128.size a ≤ S1x32x128x128.size a
  inb_S1x32x4096_S1x1x4096_0_28_0 : ∀ a, (![0, 28, 0] : Fin 3 → Nat) a + S1x1x4096.size a ≤ S1x32x4096.size a
  inb_S1x32x128x128_S1x1x128x128_0_29_0_0 : ∀ a, (![0, 29, 0, 0] : Fin 4 → Nat) a + S1x1x128x128.size a ≤ S1x32x128x128.size a
  inb_S1x32x4096_S1x1x4096_0_29_0 : ∀ a, (![0, 29, 0] : Fin 3 → Nat) a + S1x1x4096.size a ≤ S1x32x4096.size a
  inb_S1x32x128x128_S1x1x128x128_0_30_0_0 : ∀ a, (![0, 30, 0, 0] : Fin 4 → Nat) a + S1x1x128x128.size a ≤ S1x32x128x128.size a
  inb_S1x32x4096_S1x1x4096_0_30_0 : ∀ a, (![0, 30, 0] : Fin 3 → Nat) a + S1x1x4096.size a ≤ S1x32x4096.size a
  inb_S1x32x128x128_S1x1x128x128_0_31_0_0 : ∀ a, (![0, 31, 0, 0] : Fin 4 → Nat) a + S1x1x128x128.size a ≤ S1x32x128x128.size a
  inb_S1x32x4096_S1x1x4096_0_31_0 : ∀ a, (![0, 31, 0] : Fin 3 → Nat) a + S1x1x4096.size a ≤ S1x32x4096.size a
  shapeCasts_S20x128x4096_S4x5x128x4096 : S20x128x4096.ShapeCasts S4x5x128x4096
  transposes_S4x5x128x4096_S4x4096x5x128_0_3_1_2 : S4x5x128x4096.Transposes [0, 3, 1, 2] S4x4096x5x128
  reducesTo_S4x4096x5x128_S4x4096_d2_3 : S4x4096x5x128.ReducesTo [2, 3] S4x4096
  h_S_ : 0 < S_.numel
  natLt_1_32 : 1 < 32
  reducesTo_S4x5x4096_S4x4096_d1 : S4x5x4096.ReducesTo [1] S4x4096
  bcast_S_S4x4096 : S_.BroadcastsInDim S4x4096 (![] : Fin 0 → Fin S4x4096.rank)
  dot_S4x5x4096x3_S4x5x3x3_S4x5x4096x3_3_3_2_2_01_01_wf : DotDims.WF S4x5x4096x3 S4x5x3x3 S4x5x4096x3 [3] [3] [2] [2] [0, 1] [0, 1]
  dot_S4x5x4096x2_S4x5x2x2_S4x5x4096x2_3_3_2_2_01_01_wf : DotDims.WF S4x5x4096x2 S4x5x2x2 S4x5x4096x2 [3] [3] [2] [2] [0, 1] [0, 1]
  dot_S128x128_S128x4096_S128x4096_1_0_0_1_n_n_wf : DotDims.WF S128x128 S128x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x128.size a ≤ S20x128x128x128.size a
  hwx0_0 : ∀ i : grid0.Coords, EltTy.bits .f32 = 32 ∨ (Rect.block (s := S20x128x128x128) S1x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S20x128x4096.size a
  hwx0_1 : ∀ i : grid0.Coords, EltTy.bits .bf16 = 32 ∨ (Rect.block (s := S20x128x4096) S1x128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S20x128x4096.size a
  hwx0_2 : ∀ i : grid0.Coords, EltTy.bits .bf16 = 32 ∨ (Rect.block (s := S20x128x4096) S1x128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S20x1x4096.size a
  hwx0_3 : ∀ i : grid0.Coords, EltTy.bits .f32 = 32 ∨ (Rect.block (s := S20x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x4096.size a ≤ S20x128x4096.size a
  hwx0_4 : ∀ i : grid0.Coords, EltTy.bits .f32 = 32 ∨ (Rect.block (s := S20x128x4096) S1x32x4096.size (cc0_transform_4 i) (hinb0_4 i)).WholeWords (EltTy.packing .f32)

variable [Facts₀]

def dot_S4x5x4096x3_S4x5x3x3_S4x5x4096x3_3_3_2_2_01_01 : DotDims S4x5x4096x3 S4x5x3x3 S4x5x4096x3 where
  lhsContracting := [3]
  rhsContracting := [3]
  lhsNonContracting := [2]
  rhsNonContracting := [2]
  lhsBatch := [0, 1]
  rhsBatch := [0, 1]
  wf := dot_S4x5x4096x3_S4x5x3x3_S4x5x4096x3_3_3_2_2_01_01_wf
def dot_S4x5x4096x2_S4x5x2x2_S4x5x4096x2_3_3_2_2_01_01 : DotDims S4x5x4096x2 S4x5x2x2 S4x5x4096x2 where
  lhsContracting := [3]
  rhsContracting := [3]
  lhsNonContracting := [2]
  rhsNonContracting := [2]
  lhsBatch := [0, 1]
  rhsBatch := [0, 1]
  wf := dot_S4x5x4096x2_S4x5x2x2_S4x5x4096x2_3_3_2_2_01_01_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf

abbrev win0_0 : Pipeline.Window sig grid0 :=
  Pipeline.Window.ofSpec (Memref.whole main_v186) S1x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v188) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v190) S1x128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v192) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v193) S1x32x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x5x128x128x128 : Shape := ⟨5, ![4, 5, 128, 128, 128]⟩
abbrev S4x4096x5 : Shape := ⟨3, ![4, 4096, 5]⟩
abbrev S4x5x3x3 : Shape := ⟨4, ![4, 5, 3, 3]⟩
abbrev S4x5x3 : Shape := ⟨3, ![4, 5, 3]⟩
abbrev S4x5x2 : Shape := ⟨3, ![4, 5, 2]⟩
abbrev S4x5x2x3 : Shape := ⟨4, ![4, 5, 2, 3]⟩
abbrev S2 : Shape := ⟨1, ![2]⟩
abbrev S4x4096x3 : Shape := ⟨3, ![4, 4096, 3]⟩
abbrev S4x1x4096x3 : Shape := ⟨4, ![4, 1, 4096, 3]⟩
abbrev S4x5x1x3 : Shape := ⟨4, ![4, 5, 1, 3]⟩
abbrev S4x5x4096x3 : Shape := ⟨4, ![4, 5, 4096, 3]⟩
abbrev S4x5x4096x1 : Shape := ⟨4, ![4, 5, 4096, 1]⟩
abbrev S4x5x4096 : Shape := ⟨3, ![4, 5, 4096]⟩
abbrev S4x5x1 : Shape := ⟨3, ![4, 5, 1]⟩
abbrev S_ : Shape := ⟨0, ![]⟩
abbrev S4x5x4096x2 : Shape := ⟨4, ![4, 5, 4096, 2]⟩
abbrev S4x5x1x2 : Shape := ⟨4, ![4, 5, 1, 2]⟩
abbrev S4x5 : Shape := ⟨2, ![4, 5]⟩
abbrev S4x5x1x1 : Shape := ⟨4, ![4, 5, 1, 1]⟩
abbrev S4x5x2x2 : Shape := ⟨4, ![4, 5, 2, 2]⟩
abbrev S4x5x2x1 : Shape := ⟨4, ![4, 5, 2, 1]⟩
abbrev S1x1x1x2 : Shape := ⟨4, ![1, 1, 1, 2]⟩
abbrev S20x128x128x128 : Shape := ⟨4, ![20, 128, 128, 128]⟩
abbrev S20x4096x2 : Shape := ⟨3, ![20, 4096, 2]⟩
abbrev S20x4096x1 : Shape := ⟨3, ![20, 4096, 1]⟩
abbrev S20x4096 : Shape := ⟨2, ![20, 4096]⟩
abbrev S20x128x4096 : Shape := ⟨3, ![20, 128, 4096]⟩
abbrev S20x1x4096 : Shape := ⟨3, ![20, 1, 4096]⟩
abbrev S4x5x128x4096 : Shape := ⟨4, ![4, 5, 128, 4096]⟩
abbrev S4x5x1x4096 : Shape := ⟨4, ![4, 5, 1, 4096]⟩
abbrev S4x4096x5x128 : Shape := ⟨4, ![4, 4096, 5, 128]⟩
abbrev S4x4096 : Shape := ⟨2, ![4, 4096]⟩

abbrev nBuf : Space → Nat
  | .hbm => 454
  | .vmem => 0
  | .smem => 0
  | _ => 0

abbrev hbmTy0_0 (i : Nat) : BufTy := match i % 128 with
  | 0 => ⟨S4x5x128x128x128, .f32⟩
  | 1 => ⟨S4x4096x5, .f32⟩
  | 2 => ⟨S4x5x3x3, .f32⟩
  | 3 => ⟨S4x5x3, .f32⟩
  | 4 => ⟨S4x5x2, .f32⟩
  | 5 => ⟨S4x5x2, .f32⟩
  | 6 => ⟨S4x5x3, .f32⟩
  | 7 => ⟨S4x5x2, .f32⟩
  | 8 => ⟨S4x5x2x3, .f32⟩
  | 9 => ⟨S4x5x2, .f32⟩
  | 10 => ⟨S2, .f32⟩
  | 11 => ⟨S4x4096x3, .f32⟩
  | 12 => ⟨S4x1x4096x3, .f32⟩
  | 13 => ⟨S4x5x1x3, .f32⟩
  | 14 => ⟨S4x5x4096x3, .f32⟩
  | 15 => ⟨S4x5x4096x3, .f32⟩
  | 16 => ⟨S4x5x4096x3, .f32⟩
  | 17 => ⟨S4x5x4096x3, .f32⟩
  | 18 => ⟨S4x5x4096x1, .f32⟩
  | 19 => ⟨S4x5x4096, .f32⟩
  | 20 => ⟨S4x5x4096x1, .f32⟩
  | 21 => ⟨S4x5x4096, .f32⟩
  | 22 => ⟨S4x5x4096, .f32⟩
  | 23 => ⟨S4x5x4096x1, .f32⟩
  | 24 => ⟨S4x5x4096, .f32⟩
  | 25 => ⟨S4x5x4096x1, .f32⟩
  | 26 => ⟨S4x5x4096, .f32⟩
  | 27 => ⟨S4x5x4096, .f32⟩
  | 28 => ⟨S4x5x4096, .f32⟩
  | 29 => ⟨S4x5x4096, .f32⟩
  | 30 => ⟨S4x5x4096, .f32⟩
  | 31 => ⟨S4x5x1, .f32⟩
  | 32 => ⟨S4x5x1, .f32⟩
  | 33 => ⟨S4x5x1, .f32⟩
  | 34 => ⟨S4x5x1, .f32⟩
  | 35 => ⟨S4x5x1, .f32⟩
  | 36 => ⟨S4x5x4096, .f32⟩
  | 37 => ⟨S4x5x4096, .f32⟩
  | 38 => ⟨S_, .f32⟩
  | 39 => ⟨S4x5x4096, .f32⟩
  | 40 => ⟨S4x5x4096, .f32⟩
  | 41 => ⟨S4x5x4096, .f32⟩
  | 42 => ⟨S4x5x4096, .f32⟩
  | 43 => ⟨S4x5x4096, .f32⟩
  | 44 => ⟨S4x5x4096, .f32⟩
  | 45 => ⟨S4x5x4096, .f32⟩
  | 46 => ⟨S4x5x4096, .f32⟩
  | 47 => ⟨S4x5x4096, .f32⟩
  | 48 => ⟨S4x5x4096, .f32⟩
  | 49 => ⟨S4x5x4096, .f32⟩
  | 50 => ⟨S4x5x4096, .f32⟩
  | 51 => ⟨S_, .f32⟩
  | 52 => ⟨S4x5x1, .f32⟩
  | 53 => ⟨S4x5x1, .f32⟩
  | 54 => ⟨S4x5x4096, .f32⟩
  | 55 => ⟨S4x5x4096, .f32⟩
  | 56 => ⟨S4x5x4096, .f32⟩
  | 57 => ⟨S4x5x4096, .f32⟩
  | 58 => ⟨S_, .f32⟩
  | 59 => ⟨S4x5x4096, .f32⟩
  | 60 => ⟨S4x5x4096, .f32⟩
  | 61 => ⟨S4x5x4096, .f32⟩
  | 62 => ⟨S4x5x4096, .f32⟩
  | 63 => ⟨S4x5x4096, .f32⟩
  | 64 => ⟨S4x5x4096, .f32⟩
  | 65 => ⟨S4x5x4096, .f32⟩
  | 66 => ⟨S4x5x4096, .f32⟩
  | 67 => ⟨S_, .f32⟩
  | 68 => ⟨S4x5x4096, .f32⟩
  | 69 => ⟨S4x5x4096, .f32⟩
  | 70 => ⟨S4x5x4096, .f32⟩
  | 71 => ⟨S4x5x4096, .f32⟩
  | 72 => ⟨S4x5x4096, .f32⟩
  | 73 => ⟨S4x5x4096, .f32⟩
  | 74 => ⟨S4x5x4096, .f32⟩
  | 75 => ⟨S_, .f32⟩
  | 76 => ⟨S4x5x1, .f32⟩
  | 77 => ⟨S4x5x1, .f32⟩
  | 78 => ⟨S4x5x4096, .f32⟩
  | 79 => ⟨S4x5x4096, .f32⟩
  | 80 => ⟨S4x5x4096, .f32⟩
  | 81 => ⟨S4x5x4096, .f32⟩
  | 82 => ⟨S4x5x4096x1, .f32⟩
  | 83 => ⟨S4x5x4096x1, .f32⟩
  | 84 => ⟨S4x5x4096x2, .f32⟩
  | 85 => ⟨S4x5x1x2, .f32⟩
  | 86 => ⟨S4x5x4096x2, .f32⟩
  | 87 => ⟨S4x5x4096x2, .f32⟩
  | 88 => ⟨S4x5x1x2, .f32⟩
  | 89 => ⟨S4x5x4096x2, .f32⟩
  | 90 => ⟨S4x5x4096x2, .f32⟩
  | 91 => ⟨S4x5x1, .f32⟩
  | 92 => ⟨S4x5x1, .f32⟩
  | 93 => ⟨S4x5x4096x1, .f32⟩
  | 94 => ⟨S4x5x4096, .f32⟩
  | 95 => ⟨S_, .f32⟩
  | 96 => ⟨S4x5x4096, .f32⟩
  | 97 => ⟨S4x5x4096, .i1⟩
  | 98 => ⟨S4x5x4096x1, .f32⟩
  | 99 => ⟨S4x5x4096, .f32⟩
  | 100 => ⟨S_, .f32⟩
  | 101 => ⟨S4x5x4096, .f32⟩
  | 102 => ⟨S4x5x4096, .i1⟩
  | 103 => ⟨S4x5x4096, .i1⟩
  | 104 => ⟨S4x5x4096x1, .f32⟩
  | 105 => ⟨S4x5x4096, .f32⟩
  | 106 => ⟨S4x5x4096, .f32⟩
  | 107 => ⟨S4x5x4096, .i1⟩
  | 108 => ⟨S4x5x4096, .i1⟩
  | 109 => ⟨S4x5x4096x1, .f32⟩
  | 110 => ⟨S4x5x4096, .f32⟩
  | 111 => ⟨S4x5x4096, .f32⟩
  | 112 => ⟨S4x5x4096, .i1⟩
  | 113 => ⟨S4x5x4096, .i1⟩
  | 114 => ⟨S4x5x4096, .f32⟩
  | 115 => ⟨S4x5x1, .f32⟩
  | 116 => ⟨S4x5, .f32⟩
  | 117 => ⟨S4x5x1, .f32⟩
  | 118 => ⟨S4x5, .f32⟩
  | 119 => ⟨S4x5, .f32⟩
  | 120 => ⟨S4x5x1x1, .f32⟩
  | 121 => ⟨S_, .f32⟩
  | 122 => ⟨S_, .f32⟩
  | 123 => ⟨S4x5x4096x2, .f32⟩
  | 124 => ⟨S4x5x4096x2, .f32⟩
  | 125 => ⟨S4x5x4096x2, .f32⟩
  | 126 => ⟨S4x5x4096x2, .f32⟩
  | 127 => ⟨S4x5x2x2, .f32⟩
  | _ => ⟨S4x5x128x128x128, .f32⟩

abbrev hbmTy0_1 (i : Nat) : BufTy := match i % 128 with
  | 0 => ⟨S4x5x4096x2, .f32⟩
  | 1 => ⟨S4x5x2x1, .f32⟩
  | 2 => ⟨S4x5x2, .f32⟩
  | 3 => ⟨S4x5x1x2, .f32⟩
  | 4 => ⟨S4x5x4096x2, .f32⟩
  | 5 => ⟨S4x5x4096x2, .f32⟩
  | 6 => ⟨S_, .f32⟩
  | 7 => ⟨S2, .f32⟩
  | 8 => ⟨S2, .f32⟩
  | 9 => ⟨S1x1x1x2, .f32⟩
  | 10 => ⟨S4x5x4096x2, .f32⟩
  | 11 => ⟨S4x5x4096x2, .f32⟩
  | 12 => ⟨S_, .f32⟩
  | 13 => ⟨S4x5x4096x2, .f32⟩
  | 14 => ⟨S4x5x4096x2, .f32⟩
  | 15 => ⟨S_, .f32⟩
  | 16 => ⟨S4x5x4096x2, .f32⟩
  | 17 => ⟨S4x5x4096x2, .f32⟩
  | 18 => ⟨S_, .f32⟩
  | 19 => ⟨S_, .f32⟩
  | 20 => ⟨S_, .f32⟩
  | 21 => ⟨S4x5x4096x2, .f32⟩
  | 22 => ⟨S4x5x4096x2, .f32⟩
  | 23 => ⟨S_, .f32⟩
  | 24 => ⟨S4x5x4096x2, .f32⟩
  | 25 => ⟨S4x5x4096x2, .f32⟩
  | 26 => ⟨S20x128x128x128, .f32⟩
  | 27 => ⟨S20x4096x2, .f32⟩
  | 28 => ⟨S20x4096x1, .f32⟩
  | 29 => ⟨S20x4096, .f32⟩
  | 30 => ⟨S_, .f32⟩
  | 31 => ⟨S20x4096, .f32⟩
  | 32 => ⟨S20x4096, .f32⟩
  | 33 => ⟨S_, .f32⟩
  | 34 => ⟨S20x4096, .f32⟩
  | 35 => ⟨S20x4096, .f32⟩
  | 36 => ⟨S_, .f32⟩
  | 37 => ⟨S20x4096, .f32⟩
  | 38 => ⟨S20x4096, .f32⟩
  | 39 => ⟨S20x4096x1, .f32⟩
  | 40 => ⟨S20x4096, .f32⟩
  | 41 => ⟨S_, .f32⟩
  | 42 => ⟨S20x4096, .f32⟩
  | 43 => ⟨S20x4096, .f32⟩
  | 44 => ⟨S_, .f32⟩
  | 45 => ⟨S20x4096, .f32⟩
  | 46 => ⟨S20x4096, .f32⟩
  | 47 => ⟨S_, .f32⟩
  | 48 => ⟨S20x4096, .f32⟩
  | 49 => ⟨S20x4096, .f32⟩
  | 50 => ⟨S20x4096, .f32⟩
  | 51 => ⟨S20x4096, .f32⟩
  | 52 => ⟨S20x4096, .f32⟩
  | 53 => ⟨S_, .f32⟩
  | 54 => ⟨S20x4096, .f32⟩
  | 55 => ⟨S20x4096, .f32⟩
  | 56 => ⟨S20x4096, .f32⟩
  | 57 => ⟨S_, .f32⟩
  | 58 => ⟨S20x4096, .f32⟩
  | 59 => ⟨S20x4096, .f32⟩
  | 60 => ⟨S_, .f32⟩
  | 61 => ⟨S20x4096, .f32⟩
  | 62 => ⟨S20x4096, .i1⟩
  | 63 => ⟨S_, .f32⟩
  | 64 => ⟨S20x4096, .f32⟩
  | 65 => ⟨S20x4096, .i1⟩
  | 66 => ⟨S20x4096, .i1⟩
  | 67 => ⟨S_, .f32⟩
  | 68 => ⟨S20x4096, .f32⟩
  | 69 => ⟨S20x4096, .i1⟩
  | 70 => ⟨S20x4096, .i1⟩
  | 71 => ⟨S_, .f32⟩
  | 72 => ⟨S20x4096, .f32⟩
  | 73 => ⟨S20x4096, .i1⟩
  | 74 => ⟨S20x4096, .i1⟩
  | 75 => ⟨S_, .i32⟩
  | 76 => ⟨S_, .i32⟩
  | 77 => ⟨S_, .f32⟩
  | 78 => ⟨S20x4096, .f32⟩
  | 79 => ⟨S20x4096, .f32⟩
  | 80 => ⟨S_, .f32⟩
  | 81 => ⟨S20x4096, .f32⟩
  | 82 => ⟨S20x4096, .f32⟩
  | 83 => ⟨S20x4096, .i32⟩
  | 84 => ⟨S_, .i32⟩
  | 85 => ⟨S_, .i32⟩
  | 86 => ⟨S_, .f32⟩
  | 87 => ⟨S20x4096, .f32⟩
  | 88 => ⟨S20x4096, .f32⟩
  | 89 => ⟨S_, .f32⟩
  | 90 => ⟨S20x4096, .f32⟩
  | 91 => ⟨S20x4096, .f32⟩
  | 92 => ⟨S20x4096, .i32⟩
  | 93 => ⟨S_, .i32⟩
  | 94 => ⟨S20x4096, .i32⟩
  | 95 => ⟨S20x4096, .i1⟩
  | 96 => ⟨S_, .i32⟩
  | 97 => ⟨S20x4096, .i32⟩
  | 98 => ⟨S20x4096, .i32⟩
  | 99 => ⟨S20x4096, .i32⟩
  | 100 => ⟨S_, .i32⟩
  | 101 => ⟨S20x4096, .i32⟩
  | 102 => ⟨S20x4096, .i1⟩
  | 103 => ⟨S_, .i32⟩
  | 104 => ⟨S20x4096, .i32⟩
  | 105 => ⟨S20x4096, .i32⟩
  | 106 => ⟨S20x4096, .i32⟩
  | 107 => ⟨S20x4096x1, .i32⟩
  | 108 => ⟨S20x4096x1, .i32⟩
  | 109 => ⟨S20x4096x2, .i32⟩
  | 110 => ⟨S20x128x4096, .f32⟩
  | 111 => ⟨S20x4096, .f32⟩
  | 112 => ⟨S20x1x4096, .f32⟩
  | 113 => ⟨S20x128x4096, .f32⟩
  | 114 => ⟨S20x128x4096, .f32⟩
  | 115 => ⟨S20x4096, .f32⟩
  | 116 => ⟨S20x1x4096, .f32⟩
  | 117 => ⟨S20x128x4096, .f32⟩
  | 118 => ⟨S20x128x4096, .f32⟩
  | 119 => ⟨S_, .f32⟩
  | 120 => ⟨S20x4096, .f32⟩
  | 121 => ⟨S20x4096, .f32⟩
  | 122 => ⟨S_, .f32⟩
  | 123 => ⟨S20x4096, .f32⟩
  | 124 => ⟨S20x4096, .i1⟩
  | 125 => ⟨S_, .f32⟩
  | 126 => ⟨S20x4096, .f32⟩
  | 127 => ⟨S20x4096, .i1⟩
  | _ => ⟨S4x5x128x128x128, .f32⟩

abbrev hbmTy0_2 (i : Nat) : BufTy := match i % 128 with
  | 0 => ⟨S20x4096, .i1⟩
  | 1 => ⟨S_, .f32⟩
  | 2 => ⟨S20x4096, .f32⟩
  | 3 => ⟨S20x4096, .i1⟩
  | 4 => ⟨S20x4096, .i1⟩
  | 5 => ⟨S_, .f32⟩
  | 6 => ⟨S20x4096, .f32⟩
  | 7 => ⟨S20x4096, .i1⟩
  | 8 => ⟨S20x4096, .i1⟩
  | 9 => ⟨S_, .i32⟩
  | 10 => ⟨S_, .i32⟩
  | 11 => ⟨S_, .f32⟩
  | 12 => ⟨S20x4096, .f32⟩
  | 13 => ⟨S20x4096, .f32⟩
  | 14 => ⟨S_, .f32⟩
  | 15 => ⟨S20x4096, .f32⟩
  | 16 => ⟨S20x4096, .f32⟩
  | 17 => ⟨S20x4096, .i32⟩
  | 18 => ⟨S_, .i32⟩
  | 19 => ⟨S_, .i32⟩
  | 20 => ⟨S_, .f32⟩
  | 21 => ⟨S20x4096, .f32⟩
  | 22 => ⟨S20x4096, .f32⟩
  | 23 => ⟨S_, .f32⟩
  | 24 => ⟨S20x4096, .f32⟩
  | 25 => ⟨S20x4096, .f32⟩
  | 26 => ⟨S20x4096, .i32⟩
  | 27 => ⟨S_, .i32⟩
  | 28 => ⟨S20x4096, .i32⟩
  | 29 => ⟨S20x4096, .i1⟩
  | 30 => ⟨S_, .i32⟩
  | 31 => ⟨S20x4096, .i32⟩
  | 32 => ⟨S20x4096, .i32⟩
  | 33 => ⟨S20x4096, .i32⟩
  | 34 => ⟨S_, .i32⟩
  | 35 => ⟨S20x4096, .i32⟩
  | 36 => ⟨S20x4096, .i1⟩
  | 37 => ⟨S_, .i32⟩
  | 38 => ⟨S20x4096, .i32⟩
  | 39 => ⟨S20x4096, .i32⟩
  | 40 => ⟨S20x4096, .i32⟩
  | 41 => ⟨S20x4096x1, .i32⟩
  | 42 => ⟨S20x4096x1, .i32⟩
  | 43 => ⟨S20x4096x2, .i32⟩
  | 44 => ⟨S20x128x4096, .f32⟩
  | 45 => ⟨S20x4096, .f32⟩
  | 46 => ⟨S20x1x4096, .f32⟩
  | 47 => ⟨S20x128x4096, .f32⟩
  | 48 => ⟨S20x128x4096, .f32⟩
  | 49 => ⟨S20x4096, .f32⟩
  | 50 => ⟨S20x1x4096, .f32⟩
  | 51 => ⟨S20x128x4096, .f32⟩
  | 52 => ⟨S20x128x4096, .f32⟩
  | 53 => ⟨S20x128x4096, .f32⟩
  | 54 => ⟨S_, .f32⟩
  | 55 => ⟨S20x4096, .f32⟩
  | 56 => ⟨S20x4096, .f32⟩
  | 57 => ⟨S_, .f32⟩
  | 58 => ⟨S20x4096, .f32⟩
  | 59 => ⟨S20x4096, .i1⟩
  | 60 => ⟨S_, .f32⟩
  | 61 => ⟨S20x4096, .f32⟩
  | 62 => ⟨S20x4096, .i1⟩
  | 63 => ⟨S20x4096, .i1⟩
  | 64 => ⟨S_, .f32⟩
  | 65 => ⟨S20x4096, .f32⟩
  | 66 => ⟨S20x4096, .i1⟩
  | 67 => ⟨S20x4096, .i1⟩
  | 68 => ⟨S_, .f32⟩
  | 69 => ⟨S20x4096, .f32⟩
  | 70 => ⟨S20x4096, .i1⟩
  | 71 => ⟨S20x4096, .i1⟩
  | 72 => ⟨S_, .i32⟩
  | 73 => ⟨S_, .i32⟩
  | 74 => ⟨S_, .f32⟩
  | 75 => ⟨S20x4096, .f32⟩
  | 76 => ⟨S20x4096, .f32⟩
  | 77 => ⟨S_, .f32⟩
  | 78 => ⟨S20x4096, .f32⟩
  | 79 => ⟨S20x4096, .f32⟩
  | 80 => ⟨S20x4096, .i32⟩
  | 81 => ⟨S_, .i32⟩
  | 82 => ⟨S_, .i32⟩
  | 83 => ⟨S_, .f32⟩
  | 84 => ⟨S20x4096, .f32⟩
  | 85 => ⟨S20x4096, .f32⟩
  | 86 => ⟨S_, .f32⟩
  | 87 => ⟨S20x4096, .f32⟩
  | 88 => ⟨S20x4096, .f32⟩
  | 89 => ⟨S20x4096, .i32⟩
  | 90 => ⟨S_, .i32⟩
  | 91 => ⟨S20x4096, .i32⟩
  | 92 => ⟨S20x4096, .i1⟩
  | 93 => ⟨S_, .i32⟩
  | 94 => ⟨S20x4096, .i32⟩
  | 95 => ⟨S20x4096, .i32⟩
  | 96 => ⟨S20x4096, .i32⟩
  | 97 => ⟨S_, .i32⟩
  | 98 => ⟨S20x4096, .i32⟩
  | 99 => ⟨S20x4096, .i1⟩
  | 100 => ⟨S_, .i32⟩
  | 101 => ⟨S20x4096, .i32⟩
  | 102 => ⟨S20x4096, .i32⟩
  | 103 => ⟨S20x4096, .i32⟩
  | 104 => ⟨S20x4096x1, .i32⟩
  | 105 => ⟨S20x4096x1, .i32⟩
  | 106 => ⟨S20x4096x2, .i32⟩
  | 107 => ⟨S20x128x4096, .f32⟩
  | 108 => ⟨S20x4096, .f32⟩
  | 109 => ⟨S20x1x4096, .f32⟩
  | 110 => ⟨S20x128x4096, .f32⟩
  | 111 => ⟨S20x128x4096, .f32⟩
  | 112 => ⟨S20x4096, .f32⟩
  | 113 => ⟨S20x1x4096, .f32⟩
  | 114 => ⟨S20x128x4096, .f32⟩
  | 115 => ⟨S20x128x4096, .f32⟩
  | 116 => ⟨S20x128x4096, .f32⟩
  | 117 => ⟨S_, .f32⟩
  | 118 => ⟨S20x4096, .f32⟩
  | 119 => ⟨S20x4096, .f32⟩
  | 120 => ⟨S_, .f32⟩
  | 121 => ⟨S20x4096, .f32⟩
  | 122 => ⟨S20x4096, .f32⟩
  | 123 => ⟨S_, .f32⟩
  | 124 => ⟨S20x4096, .f32⟩
  | 125 => ⟨S20x4096, .i1⟩
  | 126 => ⟨S_, .f32⟩
  | 127 => ⟨S20x4096, .f32⟩
  | _ => ⟨S4x5x128x128x128, .f32⟩

abbrev hbmTy0_3 (i : Nat) : BufTy := match i % 128 with
  | 0 => ⟨S20x4096, .i1⟩
  | 1 => ⟨S20x4096, .i1⟩
  | 2 => ⟨S_, .f32⟩
  | 3 => ⟨S20x4096, .f32⟩
  | 4 => ⟨S20x4096, .i1⟩
  | 5 => ⟨S20x4096, .i1⟩
  | 6 => ⟨S_, .f32⟩
  | 7 => ⟨S20x4096, .f32⟩
  | 8 => ⟨S20x4096, .i1⟩
  | 9 => ⟨S20x4096, .i1⟩
  | 10 => ⟨S_, .i32⟩
  | 11 => ⟨S_, .i32⟩
  | 12 => ⟨S_, .f32⟩
  | 13 => ⟨S20x4096, .f32⟩
  | 14 => ⟨S20x4096, .f32⟩
  | 15 => ⟨S_, .f32⟩
  | 16 => ⟨S20x4096, .f32⟩
  | 17 => ⟨S20x4096, .f32⟩
  | 18 => ⟨S20x4096, .i32⟩
  | 19 => ⟨S_, .i32⟩
  | 20 => ⟨S_, .i32⟩
  | 21 => ⟨S_, .f32⟩
  | 22 => ⟨S20x4096, .f32⟩
  | 23 => ⟨S20x4096, .f32⟩
  | 24 => ⟨S_, .f32⟩
  | 25 => ⟨S20x4096, .f32⟩
  | 26 => ⟨S20x4096, .f32⟩
  | 27 => ⟨S20x4096, .i32⟩
  | 28 => ⟨S_, .i32⟩
  | 29 => ⟨S20x4096, .i32⟩
  | 30 => ⟨S20x4096, .i1⟩
  | 31 => ⟨S_, .i32⟩
  | 32 => ⟨S20x4096, .i32⟩
  | 33 => ⟨S20x4096, .i32⟩
  | 34 => ⟨S20x4096, .i32⟩
  | 35 => ⟨S_, .i32⟩
  | 36 => ⟨S20x4096, .i32⟩
  | 37 => ⟨S20x4096, .i1⟩
  | 38 => ⟨S_, .i32⟩
  | 39 => ⟨S20x4096, .i32⟩
  | 40 => ⟨S20x4096, .i32⟩
  | 41 => ⟨S20x4096, .i32⟩
  | 42 => ⟨S20x4096x1, .i32⟩
  | 43 => ⟨S20x4096x1, .i32⟩
  | 44 => ⟨S20x4096x2, .i32⟩
  | 45 => ⟨S20x128x4096, .f32⟩
  | 46 => ⟨S20x4096, .f32⟩
  | 47 => ⟨S20x1x4096, .f32⟩
  | 48 => ⟨S20x128x4096, .f32⟩
  | 49 => ⟨S20x128x4096, .f32⟩
  | 50 => ⟨S20x4096, .f32⟩
  | 51 => ⟨S20x1x4096, .f32⟩
  | 52 => ⟨S20x128x4096, .f32⟩
  | 53 => ⟨S20x128x4096, .f32⟩
  | 54 => ⟨S20x128x4096, .f32⟩
  | 55 => ⟨S4x5x128x4096, .f32⟩
  | 56 => ⟨S4x5x1x4096, .f32⟩
  | 57 => ⟨S4x5x128x4096, .f32⟩
  | 58 => ⟨S4x5x128x4096, .f32⟩
  | 59 => ⟨S4x4096x5x128, .f32⟩
  | 60 => ⟨S4x4096x5x128, .i1⟩
  | 61 => ⟨S_, .i1⟩
  | 62 => ⟨S4x4096, .i1⟩
  | 63 => ⟨S4x4096, .i1⟩
  | 64 => ⟨S_, .f32⟩
  | 65 => ⟨S4x4096, .f32⟩
  | 66 => ⟨S_, .f32⟩
  | 67 => ⟨S4x4096, .f32⟩
  | 68 => ⟨S4x4096, .i1⟩
  | 69 => ⟨S4x4096, .i1⟩
  | _ => ⟨S4x5x128x128x128, .f32⟩

abbrev hbmTy (i : Nat) : BufTy := match i / 128 with
  | 0 => hbmTy0_0 i
  | 1 => hbmTy0_1 i
  | 2 => hbmTy0_2 i
  | 3 => hbmTy0_3 i
  | _ => ⟨S4x5x128x128x128, .f32⟩

abbrev bufTy : (tb : Table) → Fin (tcTables nBuf tb) → BufTy
  | .hbm, ⟨i, _⟩ => hbmTy i
  | _, _ => ⟨S4x5x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_2 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_3 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_4 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_5 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_6 : Ref sig .tc := ⟨.hbm, 121, rfl⟩
abbrev main_call0_v0 : Ref sig .tc := ⟨.hbm, 122, rfl⟩
abbrev main_call0_v1 : Ref sig .tc := ⟨.hbm, 123, rfl⟩
abbrev main_call0_v2 : Ref sig .tc := ⟨.hbm, 124, rfl⟩
abbrev main_call0_v3 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_7 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_8 : Ref sig .tc := ⟨.hbm, 140, rfl⟩
abbrev main_v116 : Ref sig .tc := ⟨.hbm, 141, rfl⟩
abbrev main_v117 : Ref sig .tc := ⟨.hbm, 142, rfl⟩
abbrev main_cst_9 : Ref sig .tc := ⟨.hbm, 143, rfl⟩
abbrev main_v118 : Ref sig .tc := ⟨.hbm, 144, rfl⟩
abbrev main_v119 : Ref sig .tc := ⟨.hbm, 145, rfl⟩
abbrev main_cst_10 : Ref sig .tc := ⟨.hbm, 146, rfl⟩
abbrev main_cst_11 : Ref sig .tc := ⟨.hbm, 147, rfl⟩
abbrev main_call1_v0 : Ref sig .tc := ⟨.hbm, 148, rfl⟩
abbrev main_call1_v1 : Ref sig .tc := ⟨.hbm, 149, rfl⟩
abbrev main_call1_v2 : Ref sig .tc := ⟨.hbm, 150, rfl⟩
abbrev main_call1_v3 : Ref sig .tc := ⟨.hbm, 151, rfl⟩
abbrev main_call1_v4 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_12 : Ref sig .tc := ⟨.hbm, 158, rfl⟩
abbrev main_v125 : Ref sig .tc := ⟨.hbm, 159, rfl⟩
abbrev main_v126 : Ref sig .tc := ⟨.hbm, 160, rfl⟩
abbrev main_cst_13 : Ref sig .tc := ⟨.hbm, 161, rfl⟩
abbrev main_v127 : Ref sig .tc := ⟨.hbm, 162, rfl⟩
abbrev main_v128 : Ref sig .tc := ⟨.hbm, 163, rfl⟩
abbrev main_cst_14 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_15 : Ref sig .tc := ⟨.hbm, 169, rfl⟩
abbrev main_v133 : Ref sig .tc := ⟨.hbm, 170, rfl⟩
abbrev main_v134 : Ref sig .tc := ⟨.hbm, 171, rfl⟩
abbrev main_cst_16 : Ref sig .tc := ⟨.hbm, 172, rfl⟩
abbrev main_v135 : Ref sig .tc := ⟨.hbm, 173, rfl⟩
abbrev main_v136 : Ref sig .tc := ⟨.hbm, 174, rfl⟩
abbrev main_cst_17 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_18 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_19 : Ref sig .tc := ⟨.hbm, 185, rfl⟩
abbrev main_v145 : Ref sig .tc := ⟨.hbm, 186, rfl⟩
abbrev main_v146 : Ref sig .tc := ⟨.hbm, 187, rfl⟩
abbrev main_cst_20 : Ref sig .tc := ⟨.hbm, 188, rfl⟩
abbrev main_v147 : Ref sig .tc := ⟨.hbm, 189, rfl⟩
abbrev main_v148 : Ref sig .tc := ⟨.hbm, 190, rfl⟩
abbrev main_cst_21 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_22 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_23 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_c : Ref sig .tc := ⟨.hbm, 203, rfl⟩
abbrev main_c_24 : Ref sig .tc := ⟨.hbm, 204, rfl⟩
abbrev main_call2_v0 : Ref sig .tc := ⟨.hbm, 205, rfl⟩
abbrev main_call2_v1 : Ref sig .tc := ⟨.hbm, 206, rfl⟩
abbrev main_call2_v2 : Ref sig .tc := ⟨.hbm, 207, rfl⟩
abbrev main_call2_v3 : Ref sig .tc := ⟨.hbm, 208, rfl⟩
abbrev main_call2_v4 : Ref sig .tc := ⟨.hbm, 209, rfl⟩
abbrev main_v158 : Ref sig .tc := ⟨.hbm, 210, rfl⟩
abbrev main_v159 : Ref sig .tc := ⟨.hbm, 211, rfl⟩
abbrev main_c_25 : Ref sig .tc := ⟨.hbm, 212, rfl⟩
abbrev main_c_26 : Ref sig .tc := ⟨.hbm, 213, rfl⟩
abbrev main_call3_v0 : Ref sig .tc := ⟨.hbm, 214, rfl⟩
abbrev main_call3_v1 : Ref sig .tc := ⟨.hbm, 215, rfl⟩
abbrev main_call3_v2 : Ref sig .tc := ⟨.hbm, 216, rfl⟩
abbrev main_call3_v3 : Ref sig .tc := ⟨.hbm, 217, rfl⟩
abbrev main_call3_v4 : Ref sig .tc := ⟨.hbm, 218, rfl⟩
abbrev main_v160 : Ref sig .tc := ⟨.hbm, 219, rfl⟩
abbrev main_v161 : Ref sig .tc := ⟨.hbm, 220, rfl⟩
abbrev main_c_27 : Ref sig .tc := ⟨.hbm, 221, rfl⟩
abbrev main_v162 : Ref sig .tc := ⟨.hbm, 222, rfl⟩
abbrev main_v163 : Ref sig .tc := ⟨.hbm, 223, rfl⟩
abbrev main_c_28 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_c_29 : Ref sig .tc := ⟨.hbm, 228, rfl⟩
abbrev main_v167 : Ref sig .tc := ⟨.hbm, 229, rfl⟩
abbrev main_v168 : Ref sig .tc := ⟨.hbm, 230, rfl⟩
abbrev main_c_30 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_cst_31 : Ref sig .tc := ⟨.hbm, 247, rfl⟩
abbrev main_v184 : Ref sig .tc := ⟨.hbm, 248, rfl⟩
abbrev main_v185 : Ref sig .tc := ⟨.hbm, 249, rfl⟩
abbrev main_cst_32 : Ref sig .tc := ⟨.hbm, 250, rfl⟩
abbrev main_v186 : Ref sig .tc := ⟨.hbm, 251, rfl⟩
abbrev main_v187 : Ref sig .tc := ⟨.hbm, 252, rfl⟩
abbrev main_cst_33 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_cst_34 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_cst_35 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_c_36 : Ref sig .tc := ⟨.hbm, 265, rfl⟩
abbrev main_c_37 : Ref sig .tc := ⟨.hbm, 266, rfl⟩
abbrev main_call4_v0 : Ref sig .tc := ⟨.hbm, 267, rfl⟩
abbrev main_call4_v1 : Ref sig .tc := ⟨.hbm, 268, rfl⟩
abbrev main_call4_v2 : Ref sig .tc := ⟨.hbm, 269, rfl⟩
abbrev main_call4_v3 : Ref sig .tc := ⟨.hbm, 270, rfl⟩
abbrev main_call4_v4 : Ref sig .tc := ⟨.hbm, 271, rfl⟩
abbrev main_v197 : Ref sig .tc := ⟨.hbm, 272, rfl⟩
abbrev main_v198 : Ref sig .tc := ⟨.hbm, 273, rfl⟩
abbrev main_c_38 : Ref sig .tc := ⟨.hbm, 274, rfl⟩
abbrev main_c_39 : Ref sig .tc := ⟨.hbm, 275, rfl⟩
abbrev main_call5_v0 : Ref sig .tc := ⟨.hbm, 276, rfl⟩
abbrev main_call5_v1 : Ref sig .tc := ⟨.hbm, 277, rfl⟩
abbrev main_call5_v2 : Ref sig .tc := ⟨.hbm, 278, rfl⟩
abbrev main_call5_v3 : Ref sig .tc := ⟨.hbm, 279, rfl⟩
abbrev main_call5_v4 : Ref sig .tc := ⟨.hbm, 280, rfl⟩
abbrev main_v199 : Ref sig .tc := ⟨.hbm, 281, rfl⟩
abbrev main_v200 : Ref sig .tc := ⟨.hbm, 282, rfl⟩
abbrev main_c_40 : Ref sig .tc := ⟨.hbm, 283, rfl⟩
abbrev main_v201 : Ref sig .tc := ⟨.hbm, 284, rfl⟩
abbrev main_v202 : Ref sig .tc := ⟨.hbm, 285, rfl⟩
abbrev main_c_41 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_c_42 : Ref sig .tc := ⟨.hbm, 290, rfl⟩
abbrev main_v206 : Ref sig .tc := ⟨.hbm, 291, rfl⟩
abbrev main_v207 : Ref sig .tc := ⟨.hbm, 292, rfl⟩
abbrev main_c_43 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_cst_44 : Ref sig .tc := ⟨.hbm, 310, rfl⟩
abbrev main_v224 : Ref sig .tc := ⟨.hbm, 311, rfl⟩
abbrev main_v225 : Ref sig .tc := ⟨.hbm, 312, rfl⟩
abbrev main_cst_45 : Ref sig .tc := ⟨.hbm, 313, rfl⟩
abbrev main_v226 : Ref sig .tc := ⟨.hbm, 314, rfl⟩
abbrev main_v227 : Ref sig .tc := ⟨.hbm, 315, rfl⟩
abbrev main_cst_46 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_cst_47 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_cst_48 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_c_49 : Ref sig .tc := ⟨.hbm, 328, rfl⟩
abbrev main_c_50 : Ref sig .tc := ⟨.hbm, 329, rfl⟩
abbrev main_call6_v0 : Ref sig .tc := ⟨.hbm, 330, rfl⟩
abbrev main_call6_v1 : Ref sig .tc := ⟨.hbm, 331, rfl⟩
abbrev main_call6_v2 : Ref sig .tc := ⟨.hbm, 332, rfl⟩
abbrev main_call6_v3 : Ref sig .tc := ⟨.hbm, 333, rfl⟩
abbrev main_call6_v4 : Ref sig .tc := ⟨.hbm, 334, rfl⟩
abbrev main_v237 : Ref sig .tc := ⟨.hbm, 335, rfl⟩
abbrev main_v238 : Ref sig .tc := ⟨.hbm, 336, rfl⟩
abbrev main_c_51 : Ref sig .tc := ⟨.hbm, 337, rfl⟩
abbrev main_c_52 : Ref sig .tc := ⟨.hbm, 338, rfl⟩
abbrev main_call7_v0 : Ref sig .tc := ⟨.hbm, 339, rfl⟩
abbrev main_call7_v1 : Ref sig .tc := ⟨.hbm, 340, rfl⟩
abbrev main_call7_v2 : Ref sig .tc := ⟨.hbm, 341, rfl⟩
abbrev main_call7_v3 : Ref sig .tc := ⟨.hbm, 342, rfl⟩
abbrev main_call7_v4 : Ref sig .tc := ⟨.hbm, 343, rfl⟩
abbrev main_v239 : Ref sig .tc := ⟨.hbm, 344, rfl⟩
abbrev main_v240 : Ref sig .tc := ⟨.hbm, 345, rfl⟩
abbrev main_c_53 : Ref sig .tc := ⟨.hbm, 346, rfl⟩
abbrev main_v241 : Ref sig .tc := ⟨.hbm, 347, rfl⟩
abbrev main_v242 : Ref sig .tc := ⟨.hbm, 348, rfl⟩
abbrev main_c_54 : Ref sig .tc := ⟨.hbm, 349, rfl⟩
abbrev main_v243 : Ref sig .tc := ⟨.hbm, 350, rfl⟩
abbrev main_v244 : Ref sig .tc := ⟨.hbm, 351, rfl⟩
abbrev main_v245 : Ref sig .tc := ⟨.hbm, 352, rfl⟩
abbrev main_c_55 : Ref sig .tc := ⟨.hbm, 353, rfl⟩
abbrev main_v246 : Ref sig .tc := ⟨.hbm, 354, rfl⟩
abbrev main_v247 : Ref sig .tc := ⟨.hbm, 355, rfl⟩
abbrev main_c_56 : Ref sig .tc := ⟨.hbm, 356, rfl⟩
abbrev main_v248 : Ref sig .tc := ⟨.hbm, 357, rfl⟩
abbrev main_v249 : Ref sig .tc := ⟨.hbm, 358, rfl⟩
abbrev main_v250 : Ref sig .tc := ⟨.hbm, 359, rfl⟩
abbrev main_v251 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩
abbrev main_v256 : Ref sig .tc := ⟨.hbm, 365, rfl⟩
abbrev main_v257 : Ref sig .tc := ⟨.hbm, 366, rfl⟩
abbrev main_v258 : Ref sig .tc := ⟨.hbm, 367, rfl⟩
abbrev main_v259 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_cst_57 : Ref sig .tc := ⟨.hbm, 373, rfl⟩
abbrev main_v264 : Ref sig .tc := ⟨.hbm, 374, rfl⟩
abbrev main_v265 : Ref sig .tc := ⟨.hbm, 375, rfl⟩
abbrev main_cst_58 : Ref sig .tc := ⟨.hbm, 376, rfl⟩
abbrev main_v266 : Ref sig .tc := ⟨.hbm, 377, rfl⟩
abbrev main_v267 : Ref sig .tc := ⟨.hbm, 378, rfl⟩
abbrev main_cst_59 : Ref sig .tc := ⟨.hbm, 379, rfl⟩
abbrev main_v268 : Ref sig .tc := ⟨.hbm, 380, rfl⟩
abbrev main_v269 : Ref sig .tc := ⟨.hbm, 381, rfl⟩
abbrev main_cst_60 : Ref sig .tc := ⟨.hbm, 382, rfl⟩
abbrev main_v270 : Ref sig .tc := ⟨.hbm, 383, rfl⟩
abbrev main_v271 : Ref sig .tc := ⟨.hbm, 384, rfl⟩
abbrev main_v272 : Ref sig .tc := ⟨.hbm, 385, rfl⟩
abbrev main_cst_61 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_cst_62 : Ref sig .tc := ⟨.hbm, 390, rfl⟩
abbrev main_v276 : Ref sig .tc := ⟨.hbm, 391, rfl⟩
abbrev main_v277 : Ref sig .tc := ⟨.hbm, 392, rfl⟩
abbrev main_v278 : Ref sig .tc := ⟨.hbm, 393, rfl⟩
abbrev main_c_63 : Ref sig .tc := ⟨.hbm, 394, rfl⟩
abbrev main_c_64 : Ref sig .tc := ⟨.hbm, 395, rfl⟩
abbrev main_call8_v0 : Ref sig .tc := ⟨.hbm, 396, rfl⟩
abbrev main_call8_v1 : Ref sig .tc := ⟨.hbm, 397, rfl⟩
abbrev main_call8_v2 : Ref sig .tc := ⟨.hbm, 398, rfl⟩
abbrev main_call8_v3 : Ref sig .tc := ⟨.hbm, 399, rfl⟩
abbrev main_call8_v4 : Ref sig .tc := ⟨.hbm, 400, rfl⟩
abbrev main_v279 : Ref sig .tc := ⟨.hbm, 401, rfl⟩
abbrev main_v280 : Ref sig .tc := ⟨.hbm, 402, rfl⟩
abbrev main_c_65 : Ref sig .tc := ⟨.hbm, 403, rfl⟩
abbrev main_c_66 : Ref sig .tc := ⟨.hbm, 404, rfl⟩
abbrev main_call9_v0 : Ref sig .tc := ⟨.hbm, 405, rfl⟩
abbrev main_call9_v1 : Ref sig .tc := ⟨.hbm, 406, rfl⟩
abbrev main_call9_v2 : Ref sig .tc := ⟨.hbm, 407, rfl⟩
abbrev main_call9_v3 : Ref sig .tc := ⟨.hbm, 408, rfl⟩
abbrev main_call9_v4 : Ref sig .tc := ⟨.hbm, 409, rfl⟩
abbrev main_v281 : Ref sig .tc := ⟨.hbm, 410, rfl⟩
abbrev main_v282 : Ref sig .tc := ⟨.hbm, 411, rfl⟩
abbrev main_c_67 : Ref sig .tc := ⟨.hbm, 412, rfl⟩
abbrev main_v283 : Ref sig .tc := ⟨.hbm, 413, rfl⟩
abbrev main_v284 : Ref sig .tc := ⟨.hbm, 414, rfl⟩
abbrev main_c_68 : Ref sig .tc := ⟨.hbm, 415, rfl⟩
abbrev main_v285 : Ref sig .tc := ⟨.hbm, 416, rfl⟩
abbrev main_v286 : Ref sig .tc := ⟨.hbm, 417, rfl⟩
abbrev main_v287 : Ref sig .tc := ⟨.hbm, 418, rfl⟩
abbrev main_c_69 : Ref sig .tc := ⟨.hbm, 419, rfl⟩
abbrev main_v288 : Ref sig .tc := ⟨.hbm, 420, rfl⟩
abbrev main_v289 : Ref sig .tc := ⟨.hbm, 421, rfl⟩
abbrev main_c_70 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_v293 : Ref sig .tc := ⟨.hbm, 426, rfl⟩
abbrev main_v294 : Ref sig .tc := ⟨.hbm, 427, rfl⟩
abbrev main_v295 : Ref sig .tc := ⟨.hbm, 428, rfl⟩
abbrev main_v296 : Ref sig .tc := ⟨.hbm, 429, rfl⟩
abbrev main_v297 : Ref sig .tc := ⟨.hbm, 430, rfl⟩
abbrev main_v298 : Ref sig .tc := ⟨.hbm, 431, rfl⟩
abbrev main_v299 : Ref sig .tc := ⟨.hbm, 432, rfl⟩
abbrev main_v300 : Ref sig .tc := ⟨.hbm, 433, rfl⟩
abbrev main_v301 : Ref sig .tc := ⟨.hbm, 434, rfl⟩
abbrev main_v302 : Ref sig .tc := ⟨.hbm, 435, rfl⟩
abbrev main_v303 : Ref sig .tc := ⟨.hbm, 436, rfl⟩
abbrev main_v304 : Ref sig .tc := ⟨.hbm, 437, rfl⟩
abbrev main_v305 : Ref sig .tc := ⟨.hbm, 438, rfl⟩
abbrev main_v306 : Ref sig .tc := ⟨.hbm, 439, rfl⟩
abbrev main_v307 : Ref sig .tc := ⟨.hbm, 440, rfl⟩
abbrev main_v308 : Ref sig .tc := ⟨.hbm, 441, rfl⟩
abbrev main_v309 : Ref sig .tc := ⟨.hbm, 442, rfl⟩
abbrev main_v310 : Ref sig .tc := ⟨.hbm, 443, rfl⟩
abbrev main_v311 : Ref sig .tc := ⟨.hbm, 444, rfl⟩
abbrev main_c_71 : Ref sig .tc := ⟨.hbm, 445, rfl⟩
abbrev main_v312 : Ref sig .tc := ⟨.hbm, 446, rfl⟩
abbrev main_v313 : Ref sig .tc := ⟨.hbm, 447, rfl⟩
abbrev main_cst_72 : Ref sig .tc := ⟨.hbm, 448, rfl⟩
abbrev main_v314 : Ref sig .tc := ⟨.hbm, 449, rfl⟩
abbrev main_cst_73 : Ref sig .tc := ⟨.hbm, 450, rfl⟩
abbrev main_v315 : Ref sig .tc := ⟨.hbm, 451, rfl⟩
abbrev main_v316 : Ref sig .tc := ⟨.hbm, 452, rfl⟩
abbrev main_v317 : Ref sig .tc := ⟨.hbm, 453, rfl⟩

abbrev nD : Nat := 1
abbrev τ : Topo := Topo.v7x

variable {F : FTy → Type} [FloatOps F]

class Facts₀ : Prop where
  slices_S4x4096x5_S4x4096x3_0_0_0 : S4x4096x5.Slices ![0, 0, 0] S4x4096x3
  bcast_S4x4096x3_S4x1x4096x3_0_2_3 : S4x4096x3.BroadcastsInDim S4x1x4096x3 (![0, 2, 3] : Fin 3 → Fin S4x1x4096x3.rank)
  bcast_S4x5x3_S4x5x1x3_0_1_3 : S4x5x3.BroadcastsInDim S4x5x1x3 (![0, 1, 3] : Fin 3 → Fin S4x5x1x3.rank)
  bcast_S4x1x4096x3_S4x5x4096x3_0_1_2_3 : S4x1x4096x3.BroadcastsInDim S4x5x4096x3 (![0, 1, 2, 3] : Fin 4 → Fin S4x5x4096x3.rank)
  bcast_S4x5x1x3_S4x5x4096x3_0_1_2_3 : S4x5x1x3.BroadcastsInDim S4x5x4096x3 (![0, 1, 2, 3] : Fin 4 → Fin S4x5x4096x3.rank)
  slices_S4x5x4096x3_S4x5x4096x1_0_0_0_0 : S4x5x4096x3.Slices ![0, 0, 0, 0] S4x5x4096x1
  shapeCasts_S4x5x4096x1_S4x5x4096 : S4x5x4096x1.ShapeCasts S4x5x4096
  slices_S4x5x4096x3_S4x5x4096x1_0_0_0_2 : S4x5x4096x3.Slices ![0, 0, 0, 2] S4x5x4096x1
  slices_S4x5x4096x3_S4x5x4096x1_0_0_0_1 : S4x5x4096x3.Slices ![0, 0, 0, 1] S4x5x4096x1
  slices_S4x5x3_S4x5x1_0_0_0 : S4x5x3.Slices ![0, 0, 0] S4x5x1
  slices_S4x5x3_S4x5x1_0_0_1 : S4x5x3.Slices ![0, 0, 1] S4x5x1
  slices_S4x5x3_S4x5x1_0_0_2 : S4x5x3.Slices ![0, 0, 2] S4x5x1
  slices_S4x5x2_S4x5x1_0_0_0 : S4x5x2.Slices ![0, 0, 0] S4x5x1
  slices_S4x5x2_S4x5x1_0_0_1 : S4x5x2.Slices ![0, 0, 1] S4x5x1
  bcast_S4x5x1_S4x5x4096_0_1_2 : S4x5x1.BroadcastsInDim S4x5x4096 (![0, 1, 2] : Fin 3 → Fin S4x5x4096.rank)
  bcast_S_S4x5x4096 : S_.BroadcastsInDim S4x5x4096 (![] : Fin 0 → Fin S4x5x4096.rank)
  bcast_S_S4x5x1 : S_.BroadcastsInDim S4x5x1 (![] : Fin 0 → Fin S4x5x1.rank)
  bcast_S4x5x4096_S4x5x4096x1_0_1_2 : S4x5x4096.BroadcastsInDim S4x5x4096x1 (![0, 1, 2] : Fin 3 → Fin S4x5x4096x1.rank)
  concatenates_S4x5x4096x1_S4x5x4096x1_S4x5x4096x2_d3 : Shape.Concatenates [S4x5x4096x1, S4x5x4096x1] S4x5x4096x2 3
  bcast_S4x5x2_S4x5x1x2_0_1_3 : S4x5x2.BroadcastsInDim S4x5x1x2 (![0, 1, 3] : Fin 3 → Fin S4x5x1x2.rank)
  bcast_S4x5x1x2_S4x5x4096x2_0_1_2_3 : S4x5x1x2.BroadcastsInDim S4x5x4096x2 (![0, 1, 2, 3] : Fin 4 → Fin S4x5x4096x2.rank)
  slices_S4x5x4096x2_S4x5x4096x1_0_0_0_0 : S4x5x4096x2.Slices ![0, 0, 0, 0] S4x5x4096x1
  slices_S4x5x4096x2_S4x5x4096x1_0_0_0_1 : S4x5x4096x2.Slices ![0, 0, 0, 1] S4x5x4096x1
  shapeCasts_S4x5x1_S4x5 : S4x5x1.ShapeCasts S4x5
  bcast_S4x5_S4x5x1x1_0_1 : S4x5.BroadcastsInDim S4x5x1x1 (![0, 1] : Fin 2 → Fin S4x5x1x1.rank)
  bcast_S_S4x5x4096x2 : S_.BroadcastsInDim S4x5x4096x2 (![] : Fin 0 → Fin S4x5x4096x2.rank)
  bcast_S4x5x1x1_S4x5x4096x2_0_1_2_3 : S4x5x1x1.BroadcastsInDim S4x5x4096x2 (![0, 1, 2, 3] : Fin 4 → Fin S4x5x4096x2.rank)
  slices_S4x5x2x3_S4x5x2x2_0_0_0_0 : S4x5x2x3.Slices ![0, 0, 0, 0] S4x5x2x2
  slices_S4x5x2x3_S4x5x2x1_0_0_0_2 : S4x5x2x3.Slices ![0, 0, 0, 2] S4x5x2x1
  shapeCasts_S4x5x2x1_S4x5x2 : S4x5x2x1.ShapeCasts S4x5x2
  bcast_S_S2 : S_.BroadcastsInDim S2 (![] : Fin 0 → Fin S2.rank)
  bcast_S2_S1x1x1x2_3 : S2.BroadcastsInDim S1x1x1x2 (![3] : Fin 1 → Fin S1x1x1x2.rank)
  bcast_S1x1x1x2_S4x5x4096x2_0_1_2_3 : S1x1x1x2.BroadcastsInDim S4x5x4096x2 (![0, 1, 2, 3] : Fin 4 → Fin S4x5x4096x2.rank)
  shapeCasts_S4x5x128x128x128_S20x128x128x128 : S4x5x128x128x128.ShapeCasts S20x128x128x128
  shapeCasts_S4x5x4096x2_S20x4096x2 : S4x5x4096x2.ShapeCasts S20x4096x2
  slices_S20x4096x2_S20x4096x1_0_0_0 : S20x4096x2.Slices ![0, 0, 0] S20x4096x1
  shapeCasts_S20x4096x1_S20x4096 : S20x4096x1.ShapeCasts S20x4096
  bcast_S_S20x4096 : S_.BroadcastsInDim S20x4096 (![] : Fin 0 → Fin S20x4096.rank)
  slices_S20x4096x2_S20x4096x1_0_0_1 : S20x4096x2.Slices ![0, 0, 1] S20x4096x1
  bcast_S20x4096_S20x4096x1_0_1 : S20x4096.BroadcastsInDim S20x4096x1 (![0, 1] : Fin 2 → Fin S20x4096x1.rank)
  concatenates_S20x4096x1_S20x4096x1_S20x4096x2_d2 : Shape.Concatenates [S20x4096x1, S20x4096x1] S20x4096x2 2
  bcast_S20x4096_S20x1x4096_0_2 : S20x4096.BroadcastsInDim S20x1x4096 (![0, 2] : Fin 2 → Fin S20x1x4096.rank)
  bcast_S20x1x4096_S20x128x4096_0_1_2 : S20x1x4096.BroadcastsInDim S20x128x4096 (![0, 1, 2] : Fin 3 → Fin S20x128x4096.rank)
  shapeCasts_S20x128x4096_S4x5x128x4096 : S20x128x4096.ShapeCasts S4x5x128x4096
  bcast_S4x5x4096_S4x5x1x4096_0_1_3 : S4x5x4096.BroadcastsInDim S4x5x1x4096 (![0, 1, 3] : Fin 3 → Fin S4x5x1x4096.rank)
  bcast_S4x5x1x4096_S4x5x128x4096_0_1_2_3 : S4x5x1x4096.BroadcastsInDim S4x5x128x4096 (![0, 1, 2, 3] : Fin 4 → Fin S4x5x128x4096.rank)
  transposes_S4x5x128x4096_S4x4096x5x128_0_3_1_2 : S4x5x128x4096.Transposes [0, 3, 1, 2] S4x4096x5x128
  reducesTo_S4x4096x5x128_S4x4096_d2_3 : S4x4096x5x128.ReducesTo [2, 3] S4x4096
  h_S_ : 0 < S_.numel
  reducesTo_S4x5x4096_S4x4096_d1 : S4x5x4096.ReducesTo [1] S4x4096
  bcast_S_S4x4096 : S_.BroadcastsInDim S4x4096 (![] : Fin 0 → Fin S4x4096.rank)
  dot_S4x5x4096x3_S4x5x3x3_S4x5x4096x3_3_3_2_2_01_01_wf : DotDims.WF S4x5x4096x3 S4x5x3x3 S4x5x4096x3 [3] [3] [2] [2] [0, 1] [0, 1]
  dot_S4x5x4096x2_S4x5x2x2_S4x5x4096x2_3_3_2_2_01_01_wf : DotDims.WF S4x5x4096x2 S4x5x2x2 S4x5x4096x2 [3] [3] [2] [2] [0, 1] [0, 1]
  gather_S20x128x128x128_S20x4096x2_S20x128x4096_1_23_0_0_23_2_112811_wf : GatherDims.WF S20x128x128x128 S20x4096x2 S20x128x4096 [1] [2, 3] [0] [2, 3] [0] 2 ![1, 128, 1, 1]

variable [Facts₀]

def dot_S4x5x4096x3_S4x5x3x3_S4x5x4096x3_3_3_2_2_01_01 : DotDims S4x5x4096x3 S4x5x3x3 S4x5x4096x3 where
  lhsContracting := [3]
  rhsContracting := [3]
  lhsNonContracting := [2]
  rhsNonContracting := [2]
  lhsBatch := [0, 1]
  rhsBatch := [0, 1]
  wf := dot_S4x5x4096x3_S4x5x3x3_S4x5x4096x3_3_3_2_2_01_01_wf
def dot_S4x5x4096x2_S4x5x2x2_S4x5x4096x2_3_3_2_2_01_01 : DotDims S4x5x4096x2 S4x5x2x2 S4x5x4096x2 where
  lhsContracting := [3]
  rhsContracting := [3]
  lhsNonContracting := [2]
  rhsNonContracting := [2]
  lhsBatch := [0, 1]
  rhsBatch := [0, 1]
  wf := dot_S4x5x4096x2_S4x5x2x2_S4x5x4096x2_3_3_2_2_01_01_wf
def gather_S20x128x128x128_S20x4096x2_S20x128x4096_1_23_0_0_23_2_112811 : GatherDims S20x128x128x128 S20x4096x2 S20x128x4096 where
  offsetDims := [1]
  collapsedSliceDims := [2, 3]
  operandBatchingDims := [0]
  startIndicesBatchingDims := [0]
  startIndexMap := [2, 3]
  indexVectorDim := 2
  sliceSizes := ![1, 128, 1, 1]
  wf := gather_S20x128x128x128_S20x4096x2_S20x128x4096_1_23_0_0_23_2_112811_wf

class Facts : Prop extends Facts₀ where

variable [Facts]
-- ==== Proof.LibAfterAppend.lean ====
/-
  Running a list of host operations: a list run after another is their concatenation run at once.

  `StableHlo.after ops V` is the contents of a device's buffers once the operations `ops` have run in order from contents
  `V`. It is a left fold, so it splits along any cut of the list; this is what lets a long host program be read in
  pieces, each piece's results named before the next piece is opened.
-/
import Idealize.ShloMosaic.Lib.StableHlo.Run

noncomputable section

namespace Cert.Lib

open Idealize.ShloMosaic Idealize.ShloMosaic.StableHlo

variable {τ : Topo} {sig : RefSig} {Val : EltTy → Type}

/-- Running `l₁ ++ l₂` is running `l₂` from where `l₁` ends. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five stretches joined: the last one runs from where the first four end. -/
theorem after_flatten5 (a b c d e : List (HloOp τ sig Val)) (V : Valuation τ sig Val) :
    after (List.flatten [a, b, c, d, e]) V = after e (after (a ++ (b ++ (c ++ d))) V) := by
  rw [← after_append]
  simp only [List.flatten_cons, List.flatten_nil, List.append_nil, List.append_assoc]

end Cert.Lib

end
-- ==== Proof.RRun.lean ====
/-
  The reference program's run, read in five passes.

  The reference's @main is a line of 443 host operations: 143 that compute the clipped normalized sampling position and
  the in-bounds mask, then four stretches, one per neighbouring pixel of the bilinear sample (each adds its term to a
  partial sum), the last one also applying the mask, re-laying the result and forming the flags. Running the line is
  running each stretch from where the one before ends, so each stretch is read on its own, with the few arrays it
  takes from earlier stretches (the image, the two floors, the weights, the partial sum, the mask) already named as
  stages of the arguments. No operation writes an argument array.
-/
import proofs.«160330_j17463337026052_2_alg».proof.Proof.ROps
import proofs.«160330_j17463337026052_2_alg».proof.Proof.ReadP
import proofs.«160330_j17463337026052_2_alg».proof.Proof.LibAfterAppend

set_option maxRecDepth 16384

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg)

/-- Device `c`'s buffers after the first stretch, and after each of the next three. -/
def W0 (c : Dev nD) : Valuation τ sig (Elt Ideal) := after (opsA : List (HloOp τ sig (Elt Ideal))) (launchContents m c)
def W1 (c : Dev nD) : Valuation τ sig (Elt Ideal) := after (opsB1 : List (HloOp τ sig (Elt Ideal))) (W0 m c)
def W2 (c : Dev nD) : Valuation τ sig (Elt Ideal) := after (opsB2 : List (HloOp τ sig (Elt Ideal))) (W1 m c)
def W3 (c : Dev nD) : Valuation τ sig (Elt Ideal) := after (opsB3 : List (HloOp τ sig (Elt Ideal))) (W2 m c)

theorem after_ops (c : Dev nD) (b : Ref sig .tc) :
    after (ops : List (HloOp τ sig (Elt Ideal))) (launchContents m c) (Proc.devRef .tc b)
      = after (opsB4 : List (HloOp τ sig (Elt Ideal))) (W3 m c) (Proc.devRef .tc b) := by
  show after ((opsA : List (HloOp τ sig (Elt Ideal))) ++ (opsB1 ++ (opsB2 ++ (opsB3 ++ opsB4)))) _ _ = _
  rw [Cert.Lib.after_append, Cert.Lib.after_append, Cert.Lib.after_append, Cert.Lib.after_append]
  rfl

/-! ## The passes -/

set_option maxHeartbeats 16000000 in
/-- The clipped position and the float mask, read in one pass over the first 143 operations. -/
theorem pass0 (c : Dev nD) :
    W0 m c (Proc.devRef .tc main_v120) = val_main_v120 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W0 m c (Proc.devRef .tc main_v96) = val_main_v96 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) := by
  unfold W0
  simp only [opsA]
  after_results_simp
  exact ⟨rfl, rfl⟩

set_option maxHeartbeats 8000000 in
theorem W0_img (c : Dev nD) : W0 m c (Proc.devRef .tc main_arg0) = m ((c.tc : Thread nD τ).loc main_arg0) := by
  unfold W0
  simp only [opsA]
  after_results_simp

set_option maxHeartbeats 32000000 in
/-- Pass 1: the first neighbour's term (93 operations, up to main_v183). -/
theorem pass1 (c : Dev nD) :
    W1 m c (Proc.devRef .tc main_v121) = val_main_v121 (F := Ideal) (m ((c.tc : Thread nD τ).loc main_arg0))
    ∧ W1 m c (Proc.devRef .tc main_v139) = val_main_v139 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W1 m c (Proc.devRef .tc main_v140) = val_main_v140 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W1 m c (Proc.devRef .tc main_v141) = val_main_v141 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W1 m c (Proc.devRef .tc main_v143) = val_main_v143 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W1 m c (Proc.devRef .tc main_v144) = val_main_v144 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W1 m c (Proc.devRef .tc main_v146) = val_main_v146 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W1 m c (Proc.devRef .tc main_v183) = val_main_v183 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W1 m c (Proc.devRef .tc main_v96) = val_main_v96 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) := by
  unfold W1
  simp only [opsB1]
  after_results_simp
  simp only [(pass0 m c).1, (pass0 m c).2, W0_img m c]
  repeat' apply And.intro
  all_goals first | rfl | trivial

set_option maxHeartbeats 32000000 in
/-- Pass 2: the second neighbour's term and the partial sum main_v223 (63 operations). -/
theorem pass2 (c : Dev nD) :
    W2 m c (Proc.devRef .tc main_v121) = val_main_v121 (F := Ideal) (m ((c.tc : Thread nD τ).loc main_arg0))
    ∧ W2 m c (Proc.devRef .tc main_v139) = val_main_v139 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W2 m c (Proc.devRef .tc main_v140) = val_main_v140 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W2 m c (Proc.devRef .tc main_v141) = val_main_v141 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W2 m c (Proc.devRef .tc main_v143) = val_main_v143 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W2 m c (Proc.devRef .tc main_v144) = val_main_v144 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W2 m c (Proc.devRef .tc main_v223) = val_main_v223 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W2 m c (Proc.devRef .tc main_v96) = val_main_v96 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) := by
  unfold W2
  simp only [opsB2]
  after_results_simp
  simp only [(pass1 m c).1, (pass1 m c).2.1, (pass1 m c).2.2.1, (pass1 m c).2.2.2.1, (pass1 m c).2.2.2.2.1, (pass1 m c).2.2.2.2.2.1, (pass1 m c).2.2.2.2.2.2.1, (pass1 m c).2.2.2.2.2.2.2.1, (pass1 m c).2.2.2.2.2.2.2.2]
  repeat' apply And.intro
  all_goals first | rfl | trivial

set_option maxHeartbeats 32000000 in
/-- Pass 3: the third neighbour's term and the partial sum main_v263 (63 operations). -/
theorem pass3 (c : Dev nD) :
    W3 m c (Proc.devRef .tc main_v121) = val_main_v121 (F := Ideal) (m ((c.tc : Thread nD τ).loc main_arg0))
    ∧ W3 m c (Proc.devRef .tc main_v139) = val_main_v139 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W3 m c (Proc.devRef .tc main_v140) = val_main_v140 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W3 m c (Proc.devRef .tc main_v141) = val_main_v141 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W3 m c (Proc.devRef .tc main_v144) = val_main_v144 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W3 m c (Proc.devRef .tc main_v263) = val_main_v263 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ W3 m c (Proc.devRef .tc main_v96) = val_main_v96 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) := by
  unfold W3
  simp only [opsB3]
  after_results_simp
  simp only [(pass2 m c).1, (pass2 m c).2.1, (pass2 m c).2.2.1, (pass2 m c).2.2.2.1, (pass2 m c).2.2.2.2.1, (pass2 m c).2.2.2.2.2.1, (pass2 m c).2.2.2.2.2.2.1, (pass2 m c).2.2.2.2.2.2.2]
  repeat' apply And.intro
  all_goals first | rfl | trivial

set_option maxHeartbeats 32000000 in
/-- Pass 4: the fourth neighbour's term, the mask, the re-laying and the flags (81 operations). -/
theorem pass4 (c : Dev nD) :
    after (opsB4 : List (HloOp τ sig (Elt Ideal))) (W3 m c) (Proc.devRef .tc main_v310) = val_main_v310 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ after (opsB4 : List (HloOp τ sig (Elt Ideal))) (W3 m c) (Proc.devRef .tc main_v317) = val_main_v317 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  simp only [opsB4]
  after_results_simp
  simp only [(pass3 m c).1, (pass3 m c).2.1, (pass3 m c).2.2.1, (pass3 m c).2.2.2.1, (pass3 m c).2.2.2.2.1, (pass3 m c).2.2.2.2.2.1, (pass3 m c).2.2.2.2.2.2]
  repeat' apply And.intro
  all_goals first | rfl | trivial

theorem res_feats (c : Dev nD) :
    after (ops : List (HloOp τ sig (Elt Ideal))) (launchContents m c) (Proc.devRef .tc main_v310)
      = val_main_v310 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (after_ops m c main_v310).trans (pass4 m c).1

theorem res_flags (c : Dev nD) :
    after (ops : List (HloOp τ sig (Elt Ideal))) (launchContents m c) (Proc.devRef .tc main_v317)
      = val_main_v317 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (after_ops m c main_v317).trans (pass4 m c).2

/-! ## No operation writes an argument -/

/-- No operation of a literal stretch writes the buffer at hand: each operation writes its own result buffer only. -/
macro "no_write" : tactic => `(tactic| (
  simp only [opsA, opsB1, opsB2, opsB3, opsB4, List.Forall, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton]
  repeat' apply And.intro
  all_goals exact StableHlo.devRef_ne_of_ne (by decide)))

/-- A buffer no stretch writes keeps its launch contents through the whole line. -/
theorem kept_of (c : Dev nD) (b : Ref sig .tc)
    (hA : (opsA : List (HloOp τ sig (Elt Ideal))).Forall fun op => Proc.devRef .tc b ∉ op.writes)
    (h1 : (opsB1 : List (HloOp τ sig (Elt Ideal))).Forall fun op => Proc.devRef .tc b ∉ op.writes)
    (h2 : (opsB2 : List (HloOp τ sig (Elt Ideal))).Forall fun op => Proc.devRef .tc b ∉ op.writes)
    (h3 : (opsB3 : List (HloOp τ sig (Elt Ideal))).Forall fun op => Proc.devRef .tc b ∉ op.writes)
    (h4 : (opsB4 : List (HloOp τ sig (Elt Ideal))).Forall fun op => Proc.devRef .tc b ∉ op.writes) :
    after (ops : List (HloOp τ sig (Elt Ideal))) (launchContents m c) (Proc.devRef .tc b) = m ((c.tc : Thread nD τ).loc b) := by
  show after ((opsA : List (HloOp τ sig (Elt Ideal))) ++ (opsB1 ++ (opsB2 ++ (opsB3 ++ opsB4)))) _ _ = _
  rw [Cert.Lib.after_append, Cert.Lib.after_append, Cert.Lib.after_append, Cert.Lib.after_append]
  exact (StableHlo.after_of_forall_not_mem _ _ (List.forall_iff_forall_mem.mp h4)).trans
    ((StableHlo.after_of_forall_not_mem _ _ (List.forall_iff_forall_mem.mp h3)).trans
    ((StableHlo.after_of_forall_not_mem _ _ (List.forall_iff_forall_mem.mp h2)).trans
    ((StableHlo.after_of_forall_not_mem _ _ (List.forall_iff_forall_mem.mp h1)).trans
    (StableHlo.after_of_forall_not_mem _ _ (List.forall_iff_forall_mem.mp hA)))))

set_option maxHeartbeats 8000000 in
theorem res_arg0 (c : Dev nD) : after (ops : List (HloOp τ sig (Elt Ideal))) (launchContents m c) (Proc.devRef .tc main_arg0)
    = m ((c.tc : Thread nD τ).loc main_arg0) :=
  kept_of m c main_arg0 (by no_write) (by no_write) (by no_write) (by no_write) (by no_write)

set_option maxHeartbeats 8000000 in
theorem res_arg1 (c : Dev nD) : after (ops : List (HloOp τ sig (Elt Ideal))) (launchContents m c) (Proc.devRef .tc main_arg1)
    = m ((c.tc : Thread nD τ).loc main_arg1) :=
  kept_of m c main_arg1 (by no_write) (by no_write) (by no_write) (by no_write) (by no_write)

set_option maxHeartbeats 8000000 in
theorem res_arg2 (c : Dev nD) : after (ops : List (HloOp τ sig (Elt Ideal))) (launchContents m c) (Proc.devRef .tc main_arg2)
    = m ((c.tc : Thread nD τ).loc main_arg2) :=
  kept_of m c main_arg2 (by no_write) (by no_write) (by no_write) (by no_write) (by no_write)

set_option maxHeartbeats 8000000 in
theorem res_arg3 (c : Dev nD) : after (ops : List (HloOp τ sig (Elt Ideal))) (launchContents m c) (Proc.devRef .tc main_arg3)
    = m ((c.tc : Thread nD τ).loc main_arg3) :=
  kept_of m c main_arg3 (by no_write) (by no_write) (by no_write) (by no_write) (by no_write)

set_option maxHeartbeats 8000000 in
theorem res_arg4 (c : Dev nD) : after (ops : List (HloOp τ sig (Elt Ideal))) (launchContents m c) (Proc.devRef .tc main_arg4)
    = m ((c.tc : Thread nD τ).loc main_arg4) :=
  kept_of m c main_arg4 (by no_write) (by no_write) (by no_write) (by no_write) (by no_write)

set_option maxHeartbeats 8000000 in
theorem res_arg5 (c : Dev nD) : after (ops : List (HloOp τ sig (Elt Ideal))) (launchContents m c) (Proc.devRef .tc main_arg5)
    = m ((c.tc : Thread nD τ).loc main_arg5) :=
  kept_of m c main_arg5 (by no_write) (by no_write) (by no_write) (by no_write) (by no_write)

set_option maxHeartbeats 8000000 in
theorem res_arg6 (c : Dev nD) : after (ops : List (HloOp τ sig (Elt Ideal))) (launchContents m c) (Proc.devRef .tc main_arg6)
    = m ((c.tc : Thread nD τ).loc main_arg6) :=
  kept_of m c main_arg6 (by no_write) (by no_write) (by no_write) (by no_write) (by no_write)

set_option maxHeartbeats 8000000 in
theorem res_arg7 (c : Dev nD) : after (ops : List (HloOp τ sig (Elt Ideal))) (launchContents m c) (Proc.devRef .tc main_arg7)
    = m ((c.tc : Thread nD τ).loc main_arg7) :=
  kept_of m c main_arg7 (by no_write) (by no_write) (by no_write) (by no_write) (by no_write)

set_option maxHeartbeats 8000000 in
theorem res_arg8 (c : Dev nD) : after (ops : List (HloOp τ sig (Elt Ideal))) (launchContents m c) (Proc.devRef .tc main_arg8)
    = m ((c.tc : Thread nD τ).loc main_arg8) :=
  kept_of m c main_arg8 (by no_write) (by no_write) (by no_write) (by no_write) (by no_write)

set_option maxHeartbeats 8000000 in
theorem res_arg9 (c : Dev nD) : after (ops : List (HloOp τ sig (Elt Ideal))) (launchContents m c) (Proc.devRef .tc main_arg9)
    = m ((c.tc : Thread nD τ).loc main_arg9) :=
  kept_of m c main_arg9 (by no_write) (by no_write) (by no_write) (by no_write) (by no_write)

set_option maxHeartbeats 8000000 in
theorem res_arg10 (c : Dev nD) : after (ops : List (HloOp τ sig (Elt Ideal))) (launchContents m c) (Proc.devRef .tc main_arg10)
    = m ((c.tc : Thread nD τ).loc main_arg10) :=
  kept_of m c main_arg10 (by no_write) (by no_write) (by no_write) (by no_write) (by no_write)

/-! ## The run -/

/-- Every weakly fair execution of the reference ends with its two results at the stages of the arguments, and the
    arguments as they were. -/
theorem run : θ_run defs (onTc (τ := τ) (main (F := Ideal))) ⟨m, fun _ => 0, ρ⟩ fun r => ∀ c : Dev nD,
      r.2.mem ((c.tc : Thread nD τ).loc main_v310) = val_main_v310 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v317) = val_main_v317 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v310).trans (res_feats m c), (h c main_v317).trans (res_flags m c),
      (h c main_arg1).trans (res_arg1 m c),
      (h c main_arg0).trans (res_arg0 m c),
      (h c main_arg1).trans (res_arg1 m c),
      (h c main_arg2).trans (res_arg2 m c),
      (h c main_arg3).trans (res_arg3 m c),
      (h c main_arg4).trans (res_arg4 m c),
      (h c main_arg5).trans (res_arg5 m c),
      (h c main_arg6).trans (res_arg6 m c),
      (h c main_arg7).trans (res_arg7 m c),
      (h c main_arg8).trans (res_arg8 m c),
      (h c main_arg9).trans (res_arg9 m c),
      (h c main_arg10).trans (res_arg10 m c)⟩)
    (run_seq scopedRefs_eq scopedSems_eq defs main (fun _ => ops) main_eq (fun _ => ops_sub) m ρ)

end Cert.ReferenceIdeal.RunH

end
-- ==== Proof.KIdx.lean ====
/-
  The layout operations of the kernel's host code, read at explicit coordinates.

  The batch axis of the pallas_call runs over the 20 pairs (n, v) of a sample set and a camera, b = 5 n + v; the host code
  forms its operands on the axes (n, v, …) and reshapes them to (b, …), and reshapes and transposes the result back to
  (n, point, v, channel). Each lemma says which element of the operand one element of the result is.
-/
import proofs.«160330_j17463337026052_2_alg».proof.Proof.Gen.KernelIdeal
import Idealize.ShloMosaic.Lib.Pipeline.Value
import Idealize.ShloMosaic.Lib.ValueIdx

noncomputable section

namespace Cert.KernelIdeal.Host

open Cert.KernelIdeal Cert.KernelIdeal.Facts₀ Idealize.ShloMosaic Idealize.ShloMosaic.ValueIdx

variable {α : Type}

/-- The sample set and the camera of a batch index, and the batch index of a pair. -/
def nOf (b : Fin 20) : Fin 4 := ⟨b.val / 5, by have := b.isLt; omega⟩
def vOf (b : Fin 20) : Fin 5 := ⟨b.val % 5, by omega⟩
def bOf (n : Fin 4) (v : Fin 5) : Fin 20 := ⟨n.val * 5 + v.val, by have := n.isLt; have := v.isLt; omega⟩

theorem nOf_bOf (n : Fin 4) (v : Fin 5) : nOf (bOf n v) = n := Fin.ext (by show (n.val * 5 + v.val) / 5 = n.val; have := v.isLt; omega)
theorem vOf_bOf (n : Fin 4) (v : Fin 5) : vOf (bOf n v) = v := Fin.ext (by show (n.val * 5 + v.val) % 5 = v.val; have := v.isLt; omega)

/-! ## Broadcasts -/

/-- A per-point array given a unit third axis. -/
theorem bc3_apply (Z : S4x5x4096.Idx → α) (n : Fin 4) (v : Fin 5) (u : Fin 1) (p : Fin 4096) :
    broadcastInDim S4x5x1x4096 ![0, 1, 3] bcast_S4x5x4096_S4x5x1x4096_0_1_3 Z (ix4 n v u p) = Z (ix3 n v p) :=
  broadcastInDim_apply _ _ Z (ix4 n v u p) (ix3 n v p) (fun a => by
    match a with
    | ⟨0, _⟩ => rfl
    | ⟨1, _⟩ => rfl
    | ⟨2, _⟩ => rfl)

/-- That unit axis spread over the 128 positions. -/
theorem bc4_apply (Y : S4x5x1x4096.Idx → α) (n : Fin 4) (v : Fin 5) (w : Fin 128) (p : Fin 4096) :
    broadcastInDim S4x5x128x4096 ![0, 1, 2, 3] bcast_S4x5x1x4096_S4x5x128x4096_0_1_2_3 Y (ix4 n v w p) = Y (ix4 n v 0 p) :=
  broadcastInDim_apply _ _ Y (ix4 n v w p) (ix4 n v 0 p) (fun a => by
    match a with
    | ⟨0, _⟩ => rfl
    | ⟨1, _⟩ => rfl
    | ⟨2, _⟩ => rfl
    | ⟨3, _⟩ => rfl)

/-- The positions 0 … 127 as 32-bit words, spread over every pair, and every point. -/
theorem bcIota_apply (n : Fin 4) (v : Fin 5) (w : Fin 128) (p : Fin 4096) :
    broadcastInDim S4x5x128x4096 ![0, 1, 2, 3] bcast_S1x1x128x1_S4x5x128x4096_0_1_2_3
        (broadcastInDim S1x1x128x1 ![2] bcast_S128_S1x1x128x1_2 (iotaInDim S128 32 0)) (ix4 n v w p)
      = BitVec.ofNat 32 w.val :=
  (broadcastInDim_apply _ _ _ (ix4 n v w p) (ix4 0 0 w 0) (fun a => by
    match a with
    | ⟨0, _⟩ => rfl
    | ⟨1, _⟩ => rfl
    | ⟨2, _⟩ => rfl
    | ⟨3, _⟩ => rfl)).trans
  ((broadcastInDim_apply _ _ _ (ix4 (0 : Fin 1) (0 : Fin 1) w (0 : Fin 1)) (ix1 w) (fun a => by
    match a with
    | ⟨0, _⟩ => rfl)).trans rfl)

/-! ## The two coordinates of the normalized position -/

theorem col0_apply (N : S4x5x4096x2.Idx → α) (n : Fin 4) (v : Fin 5) (p : Fin 4096) :
    shapeCast S4x5x4096 (extractStridedSlice S4x5x4096x1 ![0, 0, 0, 0] N slices_S4x5x4096x2_S4x5x4096x1_0_0_0_0)
        shapeCasts_S4x5x4096x1_S4x5x4096 (ix3 n v p) = N (ix4 n v p 0) :=
  (shapeCast_apply _ shapeCasts_S4x5x4096x1_S4x5x4096 (ix3 n v p) (ix4 n v p 0) (by
    rw [Shape.rowMajor_val_four, Shape.rowMajor_val_three]
    show ((n.val * 5 + v.val) * 4096 + p.val) * 1 + 0 = (n.val * 5 + v.val) * 4096 + p.val
    omega)).trans
  (extractStridedSlice_apply ![0, 0, 0, 0] N slices_S4x5x4096x2_S4x5x4096x1_0_0_0_0 (ix4 n v p 0) (ix4 n v p 0) (fun a => by
    match a with
    | ⟨0, _⟩ => show n.val = 0 + n.val; omega
    | ⟨1, _⟩ => show v.val = 0 + v.val; omega
    | ⟨2, _⟩ => show p.val = 0 + p.val; omega
    | ⟨3, _⟩ => show 0 = 0 + 0; omega))

theorem col1_apply (N : S4x5x4096x2.Idx → α) (n : Fin 4) (v : Fin 5) (p : Fin 4096) :
    shapeCast S4x5x4096 (extractStridedSlice S4x5x4096x1 ![0, 0, 0, 1] N slices_S4x5x4096x2_S4x5x4096x1_0_0_0_1)
        shapeCasts_S4x5x4096x1_S4x5x4096 (ix3 n v p) = N (ix4 n v p 1) :=
  (shapeCast_apply _ shapeCasts_S4x5x4096x1_S4x5x4096 (ix3 n v p) (ix4 n v p 0) (by
    rw [Shape.rowMajor_val_four, Shape.rowMajor_val_three]
    show ((n.val * 5 + v.val) * 4096 + p.val) * 1 + 0 = (n.val * 5 + v.val) * 4096 + p.val
    omega)).trans
  (extractStridedSlice_apply ![0, 0, 0, 1] N slices_S4x5x4096x2_S4x5x4096x1_0_0_0_1 (ix4 n v p 0) (ix4 n v p 1) (fun a => by
    match a with
    | ⟨0, _⟩ => show n.val = 0 + n.val; omega
    | ⟨1, _⟩ => show v.val = 0 + v.val; omega
    | ⟨2, _⟩ => show p.val = 0 + p.val; omega
    | ⟨3, _⟩ => show 1 = 1 + 0; omega))

/-! ## The pair (n, v) flattened to the batch axis, and back -/

theorem resh4_apply (A : S4x5x128x4096.Idx → α) (b : Fin 20) (w : Fin 128) (p : Fin 4096) :
    shapeCast S20x128x4096 A shapeCasts_S4x5x128x4096_S20x128x4096 (ix3 b w p) = A (ix4 (nOf b) (vOf b) w p) :=
  shapeCast_apply A shapeCasts_S4x5x128x4096_S20x128x4096 (ix3 b w p) (ix4 (nOf b) (vOf b) w p) (by
    rw [Shape.rowMajor_val_four, Shape.rowMajor_val_three]
    show (((b.val / 5) * 5 + b.val % 5) * 128 + w.val) * 4096 + p.val = (b.val * 128 + w.val) * 4096 + p.val
    have := Nat.div_add_mod b.val 5
    have e : (b.val / 5) * 5 + b.val % 5 = b.val := by omega
    rw [e])

theorem resh5_apply (A : S4x5x128x128x128.Idx → α) (b : Fin 20) (c h w : Fin 128) :
    shapeCast S20x128x128x128 A shapeCasts_S4x5x128x128x128_S20x128x128x128 (ix4 b c h w) = A (ix5 (nOf b) (vOf b) c h w) :=
  shapeCast_apply A shapeCasts_S4x5x128x128x128_S20x128x128x128 (ix4 b c h w) (ix5 (nOf b) (vOf b) c h w) (by
    rw [Shape.rowMajor_val_five, Shape.rowMajor_val_four]
    show ((((b.val / 5) * 5 + b.val % 5) * 128 + c.val) * 128 + h.val) * 128 + w.val = ((b.val * 128 + c.val) * 128 + h.val) * 128 + w.val
    have e : (b.val / 5) * 5 + b.val % 5 = b.val := by have := Nat.div_add_mod b.val 5; omega
    rw [e])

theorem resh3_apply (A : S4x5x4096.Idx → α) (b : Fin 20) (u : Fin 1) (p : Fin 4096) :
    shapeCast S20x1x4096 A shapeCasts_S4x5x4096_S20x1x4096 (ix3 b u p) = A (ix3 (nOf b) (vOf b) p) :=
  shapeCast_apply A shapeCasts_S4x5x4096_S20x1x4096 (ix3 b u p) (ix3 (nOf b) (vOf b) p) (by
    rw [Shape.rowMajor_val_three, Shape.rowMajor_val_three]
    show ((b.val / 5) * 5 + b.val % 5) * 4096 + p.val = (b.val * 1 + u.val) * 4096 + p.val
    have e : (b.val / 5) * 5 + b.val % 5 = b.val := by have := Nat.div_add_mod b.val 5; omega
    have hu : u.val = 0 := by have := u.isLt; omega
    rw [e, hu]; omega)

theorem unresh_apply (A : S20x128x4096.Idx → α) (n : Fin 4) (v : Fin 5) (c : Fin 128) (p : Fin 4096) :
    shapeCast S4x5x128x4096 A shapeCasts_S20x128x4096_S4x5x128x4096 (ix4 n v c p) = A (ix3 (bOf n v) c p) :=
  shapeCast_apply A shapeCasts_S20x128x4096_S4x5x128x4096 (ix4 n v c p) (ix3 (bOf n v) c p) (by
    rw [Shape.rowMajor_val_three, Shape.rowMajor_val_four]
    show ((n.val * 5 + v.val) * 128 + c.val) * 4096 + p.val = ((n.val * 5 + v.val) * 128 + c.val) * 4096 + p.val
    rfl)

/-- The result's axes (n, v, channel, point) reordered to (n, point, v, channel). -/
theorem transp_apply (A : S4x5x128x4096.Idx → α) (n : Fin 4) (p : Fin 4096) (v : Fin 5) (c : Fin 128) :
    transpose S4x4096x5x128 [0, 3, 1, 2] A transposes_S4x5x128x4096_S4x4096x5x128_0_3_1_2 (ix4 n p v c) = A (ix4 n v c p) :=
  transpose_apply [0, 3, 1, 2] A transposes_S4x5x128x4096_S4x4096x5x128_0_3_1_2 (ix4 n p v c) (ix4 n v c p) (fun b => by
    match b with
    | ⟨0, _⟩ => rfl
    | ⟨1, _⟩ => rfl
    | ⟨2, _⟩ => rfl
    | ⟨3, _⟩ => rfl)

end Cert.KernelIdeal.Host

end
-- ==== Proof.Spec.lean ====
/-
  Bilinear sampling of a 128 × 128 image at one point, in the two arrangements the certificate compares.

  A normalized coordinate `t` is sent to the pixel coordinate `pix t = ((t + 1) · ½) · 127`; its cell is
  `⌊pix t⌋`, the weight of the upper neighbour is the fractional part `up t = pix t − ⌊pix t⌋` and the weight of
  the cell itself `dn t = 1 − up t`.

  * The dense arrangement: along each axis the two weights are spread over the 128 positions as a "tent"
    `tent t k = dn t · [k = cell] + up t · [k = cell + 1]` (integer comparisons on 32-bit words), and the sample is
    the double sum `∑ h, (∑ w, f h w · tent tx w) · tent ty h`.
  * The gathered arrangement: the four neighbours `(cell + a, cell + b)`, `a, b ∈ {0, 1}`, each read at its position
    clamped into the image and multiplied by the indicator that the unclamped position lies in `[0, 127]²`, then by
    the product of its two weights; the four terms added in a fixed order.

  Both are then multiplied by one more factor (a point's in-bounds mask). Everything is stated on the extended
  reals with the float literals kept as their binary words.
-/
import Mathlib
import Idealize.ShloMosaic.PureOps.Ideal
import Idealize.ShloMosaic.PureOps.Ideal.Laws
import Idealize.ShloMosaic.Lib.ValueIdx

noncomputable section

namespace Cert.Sampling

open Idealize.ShloMosaic

/-- The words of `0`, `1`, `½`, `127` and of the two clipping bounds `∓1.1` (as binary32 rounds them). -/
abbrev f0 : EReal := Ideal.ofBits .f32 0x00000000#32
abbrev f1 : EReal := Ideal.ofBits .f32 0x3F800000#32
abbrev fHalf : EReal := Ideal.ofBits .f32 0x3F000000#32
abbrev f127 : EReal := Ideal.ofBits .f32 0x42FE0000#32
abbrev fLo : EReal := Ideal.ofBits .f32 0xBF8CCCCD#32
abbrev fHi : EReal := Ideal.ofBits .f32 0x3F8CCCCD#32

/-- The pixel coordinate of a normalized coordinate. -/
def pix (t : EReal) : EReal := ((t + f1) * fHalf) * f127
/-- Its cell, as a float: the floor. -/
def base (t : EReal) : EReal := Ideal.liftRound Int.floor (pix t)
/-- The weight of the upper neighbour: the fractional part. -/
def up (t : EReal) : EReal := pix t - base t
/-- The weight of the cell itself. -/
def dn (t : EReal) : EReal := f1 - up t
/-- The cell as a 32-bit signed word. -/
def cell (t : EReal) : BitVec 32 := Ideal.fptosi 32 (base t)

/-! ## The dense arrangement -/

/-- `1` where the two words are equal, else `0`, as a float. -/
def hot (k i : BitVec 32) : EReal := FloatOps.uitofp (F := Ideal) .f32 (IntOp.cmpi .eq k i)

/-- The two weights of `t` spread over the positions `k` of an axis. -/
def tent (t : EReal) (k : Fin 128) : EReal :=
  dn t * hot (BitVec.ofNat 32 k.val) (cell t) + up t * hot (BitVec.ofNat 32 k.val) (IntOp.addi (cell t) 1#32)

/-- The sample as a double sum against the two tents, times the mask. -/
def densePt (f : Fin 128 → Fin 128 → EReal) (tx ty bnd : EReal) : EReal :=
  (∑ h : Fin 128, (∑ w : Fin 128, f h w * tent tx w) * tent ty h) * bnd

/-! ## The gathered arrangement -/

/-- A float position lies in `[0, 127]` on both axes (four comparisons joined by `and`, in this order). -/
def inside (xf yf : EReal) : BitVec 1 :=
  IntOp.andi (IntOp.andi (IntOp.andi (FloatOps.cmpf (F := Ideal) (φ := .f32) .oge xf f0) (FloatOps.cmpf (F := Ideal) (φ := .f32) .ole xf f127))
    (FloatOps.cmpf (F := Ideal) (φ := .f32) .oge yf f0)) (FloatOps.cmpf (F := Ideal) (φ := .f32) .ole yf f127)

/-- A float position clamped into `[0, 127]` (the bounds converted from the integers `0` and `127`), converted to a
    word, a negative word moved up by 128. -/
def clampWord (xf : EReal) : BitVec 32 :=
  Scalar.select
    (IntOp.cmpi .slt (FloatOps.fptosi (F := Ideal) (φ := .f32) 32 (min (FloatOps.sitofp (F := Ideal) .f32 127#32) (max (FloatOps.sitofp (F := Ideal) .f32 0#32) xf))) 0#32)
    (IntOp.addi (FloatOps.fptosi (F := Ideal) (φ := .f32) 32 (min (FloatOps.sitofp (F := Ideal) .f32 127#32) (max (FloatOps.sitofp (F := Ideal) .f32 0#32) xf))) 128#32)
    (FloatOps.fptosi (F := Ideal) (φ := .f32) 32 (min (FloatOps.sitofp (F := Ideal) .f32 127#32) (max (FloatOps.sitofp (F := Ideal) .f32 0#32) xf)))

/-- The position a gather reads for that word: read signed, clamped into the axis. -/
def pos (xf : EReal) : Fin 128 := ⟨min (clampWord xf).toInt.toNat 127, by omega⟩

/-- One neighbour: the image at the clamped position, times the indicator of the unclamped one. -/
def corner (f : Fin 128 → Fin 128 → EReal) (xf yf : EReal) : EReal :=
  f (pos yf) (pos xf) * FloatOps.uitofp (F := Ideal) .f32 (inside xf yf)

/-- The sample from the four neighbours, times the mask. -/
def gatherPt (f : Fin 128 → Fin 128 → EReal) (tx ty bnd : EReal) : EReal :=
  (((corner f (base tx) (base ty) * (dn tx * dn ty)
      + corner f (base tx + f1) (base ty) * (up tx * dn ty))
      + corner f (base tx) (base ty + f1) * (dn tx * up ty))
      + corner f (base tx + f1) (base ty + f1) * (up tx * up ty)) * bnd

end Cert.Sampling

end
-- ==== Proof.KHost.lean ====
/-
  What the four operands of the pallas_call hold, as the host code computes them.

  Up to the normalized sampling position ("norm", an array [4, 5, 4096, 2] clipped to ∓1.1) and the per-point in-bounds
  mask the host code is kept as two named arrays. From them it forms, on the axes (n, v, position, point):
    * the pixel coordinates  pix (norm x), pix (norm y)  of every point,
    * their tents: for each of the 128 positions along an axis, the weight the point gives it
      (the fractional part on the upper neighbour, its complement on the cell, nothing elsewhere),
  and hands the kernel, with the pair (n, v) flattened to a batch axis of 20: the image, the two tent arrays and the
  mask as a float. This module states those four arrays as operations of (norm, mask, image) and reads each at an index.
-/
import proofs.«160330_j17463337026052_2_alg».proof.Proof.KIdx
import proofs.«160330_j17463337026052_2_alg».proof.Proof.Spec
import Idealize.ShloMosaic.Lib.StableHlo.Run

noncomputable section

namespace Cert.KernelIdeal.Host

open Cert.KernelIdeal Cert.KernelIdeal.Facts₀ Idealize.ShloMosaic Idealize.ShloMosaic.TcCoe
open Idealize.SL.Sem Idealize.ShloMosaic.StableHlo Idealize.ShloMosaic.ValueIdx Cert.Sampling

/-! ## Pointwise operations at an index (all by definition) -/

theorem uitofp_at {s : Shape} {w : Nat} (x : IVec s w) (i : s.Idx) :
    (uitofp .f32 x : FVec Ideal s .f32) i = FloatOps.uitofp (F := Ideal) .f32 (x i) := rfl
theorem cmpi_at {s : Shape} {w : Nat} (q : CmpIPredicate) (x y : IVec s w) (i : s.Idx) : cmpi q x y i = IntOp.cmpi q (x i) (y i) := rfl
theorem addi_at {s : Shape} {w : Nat} (x y : IVec s w) (i : s.Idx) : addi x y i = IntOp.addi (x i) (y i) := rfl
theorem fptosi_at {s : Shape} (x : FVec Ideal s .f32) (i : s.Idx) : fptosi 32 x i = Ideal.fptosi 32 (x i) := rfl
theorem floor_at {s : Shape} (x : FVec Ideal s .f32) (i : s.Idx) : Host.floor x i = Ideal.liftRound Int.floor (x i) := rfl
theorem constantI_at {s : Shape} {w : Nat} (b : BitVec w) (i : s.Idx) : constantI s w b i = b := rfl

/-- A scalar spread over a shape. -/
theorem bc0_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

/-! ## The pixel coordinates of every point -/

def pixArr0 (N : FVec Ideal S4x5x4096x2 .f32) : FVec Ideal S4x5x4096 .f32 :=
  mulf (mulf (addf
        (shapeCast S4x5x4096 (extractStridedSlice S4x5x4096x1 ![0, 0, 0, 0] N slices_S4x5x4096x2_S4x5x4096x1_0_0_0_0) shapeCasts_S4x5x4096x1_S4x5x4096)
        (broadcastInDim S4x5x4096 ![] bcast_S_S4x5x4096 (constant (F := Ideal) S_ .f32 0x3F800000#32)))
      (broadcastInDim S4x5x4096 ![] bcast_S_S4x5x4096 (constant (F := Ideal) S_ .f32 0x3F000000#32)))
    (broadcastInDim S4x5x4096 ![] bcast_S_S4x5x4096 (constant (F := Ideal) S_ .f32 0x42FE0000#32))

def pixArr1 (N : FVec Ideal S4x5x4096x2 .f32) : FVec Ideal S4x5x4096 .f32 :=
  mulf (mulf (addf
        (shapeCast S4x5x4096 (extractStridedSlice S4x5x4096x1 ![0, 0, 0, 1] N slices_S4x5x4096x2_S4x5x4096x1_0_0_0_1) shapeCasts_S4x5x4096x1_S4x5x4096)
        (broadcastInDim S4x5x4096 ![] bcast_S_S4x5x4096 (constant (F := Ideal) S_ .f32 0x3F800000#32)))
      (broadcastInDim S4x5x4096 ![] bcast_S_S4x5x4096 (constant (F := Ideal) S_ .f32 0x3F000000#32)))
    (broadcastInDim S4x5x4096 ![] bcast_S_S4x5x4096 (constant (F := Ideal) S_ .f32 0x42FE0000#32))

theorem pixArr0_apply (N : FVec Ideal S4x5x4096x2 .f32) (n : Fin 4) (v : Fin 5) (p : Fin 4096) :
    pixArr0 N (ix3 n v p) = pix (N (ix4 n v p 0)) := by
  simp only [pixArr0, mulf_apply, addf_apply, bc0_apply, constant_apply, col0_apply]
  rfl

theorem pixArr1_apply (N : FVec Ideal S4x5x4096x2 .f32) (n : Fin 4) (v : Fin 5) (p : Fin 4096) :
    pixArr1 N (ix3 n v p) = pix (N (ix4 n v p 1)) := by
  simp only [pixArr1, mulf_apply, addf_apply, bc0_apply, constant_apply, col1_apply]
  rfl

/-! ## The tent of a coordinate array over the 128 positions of an axis -/

def tentArr (X : FVec Ideal S4x5x4096 .f32) : FVec Ideal S4x5x128x4096 .f32 :=
  addf
    (mulf
      (broadcastInDim S4x5x128x4096 ![0, 1, 2, 3] bcast_S4x5x1x4096_S4x5x128x4096_0_1_2_3
        (broadcastInDim S4x5x1x4096 ![0, 1, 3] bcast_S4x5x4096_S4x5x1x4096_0_1_3
          (subf (broadcastInDim S4x5x4096 ![] bcast_S_S4x5x4096 (constant (F := Ideal) S_ .f32 0x3F800000#32)) (subf X (Host.floor X)))))
      (uitofp .f32 (cmpi .eq
        (broadcastInDim S4x5x128x4096 ![0, 1, 2, 3] bcast_S1x1x128x1_S4x5x128x4096_0_1_2_3
          (broadcastInDim S1x1x128x1 ![2] bcast_S128_S1x1x128x1_2 (iotaInDim S128 32 0)))
        (broadcastInDim S4x5x128x4096 ![0, 1, 2, 3] bcast_S4x5x1x4096_S4x5x128x4096_0_1_2_3
          (broadcastInDim S4x5x1x4096 ![0, 1, 3] bcast_S4x5x4096_S4x5x1x4096_0_1_3 (fptosi 32 (Host.floor X)))))))
    (mulf
      (broadcastInDim S4x5x128x4096 ![0, 1, 2, 3] bcast_S4x5x1x4096_S4x5x128x4096_0_1_2_3
        (broadcastInDim S4x5x1x4096 ![0, 1, 3] bcast_S4x5x4096_S4x5x1x4096_0_1_3 (subf X (Host.floor X))))
      (uitofp .f32 (cmpi .eq
        (broadcastInDim S4x5x128x4096 ![0, 1, 2, 3] bcast_S1x1x128x1_S4x5x128x4096_0_1_2_3
          (broadcastInDim S1x1x128x1 ![2] bcast_S128_S1x1x128x1_2 (iotaInDim S128 32 0)))
        (broadcastInDim S4x5x128x4096 ![0, 1, 2, 3] bcast_S4x5x1x4096_S4x5x128x4096_0_1_2_3
          (addi (broadcastInDim S4x5x1x4096 ![0, 1, 3] bcast_S4x5x4096_S4x5x1x4096_0_1_3 (fptosi 32 (Host.floor X)))
            (broadcastInDim S4x5x1x4096 ![] bcast_S_S4x5x1x4096 (constantI S_ 32 1#32)))))))

/-- At position `w` and point `p`: the complement of the fractional part where `w` is the cell, the fractional part
    where `w` is the cell's upper neighbour. -/
theorem tentArr_apply (X : FVec Ideal S4x5x4096 .f32) (n : Fin 4) (v : Fin 5) (w : Fin 128) (p : Fin 4096) :
    tentArr X (ix4 n v w p)
      = (f1 - (X (ix3 n v p) - Ideal.liftRound Int.floor (X (ix3 n v p))))
          * hot (BitVec.ofNat 32 w.val) (Ideal.fptosi 32 (Ideal.liftRound Int.floor (X (ix3 n v p))))
        + (X (ix3 n v p) - Ideal.liftRound Int.floor (X (ix3 n v p)))
          * hot (BitVec.ofNat 32 w.val) (IntOp.addi (Ideal.fptosi 32 (Ideal.liftRound Int.floor (X (ix3 n v p)))) 1#32) := by
  unfold tentArr
  simp only [addf_apply, mulf_apply, uitofp_at, cmpi_at]
  rw [bcIota_apply]
  repeat rw [bc4_apply]
  simp only [addi_at]
  repeat rw [bc3_apply]
  simp only [bc0_apply, subf_apply, fptosi_at, floor_at, constantI_at, constant_apply]
  rfl

/-- The tent of a normalized coordinate, as Spec states it. -/
theorem tent_pix0 (N : FVec Ideal S4x5x4096x2 .f32) (n : Fin 4) (v : Fin 5) (w : Fin 128) (p : Fin 4096) :
    tentArr (pixArr0 N) (ix4 n v w p) = tent (N (ix4 n v p 0)) w := by
  rw [tentArr_apply, pixArr0_apply]; rfl
theorem tent_pix1 (N : FVec Ideal S4x5x4096x2 .f32) (n : Fin 4) (v : Fin 5) (w : Fin 128) (p : Fin 4096) :
    tentArr (pixArr1 N) (ix4 n v w p) = tent (N (ix4 n v p 1)) w := by
  rw [tentArr_apply, pixArr1_apply]; rfl

/-! ## The four operands, on the batch axis -/

def opImg (I : FVec Ideal S4x5x128x128x128 .f32) : FVec Ideal S20x128x128x128 .f32 :=
  shapeCast S20x128x128x128 I shapeCasts_S4x5x128x128x128_S20x128x128x128
def opWx (N : FVec Ideal S4x5x4096x2 .f32) : FVec Ideal S20x128x4096 .bf16 :=
  truncf .bf16 (shapeCast S20x128x4096 (tentArr (pixArr0 N)) shapeCasts_S4x5x128x4096_S20x128x4096) bitsLt_bf16_f32
def opWy (N : FVec Ideal S4x5x4096x2 .f32) : FVec Ideal S20x128x4096 .bf16 :=
  truncf .bf16 (shapeCast S20x128x4096 (tentArr (pixArr1 N)) shapeCasts_S4x5x128x4096_S20x128x4096) bitsLt_bf16_f32
def opMask (B : IVec S4x5x4096 1) : FVec Ideal S20x1x4096 .f32 :=
  shapeCast S20x1x4096 (uitofp .f32 B : FVec Ideal S4x5x4096 .f32) shapeCasts_S4x5x4096_S20x1x4096

theorem opImg_apply (I : FVec Ideal S4x5x128x128x128 .f32) (b : Fin 20) (c h w : Fin 128) :
    opImg I (ix4 b c h w) = I (ix5 (nOf b) (vOf b) c h w) := resh5_apply I b c h w
theorem opWx_apply (N : FVec Ideal S4x5x4096x2 .f32) (b : Fin 20) (w : Fin 128) (p : Fin 4096) :
    opWx N (ix3 b w p) = tent (N (ix4 (nOf b) (vOf b) p 0)) w :=
  (resh4_apply (tentArr (pixArr0 N)) b w p).trans (tent_pix0 N (nOf b) (vOf b) w p)
theorem opWy_apply (N : FVec Ideal S4x5x4096x2 .f32) (b : Fin 20) (h : Fin 128) (p : Fin 4096) :
    opWy N (ix3 b h p) = tent (N (ix4 (nOf b) (vOf b) p 1)) h :=
  (resh4_apply (tentArr (pixArr1 N)) b h p).trans (tent_pix1 N (nOf b) (vOf b) h p)
theorem opMask_apply (B : IVec S4x5x4096 1) (b : Fin 20) (u : Fin 1) (p : Fin 4096) :
    opMask B (ix3 b u p) = FloatOps.uitofp (F := Ideal) .f32 (B (ix3 (nOf b) (vOf b) p)) :=
  resh3_apply (uitofp .f32 B : FVec Ideal S4x5x4096 .f32) b u p

end Cert.KernelIdeal.Host

end
-- ==== Proof.KPrefix.lean ====
/-
  The kernel program's host code before the pallas_call, read as arrays.

  The first 119 host operations compute the normalized sampling position and the in-bounds mask; they are the same
  operations, in the same order, as the reference program's, so the two arrays are the reference's named stages of the
  same arguments. The remaining 83 operations form the pallas_call's four operands from those two arrays and the image
  (module KHost states them). This module splits the host code at that point and reads each operand array.
-/
import proofs.«160330_j17463337026052_2_alg».proof.Proof.Gen.KernelIdeal.Frame
import proofs.«160330_j17463337026052_2_alg».proof.Proof.ReadP
import proofs.«160330_j17463337026052_2_alg».proof.Proof.KHost
import proofs.«160330_j17463337026052_2_alg».proof.Proof.LibAfterAppend
import Idealize.ShloMosaic.Lib.StableHlo.Run

set_option maxRecDepth 16384

noncomputable section

namespace Cert.KernelIdeal.Host

open Cert.KernelIdeal Cert.KernelIdeal.Gen Idealize.ShloMosaic Idealize.ShloMosaic.TcCoe
open Idealize.SL.Sem Idealize.ShloMosaic.StableHlo Idealize.ShloMosaic.ValueIdx

variable (m : (ℓ : Loc nD τ sig) → Buf (Elt Ideal) ℓ)

/-- Core `c`'s buffers once the normalized position and the mask are computed. -/
def Vn (c : Dev nD) : Valuation τ sig (Elt Ideal) :=
  after ((hostOps0 : List (HloOp τ sig (Elt Ideal))) ++ (hostOps0_1 ++ (hostOps0_2 ++ hostOps0_3))) (fun b => m (c, b))

/-- The region's entry contents are the last 83 operations run from there. -/
theorem V_split (c : Dev nD) (b : Ref sig .tc) :
    V m c b = after (hostOps0_4 : List (HloOp τ sig (Elt Ideal))) (Vn m c) (Proc.devRef .tc b) :=
  congrFun (Cert.Lib.after_flatten5 hostOps0 hostOps0_1 hostOps0_2 hostOps0_3 hostOps0_4 (fun b => m (c, b))) _

/-! ## The four operands from (norm, mask, image) -/

set_option maxHeartbeats 4000000 in
theorem V_img (c : Dev nD) : V m c main_v186 = opImg (Vn m c (Proc.devRef .tc main_arg0)) := by
  rw [V_split]
  simp only [hostOps0_4]
  after_results_simp
  rfl

set_option maxHeartbeats 4000000 in
theorem V_wx (c : Dev nD) : V m c main_v188 = opWx (Vn m c (Proc.devRef .tc main_v119)) := by
  rw [V_split]
  simp only [hostOps0_4]
  after_results_simp
  rfl

set_option maxHeartbeats 4000000 in
theorem V_wy (c : Dev nD) : V m c main_v190 = opWy (Vn m c (Proc.devRef .tc main_v119)) := by
  rw [V_split]
  simp only [hostOps0_4]
  after_results_simp
  rfl

set_option maxHeartbeats 4000000 in
theorem V_mask (c : Dev nD) : V m c main_v192 = opMask (Vn m c (Proc.devRef .tc main_v95)) := by
  rw [V_split]
  simp only [hostOps0_4]
  after_results_simp
  rfl

set_option maxHeartbeats 4000000 in
/-- The mask is not touched by the last 83 operations (the lines after the region read it again). -/
theorem V_bound (c : Dev nD) : V m c main_v95 = Vn m c (Proc.devRef .tc main_v95) := by
  rw [V_split]
  simp only [hostOps0_4]
  after_results_simp

/-! ## The first 119 operations are the reference's -/

set_option maxHeartbeats 8000000 in
theorem Vn_img (c : Dev nD) : Vn m c (Proc.devRef .tc main_arg0) = m ((c.tc : Thread nD τ).loc main_arg0) := by
  unfold Vn
  simp only [hostOps0, hostOps0_1, hostOps0_2, hostOps0_3, List.cons_append, List.nil_append]
  after_results_simp

set_option maxHeartbeats 8000000 in
theorem Vn_norm (c : Dev nD) : Vn m c (Proc.devRef .tc main_v119)
    = Cert.ReferenceIdeal.ReadP.val_main_v120 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Vn
  simp only [hostOps0, hostOps0_1, hostOps0_2, hostOps0_3, List.cons_append, List.nil_append]
  after_results_simp
  rfl

set_option maxHeartbeats 8000000 in
theorem Vn_bound (c : Dev nD) : Vn m c (Proc.devRef .tc main_v95)
    = Cert.ReferenceIdeal.ReadP.val_main_v95 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) := by
  unfold Vn
  simp only [hostOps0, hostOps0_1, hostOps0_2, hostOps0_3, List.cons_append, List.nil_append]
  after_results_simp
  rfl

end Cert.KernelIdeal.Host

end
-- ==== Proof.KBody.lean ====
/-
  One channel of the dense sampling body. For an image slab `img` (one channel, 128 × 128), the two tent matrices
  `wx`, `wy` (128 × 4096 each, a column per sample point) and the points' mask `bv`, the body computes, for every point
  `p`,   ( ∑ h, ( ∑ w, img h w · wx w p ) · wy h p ) · bv p :
  a matrix product against `wx` (its accumulator zero), a pointwise product with `wy`, a sum down the rows, a product
  with the mask. Every one of the body's thirty-two stores holds this function of its own channel's slab.
-/
import proofs.«160330_j17463337026052_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-- One channel's stored row, as the body's operations of its four inputs. -/
def rowPay (img : Vec Ideal S1x1x128x128 .f32) (wx : FVec Ideal S128x4096 .bf16) (wy : FVec Ideal S128x4096 .f32)
    (bv : FVec Ideal S4096 .f32) : FVec Ideal S1x1x4096 .f32 :=
  shapeCast S1x1x4096
    (mulf
      (multiReduction .add [0] S4096
        (mulf
          (matmul dot_S128x128_S128x4096_S128x4096_1_0_0_1_n_n none
            (truncf .bf16 (shapeCast S128x128 img shapeCasts_S1x1x128x128_S128x128) bitsLt_bf16_f32) wx
            (constant S128x4096 .f32 0x00000000#32))
          wy)
        0x00000000#32 reduces_S128x4096_S4096 (.inl rfl) rfl)
      bv)
    shapeCasts_S4096_S1x1x4096

/-! ## The matrix product at an index: row `h` of the slab against column `p` of `wx` -/

theorem lhs0 (i : S128x4096.Idx) (q : dot_S128x128_S128x4096_S128x4096_1_0_0_1_n_n.contr.Idx) :
    (dot_S128x128_S128x4096_S128x4096_1_0_0_1_n_n.lhsIdx i q 0).val = (i 0).val := by
  unfold DotDims.lhsIdx
  rw [dif_neg (show ¬(0 : Fin S128x128.rank) ∈ dot_S128x128_S128x4096_S128x4096_1_0_0_1_n_n.lhsBatch by decide),
    dif_pos (show (0 : Fin S128x128.rank) ∈ dot_S128x128_S128x4096_S128x4096_1_0_0_1_n_n.lhsNonContracting by decide)]
  rfl
theorem lhs1 (i : S128x4096.Idx) (q : dot_S128x128_S128x4096_S128x4096_1_0_0_1_n_n.contr.Idx) :
    (dot_S128x128_S128x4096_S128x4096_1_0_0_1_n_n.lhsIdx i q 1).val = (q ⟨0, by decide⟩).val :=
  dot_S128x128_S128x4096_S128x4096_1_0_0_1_n_n.lhsIdx_val_of_single rfl i q
theorem rhs0 (i : S128x4096.Idx) (q : dot_S128x128_S128x4096_S128x4096_1_0_0_1_n_n.contr.Idx) :
    (dot_S128x128_S128x4096_S128x4096_1_0_0_1_n_n.rhsIdx i q 0).val = (q ⟨0, by decide⟩).val :=
  dot_S128x128_S128x4096_S128x4096_1_0_0_1_n_n.rhsIdx_val_of_single rfl i q
theorem rhs1 (i : S128x4096.Idx) (q : dot_S128x128_S128x4096_S128x4096_1_0_0_1_n_n.contr.Idx) :
    (dot_S128x128_S128x4096_S128x4096_1_0_0_1_n_n.rhsIdx i q 1).val = (i 1).val := by
  unfold DotDims.rhsIdx
  rw [dif_neg (show ¬(1 : Fin S128x4096.rank) ∈ dot_S128x128_S128x4096_S128x4096_1_0_0_1_n_n.rhsBatch by decide),
    dif_pos (show (1 : Fin S128x4096.rank) ∈ dot_S128x128_S128x4096_S128x4096_1_0_0_1_n_n.rhsNonContracting by decide)]
  rfl

/-- The product into the zero accumulator is the plain sum over the shared axis. -/
theorem matmul_at (a : FVec Ideal S128x128 .bf16) (wx : FVec Ideal S128x4096 .bf16) (h : Fin 128) (p : Fin 4096) :
    matmul dot_S128x128_S128x4096_S128x4096_1_0_0_1_n_n none a wx (constant S128x4096 .f32 0x00000000#32) (ix2 h p)
      = ∑ w : Fin 128, a (ix2 h w) * wx (ix2 w p) := by
  show FloatOps.matmul dot_S128x128_S128x4096_S128x4096_1_0_0_1_n_n none a wx (constant S128x4096 .f32 0x00000000#32) (ix2 h p) = _
  rw [Ideal.matmul_constant_zero_apply,
    ← Equiv.sum_comp (ValueIdx.contrEquiv1 dot_S128x128_S128x4096_S128x4096_1_0_0_1_n_n 128 rfl rfl).symm]
  refine Finset.sum_congr rfl fun k _ => ?_
  have hk := ValueIdx.contrEquiv1_symm_val dot_S128x128_S128x4096_S128x4096_1_0_0_1_n_n 128 rfl rfl k
  have el : dot_S128x128_S128x4096_S128x4096_1_0_0_1_n_n.lhsIdx (ix2 h p)
      ((ValueIdx.contrEquiv1 dot_S128x128_S128x4096_S128x4096_1_0_0_1_n_n 128 rfl rfl).symm k) = ix2 h k :=
    funext fun a => Fin.ext (by
      match a with
      | ⟨0, _⟩ => exact lhs0 _ _
      | ⟨1, _⟩ => exact (lhs1 _ _).trans hk)
  have er : dot_S128x128_S128x4096_S128x4096_1_0_0_1_n_n.rhsIdx (ix2 h p)
      ((ValueIdx.contrEquiv1 dot_S128x128_S128x4096_S128x4096_1_0_0_1_n_n 128 rfl rfl).symm k) = ix2 k p :=
    funext fun a => Fin.ext (by
      match a with
      | ⟨0, _⟩ => exact (rhs0 _ _).trans hk
      | ⟨1, _⟩ => exact rhs1 _ _)
  rw [el, er]

/-- The slab viewed as a matrix: its two unit axes dropped. -/
theorem slab_at (img : Vec Ideal S1x1x128x128 .f32) (h w : Fin 128) :
    shapeCast S128x128 img shapeCasts_S1x1x128x128_S128x128 (ix2 h w) = img (ix4 0 0 h w) := by
  refine shapeCast_apply img shapeCasts_S1x1x128x128_S128x128 (ix2 h w) (ix4 0 0 h w) ?_
  rw [Shape.rowMajor_val_four, Shape.rowMajor_val_two]
  show ((0 * 1 + 0) * 128 + h.val) * 128 + w.val = h.val * 128 + w.val
  omega

/-- The row of sums viewed with two leading unit axes. -/
theorem row_at (v : FVec Ideal S4096 .f32) (p : Fin 4096) :
    shapeCast S1x1x4096 v shapeCasts_S4096_S1x1x4096 (ix3 0 0 p) = v (ix1 p) := by
  refine shapeCast_apply v shapeCasts_S4096_S1x1x4096 (ix3 0 0 p) (ix1 p) ?_
  rw [Shape.rowMajor_val_one, Shape.rowMajor_val_three]
  show p.val = (0 * 1 + 0) * 4096 + p.val
  omega

/-- The sum down the rows of a 128 × 4096 matrix, from a zero start. -/
theorem colsum_at (x : FVec Ideal S128x4096 .f32) (p : Fin 4096) :
    multiReduction .add [0] S4096 x 0x00000000#32 reduces_S128x4096_S4096 (.inl rfl) rfl (ix1 p)
      = ∑ h : Fin 128, x (ix2 h p) := by
  refine (Ideal.multiReduction_add_single x 0x00000000#32 reduces_S128x4096_S4096 (.inl rfl) rfl (ix1 p)).trans ?_
  refine Finset.sum_congr rfl fun k _ => congrArg x ?_
  funext a
  match a with
  | ⟨0, _⟩ => rfl
  | ⟨1, _⟩ => rfl

/-- THE STORED ROW AT A POINT. -/
theorem rowPay_apply (img : Vec Ideal S1x1x128x128 .f32) (wx : FVec Ideal S128x4096 .bf16) (wy : FVec Ideal S128x4096 .f32)
    (bv : FVec Ideal S4096 .f32) (p : Fin 4096) :
    rowPay img wx wy bv (ix3 0 0 p)
      = (∑ h : Fin 128, (∑ w : Fin 128, img (ix4 0 0 h w) * wx (ix2 w p)) * wy (ix2 h p)) * bv (ix1 p) := by
  unfold rowPay
  refine (row_at _ p).trans ?_
  show multiReduction .add [0] S4096 _ 0x00000000#32 reduces_S128x4096_S4096 (.inl rfl) rfl (ix1 p) * bv (ix1 p) = _
  refine (congrArg (fun z => z * bv (ix1 p)) (colsum_at _ p)).trans ?_
  congr 1
  refine Finset.sum_congr rfl fun h _ => ?_
  show matmul dot_S128x128_S128x4096_S128x4096_1_0_0_1_n_n none _ wx (constant S128x4096 .f32 0x00000000#32) (ix2 h p) * wy (ix2 h p) = _
  refine (congrArg (fun z => z * wy (ix2 h p)) (matmul_at _ wx h p)).trans ?_
  congr 1
  refine Finset.sum_congr rfl fun w _ => ?_
  show shapeCast S128x128 img shapeCasts_S1x1x128x128_S128x128 (ix2 h w) * wx (ix2 w p) = _
  exact congrArg (fun z => z * wx (ix2 w p)) (slab_at img h w)

end Cert.KernelIdeal.Body

end
-- ==== Proof.KBlocks.lean ====
/-
  From the body's blocks to the whole result array of the pallas_call.

  The grid has 20 × 4 points; point t works on batch index t / 4 and on the 32 channels 32 (t mod 4) … 32 (t mod 4) + 31.
  At a point the body stores, for each of its 32 channels, one row (a value per sample point) which is the dense
  sampling sum of that channel's image slab against the point's two tent matrices, times the mask. Read through the
  block's position in the arrays this is ONE function `G` of the four operand arrays, the same at every point, and the
  80 blocks tile the result array; so the array ends holding `G`.
-/
import proofs.«160330_j17463337026052_2_alg».proof.Proof.Gen.KernelIdeal.Frame
import proofs.«160330_j17463337026052_2_alg».proof.Proof.KBody
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Body Idealize.ShloMosaic.ValueIdx

variable (m : (ℓ : Loc nD τ sig) → Buf (Elt Ideal) ℓ)

/-! ## The function the result array holds -/

/-- Channel `c` of batch `b` at sample point `p`: the image slab summed against the two tent columns, times the mask. -/
def GAt (A0 : FVec Ideal S20x128x128x128 .f32) (A1 A2 : FVec Ideal S20x128x4096 .bf16) (A3 : FVec Ideal S20x1x4096 .f32)
    (b : Fin 20) (c : Fin 128) (p : Fin 4096) : EReal :=
  (∑ h : Fin 128, (∑ w : Fin 128, A0 (ix4 b c h w) * A1 (ix3 b w p)) * A2 (ix3 b h p)) * A3 (ix3 b 0 p)

def G (A0 : FVec Ideal S20x128x128x128 .f32) (A1 A2 : FVec Ideal S20x128x4096 .bf16) (A3 : FVec Ideal S20x1x4096 .f32) :
    S20x128x4096.Idx → EReal :=
  fun i => GAt A0 A1 A2 A3 ⟨(i 0).val, (i 0).isLt⟩ ⟨(i 1).val, (i 1).isLt⟩ ⟨(i 2).val, (i 2).isLt⟩

/-- The same on one point's blocks: 32 channels of one batch index. -/
def blockFn (x0 : Vec Ideal S1x32x128x128 .f32) (x1 x2 : Vec Ideal S1x128x4096 .bf16) (x3 : Vec Ideal S1x1x4096 .f32) :
    Vec Ideal S1x32x4096 .f32 :=
  fun y => (∑ h : Fin 128, (∑ w : Fin 128, x0 (ix4 (0 : Fin 1) (⟨(y 1).val, (y 1).isLt⟩ : Fin 32) h w)
      * x1 (ix3 (0 : Fin 1) w (⟨(y 2).val, (y 2).isLt⟩ : Fin 4096))) * x2 (ix3 (0 : Fin 1) h (⟨(y 2).val, (y 2).isLt⟩ : Fin 4096)))
    * x3 (ix3 (0 : Fin 1) (0 : Fin 1) (⟨(y 2).val, (y 2).isLt⟩ : Fin 4096))

/-! ## The three shared loads, as the body re-lays them -/

theorem hz3 : (![0, 0, 0] : Fin 3 → Nat) = fun _ => 0 := funext fun a => by fin_cases a <;> rfl

theorem pay2_at (x1 : Vec Ideal S1x128x4096 .bf16) (w : Fin 128) (p : Fin 4096) :
    k0_pay2 (View.ld x1 r0_0) (ix2 w p) = x1 (ix3 0 w p) := by
  unfold k0_pay2
  rw [View.ld_unit_zero (S := S1x128x4096) hz3]
  exact shapeCast_apply x1 shapeCasts_S1x128x4096_S128x4096 (ix2 w p) (ix3 0 w p) (by
    rw [Shape.rowMajor_val_three, Shape.rowMajor_val_two]
    show (0 * 128 + w.val) * 4096 + p.val = w.val * 4096 + p.val
    omega)

theorem pay3_at (x2 : Vec Ideal S1x128x4096 .bf16) (h : Fin 128) (p : Fin 4096) :
    k0_pay3 (View.ld x2 r0_0) (ix2 h p) = x2 (ix3 0 h p) := by
  unfold k0_pay3
  rw [View.ld_unit_zero (S := S1x128x4096) hz3]
  exact shapeCast_apply x2 shapeCasts_S1x128x4096_S128x4096 (ix2 h p) (ix3 0 h p) (by
    rw [Shape.rowMajor_val_three, Shape.rowMajor_val_two]
    show (0 * 128 + h.val) * 4096 + p.val = h.val * 4096 + p.val
    omega)

theorem pay4_at (x3 : Vec Ideal S1x1x4096 .f32) (p : Fin 4096) :
    k0_pay4 (View.ld x3 r0_1) (ix1 p) = x3 (ix3 0 0 p) := by
  unfold k0_pay4
  rw [View.ld_unit_zero (S := S1x1x4096) hz3]
  exact shapeCast_apply x3 shapeCasts_S1x1x4096_S4096 (ix1 p) (ix3 0 0 p) (by
    rw [Shape.rowMajor_val_three, Shape.rowMajor_val_one]
    show (0 * 1 + 0) * 4096 + p.val = p.val
    omega)

/-! ## One store: channel `i`'s row is `blockFn` on that row -/

theorem piece_eq (x0 : Vec Ideal S1x32x128x128 .f32) (x1 x2 : Vec Ideal S1x128x4096 .bf16) (x3 : Vec Ideal S1x1x4096 .f32)
    (i : Nat) (hi : i < 32)
    (inb4 : ∀ a, (![0, i, 0, 0] : Fin 4 → Nat) a + S1x1x128x128.size a ≤ S1x32x128x128.size a)
    (inb3 : ∀ a, (![0, i, 0] : Fin 3 → Nat) a + S1x1x4096.size a ≤ S1x32x4096.size a) (x : S1x1x4096.Idx) :
    rowPay (View.ld x0 (Rect.unit (s := S1x32x128x128) ![0, i, 0, 0] S1x1x128x128.size inb4))
        (k0_pay2 (View.ld x1 r0_0)) (k0_pay3 (View.ld x2 r0_0)) (k0_pay4 (View.ld x3 r0_1)) x
      = blockFn x0 x1 x2 x3 ((Rect.unit (s := S1x32x4096) ![0, i, 0] S1x1x4096.size inb3).emb x) := by
  obtain ⟨p, rfl⟩ : ∃ p : Fin 4096, x = ix3 0 0 p := ⟨⟨(x 2).val, (x 2).isLt⟩, funext fun a => Fin.ext (by
    match a with
    | ⟨0, _⟩ => have h : (x 0).val < 1 := (x 0).isLt; show (x 0).val = 0; omega
    | ⟨1, _⟩ => have h : (x 1).val < 1 := (x 1).isLt; show (x 1).val = 0; omega
    | ⟨2, _⟩ => rfl)⟩
  refine (rowPay_apply _ _ _ _ p).trans ?_
  have hp : (⟨0 + 1 * p.val, by have := p.isLt; omega⟩ : Fin 4096) = p := Fin.ext (by show 0 + 1 * p.val = p.val; omega)
  show _ = (∑ h : Fin 128, (∑ w : Fin 128, x0 (ix4 (0 : Fin 1) (⟨i + 1 * 0, by omega⟩ : Fin 32) h w)
      * x1 (ix3 (0 : Fin 1) w (⟨0 + 1 * p.val, by have := p.isLt; omega⟩ : Fin 4096)))
        * x2 (ix3 (0 : Fin 1) h (⟨0 + 1 * p.val, by have := p.isLt; omega⟩ : Fin 4096)))
      * x3 (ix3 (0 : Fin 1) (0 : Fin 1) (⟨0 + 1 * p.val, by have := p.isLt; omega⟩ : Fin 4096))
  rw [hp, pay4_at]
  congr 1
  refine Finset.sum_congr rfl fun h _ => ?_
  rw [pay3_at]
  congr 1
  refine Finset.sum_congr rfl fun w _ => ?_
  rw [pay2_at]
  congr 1
  refine congrArg x0 (funext fun a => Fin.ext ?_)
  match a with
  | ⟨0, _⟩ => show 0 + 1 * 0 = 0; rfl
  | ⟨1, _⟩ => rfl
  | ⟨2, _⟩ => show 0 + 1 * h.val = h.val; omega
  | ⟨3, _⟩ => show 0 + 1 * w.val = w.val; omega

/-! ## The block the body leaves -/

/-- All 32 stores are rows of `blockFn`, and they cover the block. -/
theorem out_block (x0 : Vec Ideal S1x32x128x128 .f32) (x1 x2 : Vec Ideal S1x128x4096 .bf16) (x3 : Vec Ideal S1x1x4096 .f32)
    (y : S1x32x4096.Idx) : out0_4 x0 x1 x2 x3 y = blockFn x0 x1 x2 x3 y := by
  unfold out0_4
  refine View.canon_apply_of_pieces (Val := Elt Ideal) (e := .f32) (blockFn x0 x1 x2 x3) _ ?_ y (cover0_4 _ _ _ _ _ _ _ _ _ _ _ _ _ _ _ _ _ _ _ _ _ _ _ _ _ _ _ _ _ _ _ _ y)
  intro q hq
  simp only [List.mem_cons, List.mem_nil_iff, or_false] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (intro x; dsimp only at x ⊢; exact piece_eq x0 x1 x2 x3 _ (by decide) _ _ x)

/-! ## The blocks' places in the arrays -/

/-- The printed index maps, decided over the 80 points: every operand's block follows the result's batch index; the
    image's also its channel block; all other block indices are zero. -/
theorem idx_facts : ∀ t : Fin cfg0.N,
    win0_0.index t (0 : Fin 4) = win0_4.index t (0 : Fin 3) ∧ win0_0.index t (1 : Fin 4) = win0_4.index t (1 : Fin 3)
    ∧ win0_0.index t (2 : Fin 4) = 0 ∧ win0_0.index t (3 : Fin 4) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 ∧ win0_4.index t (0 : Fin 3) ≤ 19 ∧ win0_4.index t (1 : Fin 3) ≤ 3 :=
  (by decide +kernel : ∀ t : Fin grid0.N, _)

/-- Every (batch index, channel block) is some point's. -/
theorem idx_onto : ∀ (q0 : Fin 20) (q1 : Fin 4), ∃ t : Fin cfg0.N, win0_4.index t = ![q0.val, q1.val, 0] :=
  (by decide +kernel : ∀ (q0 : Fin 20) (q1 : Fin 4), ∃ t : Fin grid0.N, win0_4.index t = ![q0.val, q1.val, 0])

/-! ## What a point writes back -/

/-- The sums over a point's blocks, with each operand read where the point's block sits in its array, are `G` at the
    result block's place. -/
theorem block_place (A0 : FVec Ideal S20x128x128x128 .f32) (A1 A2 : FVec Ideal S20x128x4096 .bf16) (A3 : FVec Ideal S20x1x4096 .f32)
    (t : Fin cfg0.N) (y : S1x32x4096.Idx) :
    (∑ h : Fin 128, (∑ w : Fin 128,
        A0 (((cfg0.win 0).blk t).view.emb (ix4 (0 : Fin 1) (⟨(y 1).val, (y 1).isLt⟩ : Fin 32) h w))
          * A1 (((cfg0.win 1).blk t).view.emb (ix3 (0 : Fin 1) w (⟨(y 2).val, (y 2).isLt⟩ : Fin 4096))))
        * A2 (((cfg0.win 2).blk t).view.emb (ix3 (0 : Fin 1) h (⟨(y 2).val, (y 2).isLt⟩ : Fin 4096))))
      * A3 (((cfg0.win 3).blk t).view.emb (ix3 (0 : Fin 1) (0 : Fin 1) (⟨(y 2).val, (y 2).isLt⟩ : Fin 4096)))
    = G A0 A1 A2 A3 (((cfg0.win 4).blk t).view.emb y) := by
  obtain ⟨e00, e01, e02, e03, e10, e11, e12, e20, e21, e22, e30, e31, e32, e42, b0, b1⟩ := idx_facts t
  have hy0 : (y 0).val < 1 := (y 0).isLt
  have hy1 : (y 1).val < 32 := (y 1).isLt
  have hy2 : (y 2).val < 4096 := (y 2).isLt
  unfold G GAt
  have k0 : ∀ (h w : Fin 128), ((cfg0.win 0).blk t).view.emb (ix4 (0 : Fin 1) (⟨(y 1).val, (y 1).isLt⟩ : Fin 32) h w)
      = ix4 (⟨((((cfg0.win 4).blk t).view.emb y) 0).val, ((((cfg0.win 4).blk t).view.emb y) 0).isLt⟩ : Fin 20)
          (⟨((((cfg0.win 4).blk t).view.emb y) 1).val, ((((cfg0.win 4).blk t).view.emb y) 1).isLt⟩ : Fin 128) h w := by
    intro h w
    funext a; apply Fin.ext
    match a with
    | ⟨0, _⟩ => show win0_0.index t (0 : Fin 4) * 1 + 1 * 0 = win0_4.index t (0 : Fin 3) * 1 + 1 * (y 0).val; omega
    | ⟨1, _⟩ => show win0_0.index t (1 : Fin 4) * 32 + 1 * (y 1).val = win0_4.index t (1 : Fin 3) * 32 + 1 * (y 1).val; omega
    | ⟨2, _⟩ => show win0_0.index t (2 : Fin 4) * 128 + 1 * h.val = h.val; omega
    | ⟨3, _⟩ => show win0_0.index t (3 : Fin 4) * 128 + 1 * w.val = w.val; omega
  have k1 : ∀ (w : Fin 128), ((cfg0.win 1).blk t).view.emb (ix3 (0 : Fin 1) w (⟨(y 2).val, (y 2).isLt⟩ : Fin 4096))
      = ix3 (⟨((((cfg0.win 4).blk t).view.emb y) 0).val, ((((cfg0.win 4).blk t).view.emb y) 0).isLt⟩ : Fin 20) w
          (⟨((((cfg0.win 4).blk t).view.emb y) 2).val, ((((cfg0.win 4).blk t).view.emb y) 2).isLt⟩ : Fin 4096) := by
    intro w
    funext a; apply Fin.ext
    match a with
    | ⟨0, _⟩ => show win0_1.index t (0 : Fin 3) * 1 + 1 * 0 = win0_4.index t (0 : Fin 3) * 1 + 1 * (y 0).val; omega
    | ⟨1, _⟩ => show win0_1.index t (1 : Fin 3) * 128 + 1 * w.val = w.val; omega
    | ⟨2, _⟩ => show win0_1.index t (2 : Fin 3) * 4096 + 1 * (y 2).val = win0_4.index t (2 : Fin 3) * 4096 + 1 * (y 2).val; omega
  have k2 : ∀ (h : Fin 128), ((cfg0.win 2).blk t).view.emb (ix3 (0 : Fin 1) h (⟨(y 2).val, (y 2).isLt⟩ : Fin 4096))
      = ix3 (⟨((((cfg0.win 4).blk t).view.emb y) 0).val, ((((cfg0.win 4).blk t).view.emb y) 0).isLt⟩ : Fin 20) h
          (⟨((((cfg0.win 4).blk t).view.emb y) 2).val, ((((cfg0.win 4).blk t).view.emb y) 2).isLt⟩ : Fin 4096) := by
    intro h
    funext a; apply Fin.ext
    match a with
    | ⟨0, _⟩ => show win0_2.index t (0 : Fin 3) * 1 + 1 * 0 = win0_4.index t (0 : Fin 3) * 1 + 1 * (y 0).val; omega
    | ⟨1, _⟩ => show win0_2.index t (1 : Fin 3) * 128 + 1 * h.val = h.val; omega
    | ⟨2, _⟩ => show win0_2.index t (2 : Fin 3) * 4096 + 1 * (y 2).val = win0_4.index t (2 : Fin 3) * 4096 + 1 * (y 2).val; omega
  have k3 : ((cfg0.win 3).blk t).view.emb (ix3 (0 : Fin 1) (0 : Fin 1) (⟨(y 2).val, (y 2).isLt⟩ : Fin 4096))
      = ix3 (⟨((((cfg0.win 4).blk t).view.emb y) 0).val, ((((cfg0.win 4).blk t).view.emb y) 0).isLt⟩ : Fin 20) (0 : Fin 1)
          (⟨((((cfg0.win 4).blk t).view.emb y) 2).val, ((((cfg0.win 4).blk t).view.emb y) 2).isLt⟩ : Fin 4096) := by
    funext a; apply Fin.ext
    match a with
    | ⟨0, _⟩ => show win0_3.index t (0 : Fin 3) * 1 + 1 * 0 = win0_4.index t (0 : Fin 3) * 1 + 1 * (y 0).val; omega
    | ⟨1, _⟩ => show win0_3.index t (1 : Fin 3) * 1 + 1 * 0 = 0; omega
    | ⟨2, _⟩ => show win0_3.index t (2 : Fin 3) * 4096 + 1 * (y 2).val = win0_4.index t (2 : Fin 3) * 4096 + 1 * (y 2).val; omega
  rw [k3]
  congr 1
  refine Finset.sum_congr rfl fun h _ => ?_
  rw [k2 h]
  congr 1
  refine Finset.sum_congr rfl fun w _ => ?_
  rw [k0 h w, k1 w]

set_option backward.isDefEq.respectTransparency.types false in
set_option maxHeartbeats 2000000 in
/-- WHAT POINT `t` WRITES BACK is block `t` of `G` of the four operand arrays as the region finds them. -/
theorem flushed_eq (c : Dev nD) (t : Fin cfg0.N) :
    (dats m 0 c).flushed 4 t = ((cfg0.win 4).blk t).view.read (Elt Ideal)
      (G (V m c main_v186) (V m c main_v188) (V m c main_v190) (V m c main_v192)) := by
  show (cfg0.win 4).cut (grid0.coords t) ((dats m 0 c).after 4 t) = _
  rw [after0_4]
  funext y
  refine (out_block (iblk m c 0 t) (iblk m c 1 t) (iblk m c 2 t) (iblk m c 3 t) y).trans ?_
  exact block_place (V m c main_v186) (V m c main_v188) (V m c main_v190) (V m c main_v192) t y

/-! ## The blocks tile the array -/

/-- An index of the array is in point `t`'s block iff each coordinate is in the block's range on its axis. -/
theorem mem_blk (t : Fin cfg0.N) (i : S20x128x4096.Idx) :
    i ∈ ((cfg0.win 4).blk t).view.set ↔ ∀ a : Fin 3, win0_4.index t a * S1x32x4096.size a ≤ (i a).val
      ∧ (i a).val < win0_4.index t a * S1x32x4096.size a + S1x32x4096.size a := by
  show i ∈ ((View.whole main_v193).slice (win0_4.rect t)).set ↔ _
  rw [View.set_slice_whole, Rect.mem_set_unit]
  exact Iff.rfl

theorem cover (i : S20x128x4096.Idx) :
    ∃ t : Fin cfg0.N, (cfg0.win 4).flush t = true ∧ i ∈ ((cfg0.win 4).blk t).view.set := by
  have hi0 : (i 0).val < 20 := (i 0).isLt
  have hi1 : (i 1).val < 128 := (i 1).isLt
  have hi2 : (i 2).val < 4096 := (i 2).isLt
  obtain ⟨t, ht⟩ := idx_onto ⟨(i 0).val, hi0⟩ ⟨(i 1).val / 32, by omega⟩
  have q0 : win0_4.index t (0 : Fin 3) = (i 0).val := congrFun ht 0
  have q1 : win0_4.index t (1 : Fin 3) = (i 1).val / 32 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 32 ≤ (i 1).val ∧ (i 1).val < win0_4.index t (1 : Fin 3) * 32 + 32; omega
  | ⟨2, _⟩ => show win0_4.index t (2 : Fin 3) * 4096 ≤ (i 2).val ∧ (i 2).val < win0_4.index t (2 : Fin 3) * 4096 + 4096; omega

/-- THE RESULT ARRAY of the pallas_call after the run. -/
theorem final (c : Dev nD) : (dats m 0 c).arrAt 4 cfg0.N
    = G (V m c main_v186) (V m c main_v188) (V m c main_v190) (V m c main_v192) :=
  (dats m 0 c).arrAt_eq_of_cover 4 _ (fun t _ => flushed_eq m c t) cover

end Cert.KernelIdeal.Blocks

end
-- ==== Proof.Collapse.lean ====
/-
  The two arrangements of bilinear sampling at one point give the same value.

  Everything here is mathematics on the extended reals. The six literal words are evaluated once. A coordinate
  between the two clipping bounds is a real t whose pixel coordinate ((t + 1) / 2) * 127 lies in about
  (-6.36, 133.36); its floor n is an integer in [-7, 133], far inside the 32-bit range, so the float floor, its
  conversion to a word, and the word plus one are all exact. A comparison of a position k in [0, 127] with such a
  word is the integer comparison k = n, so a tent is d * [k = n] + u * [k = n + 1] with d = 1 - u and u the fractional
  part. With real image entries the double sum against the two tents is a real double sum; distributing it gives
  four terms, each a weight product times the double sum of the image against two indicators, which is the image
  entry at (n_y + b, n_x + a) when that position is on the image and zero otherwise. On the gathered side the four
  comparisons at an integer position say exactly that the position is on the image, and then clamping, converting,
  the wrap of a negative word and the signed read all return the position itself; off the image the neighbour is a
  finite entry times zero. So both sides are the same real number times the common last factor.
-/
import Mathlib
import proofs.«160330_j17463337026052_2_alg».proof.Proof.Spec

noncomputable section

namespace Cert.Sampling

open Idealize.ShloMosaic

/-! ## The six literal words, as reals -/

theorem f0_eq : f0 = ((0 : ℝ) : EReal) := by
  simp [f0, Ideal.ofBits, Ideal.ieee]

theorem f1_eq : f1 = ((1 : ℝ) : EReal) := by
  simp [f1, Ideal.ofBits, Ideal.ieee, -EReal.coe_mul]; norm_num

theorem fHalf_eq : fHalf = ((1 / 2 : ℝ) : EReal) := by
  simp [fHalf, Ideal.ofBits, Ideal.ieee, -EReal.coe_mul]; norm_num

theorem f127_eq : f127 = ((127 : ℝ) : EReal) := by
  simp [f127, Ideal.ofBits, Ideal.ieee, -EReal.coe_mul]; norm_num

theorem fLo_eq : fLo = ((-(9227469 / 8388608) : ℝ) : EReal) := by
  simp [fLo, Ideal.ofBits, Ideal.ieee, -EReal.coe_mul]; norm_num

theorem fHi_eq : fHi = ((9227469 / 8388608 : ℝ) : EReal) := by
  simp [fHi, Ideal.ofBits, Ideal.ieee, -EReal.coe_mul]; norm_num

/-! ## Real forms of the pixel coordinate, its floor and the two weights -/

/-- The pixel coordinate of a real normalized coordinate. -/
def pixR (t : ℝ) : ℝ := ((t + 1) * (1 / 2)) * 127
/-- Its cell: the floor, an integer. -/
def cellZ (t : ℝ) : ℤ := ⌊pixR t⌋
/-- The weight of the upper neighbour. -/
def upR (t : ℝ) : ℝ := pixR t - (cellZ t : ℝ)
/-- The weight of the cell itself. -/
def dnR (t : ℝ) : ℝ := 1 - upR t

theorem pix_coe (t : ℝ) : pix (t : EReal) = ((pixR t : ℝ) : EReal) := by
  rw [pix, f1_eq, fHalf_eq, f127_eq, ← EReal.coe_add, ← EReal.coe_mul, ← EReal.coe_mul]; rfl

theorem base_coe (t : ℝ) : base (t : EReal) = (((cellZ t : ℤ) : ℝ) : EReal) := by
  rw [base, pix_coe, Ideal.liftRound_coe]; rfl

theorem up_coe (t : ℝ) : up (t : EReal) = ((upR t : ℝ) : EReal) := by
  rw [up, pix_coe, base_coe, ← EReal.coe_sub]; rfl

theorem dn_coe (t : ℝ) : dn (t : EReal) = ((dnR t : ℝ) : EReal) := by
  rw [dn, up_coe, f1_eq, ← EReal.coe_sub]; rfl

/-- A coordinate between the two clipping bounds has its pixel coordinate in about (-6.36, 133.36), so its
    cell is an integer in [-7, 133]. -/
theorem cellZ_range (t : ℝ) (h : -(9227469 / 8388608 : ℝ) ≤ t ∧ t ≤ 9227469 / 8388608) :
    -7 ≤ cellZ t ∧ cellZ t < 134 := by
  have hp : (-7 : ℝ) ≤ pixR t ∧ pixR t < 134 := by
    unfold pixR; constructor <;> linarith [h.1, h.2]
  constructor
  · apply Int.le_floor.mpr; push_cast; exact hp.1
  · apply Int.floor_lt.mpr; push_cast; exact hp.2

/-! ## Small integers as 32-bit words -/

theorem toInt_ofInt_small (n : ℤ) (h : -1000 ≤ n ∧ n ≤ 1000) : (BitVec.ofInt 32 n).toInt = n := by
  rw [BitVec.toInt_ofInt, Int.bmod_def]; split_ifs <;> omega

/-- Converting an integer-valued real far inside the 32-bit range gives that integer's word. -/
theorem fptosi_int (n : ℤ) (h : -1000 ≤ n ∧ n ≤ 1000) :
    Ideal.fptosi 32 (((n : ℤ) : ℝ) : EReal) = BitVec.ofInt 32 n := by
  rw [Ideal.fptosi, Ideal.toIntClamped_coe]
  congr 1
  simp only [Int.floor_intCast, Int.ceil_intCast, ite_self]
  have e : ((2 ^ (32 - 1) : ℕ) : ℤ) = 2147483648 := by norm_num
  rw [e]; omega

theorem cell_coe (t : ℝ) (h : -7 ≤ cellZ t ∧ cellZ t < 134) :
    cell (t : EReal) = BitVec.ofInt 32 (cellZ t) := by
  rw [cell, base_coe]; exact fptosi_int _ (by omega)

theorem ofNat_eq_ofInt_iff (k : Fin 128) (m : ℤ) (hm : -1000 ≤ m ∧ m ≤ 1000) :
    BitVec.ofNat 32 k.val = BitVec.ofInt 32 m ↔ (k.val : ℤ) = m := by
  have hk := k.isLt
  constructor
  · intro h
    have h2 := congrArg BitVec.toInt h
    rw [toInt_ofInt_small m hm, ← BitVec.ofInt_natCast, toInt_ofInt_small _ (by omega)] at h2
    exact h2
  · intro h; rw [← h, BitVec.ofInt_natCast]

/-! ## The indicator and the tent, as reals -/

/-- The indicator that position k is the integer m. -/
def delta (k : Fin 128) (m : ℤ) : ℝ := if (k.val : ℤ) = m then 1 else 0

theorem hot_ofInt (k : Fin 128) (m : ℤ) (hm : -1000 ≤ m ∧ m ≤ 1000) :
    hot (BitVec.ofNat 32 k.val) (BitVec.ofInt 32 m) = ((delta k m : ℝ) : EReal) := by
  show ((((IntOp.cmpi .eq (BitVec.ofNat 32 k.val) (BitVec.ofInt 32 m)).toNat : ℕ) : ℝ) : EReal) = _
  unfold delta
  by_cases hk : (k.val : ℤ) = m
  · rw [if_pos hk, (ofNat_eq_ofInt_iff k m hm).mpr hk]; simp [IntOp.cmpi]
  · have hne : BitVec.ofNat 32 k.val ≠ BitVec.ofInt 32 m :=
      fun h => hk ((ofNat_eq_ofInt_iff k m hm).mp h)
    rw [if_neg hk]; simp [IntOp.cmpi, hne]

/-- The two weights d, u spread over the positions around the integer cell n. -/
def tentR (d u : ℝ) (n : ℤ) (k : Fin 128) : ℝ := d * delta k n + u * delta k (n + 1)

theorem tent_coe (t : ℝ) (h : -7 ≤ cellZ t ∧ cellZ t < 134) (k : Fin 128) :
    tent (t : EReal) k = ((tentR (dnR t) (upR t) (cellZ t) k : ℝ) : EReal) := by
  have hadd : IntOp.addi (BitVec.ofInt 32 (cellZ t)) 1#32 = BitVec.ofInt 32 (cellZ t + 1) := by
    rw [BitVec.ofInt_add]; rfl
  rw [tent, dn_coe, up_coe, cell_coe t h, hadd, hot_ofInt k _ (by omega), hot_ofInt k _ (by omega),
    ← EReal.coe_mul, ← EReal.coe_mul, ← EReal.coe_add]; rfl

/-- A finite sum of reals, read in the extended reals, is the sum of the readings. -/
theorem coe_sum {ι : Type*} (s : Finset ι) (a : ι → ℝ) :
    ∑ k ∈ s, ((a k : ℝ) : EReal) = ((∑ k ∈ s, a k : ℝ) : EReal) := by
  classical
  induction s using Finset.induction_on with
  | empty => simp
  | insert _ _ hx ih => rw [Finset.sum_insert hx, Finset.sum_insert hx, ih, EReal.coe_add]

theorem dense_coe (F : Fin 128 → Fin 128 → ℝ) (x y : ℝ)
    (hx : -7 ≤ cellZ x ∧ cellZ x < 134) (hy : -7 ≤ cellZ y ∧ cellZ y < 134) :
    (∑ h : Fin 128, (∑ w : Fin 128, ((F h w : ℝ) : EReal) * tent (x : EReal) w) * tent (y : EReal) h)
      = ((∑ h : Fin 128, (∑ w : Fin 128, F h w * tentR (dnR x) (upR x) (cellZ x) w)
            * tentR (dnR y) (upR y) (cellZ y) h : ℝ) : EReal) := by
  simp only [tent_coe x hx, tent_coe y hy, ← EReal.coe_mul, coe_sum]

/-! ## The collapse of the double sum, on the reals -/

/-- The image entry at the integer position (my, mx), zero off the image, written as a double sum against
    the two indicators. -/
def Q (F : Fin 128 → Fin 128 → ℝ) (my mx : ℤ) : ℝ :=
  ∑ h : Fin 128, (∑ w : Fin 128, F h w * delta w mx) * delta h my

theorem dense_real (F : Fin 128 → Fin 128 → ℝ) (dx ux dy uy : ℝ) (nx ny : ℤ) :
    ∑ h : Fin 128, (∑ w : Fin 128, F h w * tentR dx ux nx w) * tentR dy uy ny h
      = ((Q F ny nx * (dx * dy) + Q F ny (nx + 1) * (ux * dy)) + Q F (ny + 1) nx * (dx * uy))
          + Q F (ny + 1) (nx + 1) * (ux * uy) := by
  simp only [tentR, Q, Finset.sum_mul, ← Finset.sum_add_distrib]
  apply Finset.sum_congr rfl
  intro h _
  apply Finset.sum_congr rfl
  intro w _
  ring

theorem sum_delta (a : Fin 128 → ℝ) (m : ℤ) (j : Fin 128) (hj : (j.val : ℤ) = m) :
    ∑ k : Fin 128, a k * delta k m = a j := by
  rw [Finset.sum_eq_single j]
  · simp [delta, hj]
  · intro b _ hb
    have hne : ¬ ((b.val : ℤ) = m) := by
      intro h; apply hb; apply Fin.ext; omega
    simp [delta, hne]
  · intro h; exact absurd (Finset.mem_univ j) h

theorem sum_delta_out (a : Fin 128 → ℝ) (m : ℤ) (hm : m < 0 ∨ 127 < m) :
    ∑ k : Fin 128, a k * delta k m = 0 := by
  apply Finset.sum_eq_zero
  intro k _
  have hne : ¬ ((k.val : ℤ) = m) := by have := k.isLt; omega
  simp [delta, hne]

theorem Q_in (F : Fin 128 → Fin 128 → ℝ) (my mx : ℤ) (j i : Fin 128)
    (hj : (j.val : ℤ) = my) (hi : (i.val : ℤ) = mx) : Q F my mx = F j i :=
  (sum_delta (fun h => ∑ w : Fin 128, F h w * delta w mx) my j hj).trans (sum_delta (F j) mx i hi)

theorem Q_out (F : Fin 128 → Fin 128 → ℝ) (my mx : ℤ)
    (h : (mx < 0 ∨ 127 < mx) ∨ (my < 0 ∨ 127 < my)) : Q F my mx = 0 := by
  rcases h with h | h
  · unfold Q
    apply Finset.sum_eq_zero
    intro k _
    rw [sum_delta_out (F k) mx h, zero_mul]
  · exact sum_delta_out _ my h

/-! ## The gathered side -/

theorem f0_int : f0 = (((0 : ℤ) : ℝ) : EReal) := by rw [f0_eq]; norm_num
theorem f127_int : f127 = (((127 : ℤ) : ℝ) : EReal) := by rw [f127_eq]; norm_num

theorem cmp_oge_int (m c : ℤ) :
    Ideal.cmp .oge (((m : ℤ) : ℝ) : EReal) (((c : ℤ) : ℝ) : EReal) = BitVec.ofBool (decide (c ≤ m)) := by
  show BitVec.ofBool (decide ((((c : ℤ) : ℝ) : EReal) ≤ (((m : ℤ) : ℝ) : EReal))) = _
  congr 1
  rw [decide_eq_decide, EReal.coe_le_coe_iff, Int.cast_le]

theorem cmp_ole_int (m c : ℤ) :
    Ideal.cmp .ole (((m : ℤ) : ℝ) : EReal) (((c : ℤ) : ℝ) : EReal) = BitVec.ofBool (decide (m ≤ c)) := by
  show BitVec.ofBool (decide ((((m : ℤ) : ℝ) : EReal) ≤ (((c : ℤ) : ℝ) : EReal))) = _
  congr 1
  rw [decide_eq_decide, EReal.coe_le_coe_iff, Int.cast_le]

/-- At an integer position the four comparisons say exactly that it lies on the image. -/
theorem inside_coe (mx my : ℤ) :
    FloatOps.uitofp (F := Ideal) .f32 (inside (((mx : ℤ) : ℝ) : EReal) (((my : ℤ) : ℝ) : EReal))
      = (((if (0 ≤ mx ∧ mx ≤ 127) ∧ (0 ≤ my ∧ my ≤ 127) then 1 else 0 : ℝ)) : EReal) := by
  unfold inside
  rw [f0_int, f127_int]
  show (((( IntOp.andi (IntOp.andi (IntOp.andi (Ideal.cmp .oge _ _) (Ideal.cmp .ole _ _))
    (Ideal.cmp .oge _ _)) (Ideal.cmp .ole _ _)).toNat : ℕ) : ℝ) : EReal) = _
  rw [cmp_oge_int, cmp_ole_int, cmp_oge_int, cmp_ole_int]
  by_cases h1 : 0 ≤ mx <;> by_cases h2 : mx ≤ 127 <;> by_cases h3 : 0 ≤ my <;> by_cases h4 : my ≤ 127 <;>
    simp [h1, h2, h3, h4, IntOp.andi]

theorem sitofp_127 : FloatOps.sitofp (F := Ideal) .f32 127#32 = (((127 : ℤ) : ℝ) : EReal) := by
  show ((((127#32 : BitVec 32).toInt : ℤ) : ℝ) : EReal) = _
  rw [show (127#32 : BitVec 32).toInt = 127 by decide]

theorem sitofp_0 : FloatOps.sitofp (F := Ideal) .f32 0#32 = (((0 : ℤ) : ℝ) : EReal) := by
  show ((((0#32 : BitVec 32).toInt : ℤ) : ℝ) : EReal) = _
  rw [show (0#32 : BitVec 32).toInt = 0 by decide]

theorem clamp_int (m : ℤ) :
    min ((((127 : ℤ) : ℝ) : EReal)) (max ((((0 : ℤ) : ℝ) : EReal)) (((m : ℤ) : ℝ) : EReal))
      = ((((min 127 (max 0 m) : ℤ)) : ℝ) : EReal) := by
  rw [Int.cast_min, Int.cast_max, EReal.coe_strictMono.monotone.map_min,
    EReal.coe_strictMono.monotone.map_max]

/-- An integer position, clamped onto the axis and converted, is the word of the clamped integer (never negative,
    so the wrap does nothing). -/
theorem clampWord_int (m : ℤ) :
    clampWord (((m : ℤ) : ℝ) : EReal) = BitVec.ofInt 32 (min 127 (max 0 m)) := by
  have h0 : (0#32 : BitVec 32).toInt = 0 := by decide
  unfold clampWord
  rw [sitofp_127, sitofp_0, clamp_int]
  show Scalar.select (IntOp.cmpi .slt (Ideal.fptosi 32 _) 0#32)
    (IntOp.addi (Ideal.fptosi 32 _) 128#32) (Ideal.fptosi 32 _) = _
  rw [fptosi_int _ (by omega)]
  have hs : IntOp.cmpi .slt (BitVec.ofInt 32 (min 127 (max 0 m))) 0#32 = 0#1 := by
    show BitVec.ofBool ((BitVec.ofInt 32 (min 127 (max 0 m))).slt 0#32) = 0#1
    rw [BitVec.slt, toInt_ofInt_small _ (by omega), h0, decide_eq_false (by omega)]; rfl
  rw [hs, Scalar.select, if_neg (by decide)]

theorem pos_val (m : ℤ) : ((pos (((m : ℤ) : ℝ) : EReal)).val : ℤ) = min 127 (max 0 m) := by
  show ((min (clampWord _).toInt.toNat 127 : ℕ) : ℤ) = _
  rw [clampWord_int, toInt_ofInt_small _ (by omega)]
  omega

/-- One neighbour at an integer position: the image entry there, or zero off the image. -/
theorem corner_coe (F : Fin 128 → Fin 128 → ℝ) (mx my : ℤ) :
    corner (fun h w => ((F h w : ℝ) : EReal)) (((mx : ℤ) : ℝ) : EReal) (((my : ℤ) : ℝ) : EReal)
      = ((Q F my mx : ℝ) : EReal) := by
  show ((F (pos _) (pos _) : ℝ) : EReal) * FloatOps.uitofp (F := Ideal) .f32 (inside _ _) = _
  rw [inside_coe, ← EReal.coe_mul]
  congr 1
  by_cases hin : (0 ≤ mx ∧ mx ≤ 127) ∧ (0 ≤ my ∧ my ≤ 127)
  · rw [if_pos hin, mul_one]
    symm
    apply Q_in
    · rw [pos_val]; omega
    · rw [pos_val]; omega
  · rw [if_neg hin, mul_zero]
    symm
    apply Q_out
    omega

theorem base_add_one (t : ℝ) : base (t : EReal) + f1 = ((((cellZ t + 1 : ℤ)) : ℝ) : EReal) := by
  rw [base_coe, f1_eq, ← EReal.coe_add]; push_cast; rfl

theorem gather_coe (F : Fin 128 → Fin 128 → ℝ) (x y : ℝ) :
    (((corner (fun h w => ((F h w : ℝ) : EReal)) (base (x : EReal)) (base (y : EReal)) * (dn (x : EReal) * dn (y : EReal))
      + corner (fun h w => ((F h w : ℝ) : EReal)) (base (x : EReal) + f1) (base (y : EReal)) * (up (x : EReal) * dn (y : EReal)))
      + corner (fun h w => ((F h w : ℝ) : EReal)) (base (x : EReal)) (base (y : EReal) + f1) * (dn (x : EReal) * up (y : EReal)))
      + corner (fun h w => ((F h w : ℝ) : EReal)) (base (x : EReal) + f1) (base (y : EReal) + f1) * (up (x : EReal) * up (y : EReal)))
    = ((((Q F (cellZ y) (cellZ x) * (dnR x * dnR y) + Q F (cellZ y) (cellZ x + 1) * (upR x * dnR y))
        + Q F (cellZ y + 1) (cellZ x) * (dnR x * upR y))
        + Q F (cellZ y + 1) (cellZ x + 1) * (upR x * upR y) : ℝ) : EReal) := by
  rw [base_add_one x, base_add_one y]
  simp only [base_coe, corner_coe, dn_coe, up_coe, ← EReal.coe_mul, ← EReal.coe_add]

/-! ## The two arrangements agree -/

/-- With finite image entries and both coordinates between the clipping bounds, the double sum against the two
    tents and the four-neighbour expression are the same real number; the last factor is common to both and may be
    any extended real. -/
theorem densePt_eq_gatherPt (f : Fin 128 → Fin 128 → EReal) (hf : ∀ h w, f h w ≠ ⊥ ∧ f h w ≠ ⊤)
    (tx ty bnd : EReal) (hx : fLo ≤ tx ∧ tx ≤ fHi) (hy : fLo ≤ ty ∧ ty ≤ fHi) :
    densePt f tx ty bnd = gatherPt f tx ty bnd := by
  obtain ⟨F, rfl⟩ : ∃ F : Fin 128 → Fin 128 → ℝ, f = fun h w => ((F h w : ℝ) : EReal) :=
    ⟨fun h w => (f h w).toReal,
      funext fun h => funext fun w => (EReal.coe_toReal (hf h w).2 (hf h w).1).symm⟩
  rw [fLo_eq, fHi_eq] at hx hy
  obtain ⟨x, rfl⟩ : ∃ x : ℝ, tx = x :=
    ⟨tx.toReal, (EReal.coe_toReal (ne_top_of_le_ne_top (EReal.coe_ne_top _) hx.2)
      (ne_bot_of_le_ne_bot (EReal.coe_ne_bot _) hx.1)).symm⟩
  obtain ⟨y, rfl⟩ : ∃ y : ℝ, ty = y :=
    ⟨ty.toReal, (EReal.coe_toReal (ne_top_of_le_ne_top (EReal.coe_ne_top _) hy.2)
      (ne_bot_of_le_ne_bot (EReal.coe_ne_bot _) hy.1)).symm⟩
  rw [EReal.coe_le_coe_iff, EReal.coe_le_coe_iff] at hx hy
  have hnx := cellZ_range x hx
  have hny := cellZ_range y hy
  simp only [densePt, gatherPt]
  rw [dense_coe F x y hnx hny, dense_real, gather_coe]

/-- Clipping a coordinate between the two bounds puts it between them. -/
theorem clip_mem (t : EReal) : fLo ≤ min fHi (max fLo t) ∧ min fHi (max fLo t) ≤ fHi := by
  have hle : fLo ≤ fHi := by
    rw [fLo_eq, fHi_eq, EReal.coe_le_coe_iff]; norm_num
  exact ⟨le_min hle (le_max_left _ _), min_le_left _ _⟩

/-! ## Counting ones -/

/-- A fold of word addition from zero is the sum. -/
theorem fold_addi_eq_sum {ι : Type*} [DecidableEq ι] (s : Finset ι) (a : ι → BitVec 32) :
    s.fold IntOp.addi 0#32 a = ∑ k ∈ s, a k := by
  induction s using Finset.induction_on with
  | empty => simp
  | insert _ _ hx ih => rw [Finset.fold_insert hx, Finset.sum_insert hx, ih]; rfl

/-- Five one-bit words: their integer count of ones (at most five, so no wrap and no sign) is positive exactly when
    their real count is. -/
theorem count_pos (g : Fin 5 → BitVec 1) :
    IntOp.cmpi .sgt ((Finset.univ : Finset (Fin 5)).fold IntOp.addi 0#32 (fun k => (g k).setWidth 32)) 0#32
      = FloatOps.cmpf (F := Ideal) (φ := .f32) .ogt
          (f0 + ∑ k : Fin 5, FloatOps.uitofp (F := Ideal) .f32 (g k)) f0 := by
  have hu : ∀ b : BitVec 1, FloatOps.uitofp (F := Ideal) .f32 b = (((b.toNat : ℕ) : ℝ) : EReal) :=
    fun _ => rfl
  have e0 : (0#32 : BitVec 32).toInt = 0 := by decide
  have h0 := (g 0).isLt
  have h1 := (g 1).isLt
  have h2 := (g 2).isLt
  have h3 := (g 3).isLt
  have h4 := (g 4).isLt
  have eT : ((g 0).setWidth 32 + (g 1).setWidth 32 + (g 2).setWidth 32 + (g 3).setWidth 32
        + (g 4).setWidth 32).toInt
      = (((g 0).toNat + (g 1).toNat + (g 2).toNat + (g 3).toNat + (g 4).toNat : ℕ) : ℤ) := by
    rw [BitVec.toInt_eq_toNat_cond]
    simp only [BitVec.toNat_add, BitVec.toNat_setWidth]
    split_ifs <;> omega
  have eR : (0 : ℝ) + ((((g 0).toNat : ℕ) : ℝ) + (((g 1).toNat : ℕ) : ℝ) + (((g 2).toNat : ℕ) : ℝ)
        + (((g 3).toNat : ℕ) : ℝ) + (((g 4).toNat : ℕ) : ℝ))
      = ((((g 0).toNat + (g 1).toNat + (g 2).toNat + (g 3).toNat + (g 4).toNat : ℕ)) : ℝ) := by
    push_cast; ring
  rw [fold_addi_eq_sum, f0_eq]
  simp only [Fin.sum_univ_five, hu, ← EReal.coe_add]
  show BitVec.ofBool ((0#32 : BitVec 32).slt _) = BitVec.ofBool (decide (_ < _))
  congr 1
  rw [BitVec.slt, decide_eq_decide, EReal.coe_lt_coe_iff, e0, eT, eR, Nat.cast_pos, Nat.cast_pos]

end Cert.Sampling

end
-- ==== Proof.RefRead.lean ====
/-
  The reference program's first result, read at one index.

  The program samples a 128 × 128 image bilinearly at a point given in normalized coordinates: it forms the pixel
  coordinate on each axis, its floor and fractional part, and adds the four neighbouring pixels, each read by a gather at
  the clamped position, multiplied by the indicator that the unclamped position lies inside the image and by the product
  of the two weights; the sum is multiplied by the point's mask. Between these steps the arrays only change layout: the
  batch axes `(n, v)` are merged into one axis `b = 5 n + v` and split again, a two-component array is cut into its
  components, scalars are spread over arrays, and the result's axes are permuted.

  This module reads each of these steps at an index: first the gather with this program's dimension numbers (one
  batching axis, one offset axis, two collapsed axes addressed by a two-component start index, every start index
  clamped into its axis), the concatenation that builds the start indices and the spreads over a new axis; then each
  neighbour's term; then the layout changes; and last the whole result at `(n, p, v, c)`, which is the specification's
  gathered arrangement at the image `(n, v, c)`, the point's two clipped coordinates and its mask.
-/
import proofs.«160330_j17463337026052_2_alg».proof.Proof.ReadP
import proofs.«160330_j17463337026052_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-- A 32-bit word read as a signed position and clamped into an axis of 128. -/
def clampIdx (w : BitVec 32) : Fin 128 := ⟨min w.toInt.toNat 127, by omega⟩

/-- The gather's dimension numbers: one batching axis, one offset axis, two collapsed axes read through the start index. -/
abbrev gd := gather_S20x128x128x128_S20x4096x2_S20x128x4096_1_23_0_0_23_2_112811

/-- The start-indices index of result position `(b, p)` and component `k`. -/
theorem gd_siIdx (b : Fin 20) (c : Fin 128) (p : Fin 4096) (k : Fin gd.startIndexMap.length) :
    gd.siIdx (ix3 b c p) k = ix3 b p ⟨k.val, k.isLt⟩ := by
  funext a; refine Fin.ext ?_
  match a with
  | ⟨0, _⟩ => rfl
  | ⟨1, _⟩ => rfl
  | ⟨2, _⟩ => rfl

section Coords
variable {w : Nat} (idx : IVec S20x4096x2 w) (b : Fin 20) (c : Fin 128) (p : Fin 4096)

/-- On the batching axis the operand coordinate is the result's batch coordinate. -/
theorem gd_coord0 : (gd.operandIdx (ix3 b c p) idx (0 : Fin 4)).val = b.val := by
  show gd.start (ix3 b c p) idx (0 : Fin 4) + gd.batchCoord (ix3 b c p) (0 : Fin 4) + gd.offCoord (ix3 b c p) (0 : Fin 4) = _
  rw [gd.start_batching _ _ _ (by decide), gd.offCoord_eq_zero _ _ (by decide)]
  unfold GatherDims.batchCoord
  rw [dif_pos (by decide), Nat.zero_add, Nat.add_zero]
  rfl

/-- On the offset axis it is the result's offset coordinate. -/
theorem gd_coord1 : (gd.operandIdx (ix3 b c p) idx (1 : Fin 4)).val = c.val := by
  show gd.start (ix3 b c p) idx (1 : Fin 4) + gd.batchCoord (ix3 b c p) (1 : Fin 4) + gd.offCoord (ix3 b c p) (1 : Fin 4) = _
  rw [gd.batchCoord_eq_zero _ _ (by decide)]
  unfold GatherDims.start GatherDims.offCoord
  rw [dif_neg (by decide), dif_pos (by decide), Nat.zero_add]
  rfl

/-- On the first collapsed axis it is the start index's first component, read signed and clamped. -/
theorem gd_coord2 : (gd.operandIdx (ix3 b c p) idx (2 : Fin 4)).val = min (idx (ix3 b p 0)).toInt.toNat 127 := by
  show gd.start (ix3 b c p) idx (2 : Fin 4) + gd.batchCoord (ix3 b c p) (2 : Fin 4) + gd.offCoord (ix3 b c p) (2 : Fin 4) = _
  rw [gd.batchCoord_eq_zero _ _ (by decide), gd.offCoord_eq_zero _ _ (by decide)]
  unfold GatherDims.start
  rw [dif_pos (by decide), gd_siIdx]
  rfl

/-- On the second collapsed axis, the second component. -/
theorem gd_coord3 : (gd.operandIdx (ix3 b c p) idx (3 : Fin 4)).val = min (idx (ix3 b p 1)).toInt.toNat 127 := by
  show gd.start (ix3 b c p) idx (3 : Fin 4) + gd.batchCoord (ix3 b c p) (3 : Fin 4) + gd.offCoord (ix3 b c p) (3 : Fin 4) = _
  rw [gd.batchCoord_eq_zero _ _ (by decide), gd.offCoord_eq_zero _ _ (by decide)]
  unfold GatherDims.start
  rw [dif_pos (by decide), gd_siIdx]
  rfl

end Coords

/-- The gather at `(b, c, p)`: the operand at `(b, c, Y, X)`, `Y` and `X` the two components of the start index at
    `(b, p)`, each read signed and clamped into the axis. -/
theorem gather_apply {α : Type} (x : S20x128x128x128.Idx → α) (idx : IVec S20x4096x2 32)
    (b : Fin 20) (c : Fin 128) (p : Fin 4096) :
    Host.gather gd x idx (ix3 b c p) =
      x (ix4 b c (clampIdx (idx (ix3 b p 0))) (clampIdx (idx (ix3 b p 1)))) := by
  unfold Host.gather
  congr 1
  funext a
  refine Fin.ext ?_
  match a with
  | ⟨0, _⟩ => exact gd_coord0 idx b c p
  | ⟨1, _⟩ => exact gd_coord1 idx b c p
  | ⟨2, _⟩ => exact gd_coord2 idx b c p
  | ⟨3, _⟩ => exact gd_coord3 idx b c p

section Layout
variable {α : Type}

/-- A `[20, 4096]` array given a trailing unit axis reads the array. -/
theorem bcast_tail_apply (x : S20x4096.Idx → α) (b : Fin 20) (p : Fin 4096) (k : Fin 1) :
    broadcastInDim S20x4096x1 ![0, 1] bcast_S20x4096_S20x4096x1_0_1 x (ix3 b p k) = x (ix2 b p) := by
  refine broadcastInDim_apply _ bcast_S20x4096_S20x4096x1_0_1 x (ix3 b p k) (ix2 b p) (fun a => ?_)
  match a with
  | ⟨0, _⟩ => show b.val = if (20 : Nat) = 1 then 0 else b.val; rw [if_neg (by decide)]
  | ⟨1, _⟩ => show p.val = if (4096 : Nat) = 1 then 0 else p.val; rw [if_neg (by decide)]

/-- A `[20, 4096]` array spread over a middle axis of 128 reads the array at the two outer coordinates. -/
theorem bcast_mid_apply (x : S20x4096.Idx → α) (b : Fin 20) (c : Fin 128) (p : Fin 4096) :
    broadcastInDim S20x128x4096 ![0, 1, 2] bcast_S20x1x4096_S20x128x4096_0_1_2
      (broadcastInDim S20x1x4096 ![0, 2] bcast_S20x4096_S20x1x4096_0_2 x) (ix3 b c p) = x (ix2 b p) := by
  refine (broadcastInDim_apply _ bcast_S20x1x4096_S20x128x4096_0_1_2 _ (ix3 b c p) (ix3 b (0 : Fin 1) p) (fun a => ?_)).trans
    (broadcastInDim_apply _ bcast_S20x4096_S20x1x4096_0_2 x (ix3 b (0 : Fin 1) p) (ix2 b p) (fun a => ?_))
  · match a with
    | ⟨0, _⟩ => show b.val = if (20 : Nat) = 1 then 0 else b.val; rw [if_neg (by decide)]
    | ⟨1, _⟩ => show 0 = if (1 : Nat) = 1 then 0 else c.val; rw [if_pos rfl]
    | ⟨2, _⟩ => show p.val = if (4096 : Nat) = 1 then 0 else p.val; rw [if_neg (by decide)]
  · match a with
    | ⟨0, _⟩ => show b.val = if (20 : Nat) = 1 then 0 else b.val; rw [if_neg (by decide)]
    | ⟨1, _⟩ => show p.val = if (4096 : Nat) = 1 then 0 else p.val; rw [if_neg (by decide)]

/-- Two `[20, 4096, 1]` arrays joined on the last axis: component 0 is the first … -/
theorem concat_apply0 (x₁ x₂ : S20x4096x1.Idx → α) (b : Fin 20) (p : Fin 4096) :
    concatenate S20x4096x2 2 [⟨S20x4096x1, x₁⟩, ⟨S20x4096x1, x₂⟩] concatenates_S20x4096x1_S20x4096x1_S20x4096x2_d2
      (ix3 b p (0 : Fin 2)) = x₁ (ix3 b p (0 : Fin 1)) := by
  refine concatenate_pair_apply_left 2 x₁ x₂ _ (ix3 b p (0 : Fin 2)) rfl (ix3 b p (0 : Fin 1)) (fun a => ?_)
  match a with
  | ⟨0, _⟩ => rfl
  | ⟨1, _⟩ => rfl
  | ⟨2, _⟩ => rfl

/-- … and component 1 the second. -/
theorem concat_apply1 (x₁ x₂ : S20x4096x1.Idx → α) (b : Fin 20) (p : Fin 4096) :
    concatenate S20x4096x2 2 [⟨S20x4096x1, x₁⟩, ⟨S20x4096x1, x₂⟩] concatenates_S20x4096x1_S20x4096x1_S20x4096x2_d2
      (ix3 b p (1 : Fin 2)) = x₂ (ix3 b p (0 : Fin 1)) := by
  refine concatenate_pair_apply_right 2 x₁ x₂ _ (ix3 b p (1 : Fin 2)) rfl rfl (ix3 b p (0 : Fin 1)) (fun a ha => ?_) ?_
  · match a with
    | ⟨0, _⟩ => rfl
    | ⟨1, _⟩ => rfl
    | ⟨2, _⟩ => exact absurd rfl ha
  · rfl

end Layout

/-- The gather of an image array at the start indices built from two word arrays (the row word first, the column word
    second): element `(b, c, p)` is the image at `(b, c, Y, X)` with `Y`, `X` the two words at `(b, p)` clamped. -/
theorem gathered_apply {α : Type} (img : S20x128x128x128.Idx → α) (wy wx : IVec S20x4096 32)
    (b : Fin 20) (c : Fin 128) (p : Fin 4096) :
    Host.gather gd img (concatenate S20x4096x2 2
        [⟨S20x4096x1, broadcastInDim S20x4096x1 ![0, 1] bcast_S20x4096_S20x4096x1_0_1 wy⟩,
         ⟨S20x4096x1, broadcastInDim S20x4096x1 ![0, 1] bcast_S20x4096_S20x4096x1_0_1 wx⟩]
        concatenates_S20x4096x1_S20x4096x1_S20x4096x2_d2) (ix3 b c p)
      = img (ix4 b c (clampIdx (wy (ix2 b p))) (clampIdx (wx (ix2 b p)))) := by
  rw [gather_apply, concat_apply0, concat_apply1, bcast_tail_apply, bcast_tail_apply]

/-! ## The program's arrays over the merged batch axis, read at an index

Every operation between the normalized coordinates and a neighbour's ingredients acts on each element by itself (a spread
scalar reads its value everywhere), so at an index each array is the specification's function of the arrays before it,
by unfolding. -/

section Program
variable (x0 : (⟨S4x5x128x128x128, .f32⟩ : BufTy).Contents (Elt Ideal))
  (x1 : (⟨S4x4096x5, .f32⟩ : BufTy).Contents (Elt Ideal)) (x2 : (⟨S4x5x3x3, .f32⟩ : BufTy).Contents (Elt Ideal))
  (x3 : (⟨S4x5x3, .f32⟩ : BufTy).Contents (Elt Ideal)) (x4 x5 : (⟨S4x5x2, .f32⟩ : BufTy).Contents (Elt Ideal))
  (x6 : (⟨S4x5x3, .f32⟩ : BufTy).Contents (Elt Ideal)) (x7 : (⟨S4x5x2, .f32⟩ : BufTy).Contents (Elt Ideal))
  (x8 : (⟨S4x5x2x3, .f32⟩ : BufTy).Contents (Elt Ideal)) (x9 : (⟨S4x5x2, .f32⟩ : BufTy).Contents (Elt Ideal))
  (x10 : (⟨S2, .f32⟩ : BufTy).Contents (Elt Ideal))

/-- The floor of the pixel coordinate, on the first axis … -/
theorem basex_eq (i : S20x4096.Idx) : (val_main_v139 (F := Ideal) x1 x2 x3 x4 x5 x6 x7 x8 x9 x10) i = Sampling.base ((val_main_v124 (F := Ideal) x1 x2 x3 x4 x5 x6 x7 x8 x9 x10) i) := rfl
/-- … and on the second. -/
theorem basey_eq (i : S20x4096.Idx) : (val_main_v140 (F := Ideal) x1 x2 x3 x4 x5 x6 x7 x8 x9 x10) i = Sampling.base ((val_main_v132 (F := Ideal) x1 x2 x3 x4 x5 x6 x7 x8 x9 x10) i) := rfl
/-- The fractional parts and their complements. -/
theorem upx_eq (i : S20x4096.Idx) : (val_main_v141 (F := Ideal) x1 x2 x3 x4 x5 x6 x7 x8 x9 x10) i = Sampling.up ((val_main_v124 (F := Ideal) x1 x2 x3 x4 x5 x6 x7 x8 x9 x10) i) := rfl
theorem dnx_eq (i : S20x4096.Idx) : (val_main_v143 (F := Ideal) x1 x2 x3 x4 x5 x6 x7 x8 x9 x10) i = Sampling.dn ((val_main_v124 (F := Ideal) x1 x2 x3 x4 x5 x6 x7 x8 x9 x10) i) := rfl
theorem upy_eq (i : S20x4096.Idx) : (val_main_v144 (F := Ideal) x1 x2 x3 x4 x5 x6 x7 x8 x9 x10) i = Sampling.up ((val_main_v132 (F := Ideal) x1 x2 x3 x4 x5 x6 x7 x8 x9 x10) i) := rfl
theorem dny_eq (i : S20x4096.Idx) : (val_main_v146 (F := Ideal) x1 x2 x3 x4 x5 x6 x7 x8 x9 x10) i = Sampling.dn ((val_main_v132 (F := Ideal) x1 x2 x3 x4 x5 x6 x7 x8 x9 x10) i) := rfl
/-- The upper neighbours' positions: the floor plus one. -/
theorem x1a_eq (i : S20x4096.Idx) : (val_main_v185 (F := Ideal) x1 x2 x3 x4 x5 x6 x7 x8 x9 x10) i = (val_main_v139 (F := Ideal) x1 x2 x3 x4 x5 x6 x7 x8 x9 x10) i + Sampling.f1 := rfl
theorem y1a_eq (i : S20x4096.Idx) : (val_main_v225 (F := Ideal) x1 x2 x3 x4 x5 x6 x7 x8 x9 x10) i = (val_main_v140 (F := Ideal) x1 x2 x3 x4 x5 x6 x7 x8 x9 x10) i + Sampling.f1 := rfl
theorem x1b_eq (i : S20x4096.Idx) : (val_main_v265 (F := Ideal) x1 x2 x3 x4 x5 x6 x7 x8 x9 x10) i = (val_main_v139 (F := Ideal) x1 x2 x3 x4 x5 x6 x7 x8 x9 x10) i + Sampling.f1 := rfl
theorem y1b_eq (i : S20x4096.Idx) : (val_main_v267 (F := Ideal) x1 x2 x3 x4 x5 x6 x7 x8 x9 x10) i = (val_main_v140 (F := Ideal) x1 x2 x3 x4 x5 x6 x7 x8 x9 x10) i + Sampling.f1 := rfl

/-- Neighbour 1: the inside indicator and the two clamped words, from its float position. -/
theorem ins1_eq (i : S20x4096.Idx) : (val_main_v157 (F := Ideal) x1 x2 x3 x4 x5 x6 x7 x8 x9 x10) i = Sampling.inside ((val_main_v139 (F := Ideal) x1 x2 x3 x4 x5 x6 x7 x8 x9 x10) i) ((val_main_v140 (F := Ideal) x1 x2 x3 x4 x5 x6 x7 x8 x9 x10) i) := rfl
theorem wy1_eq (i : S20x4096.Idx) : (val_main_v166 (F := Ideal) x1 x2 x3 x4 x5 x6 x7 x8 x9 x10) i = Sampling.clampWord ((val_main_v140 (F := Ideal) x1 x2 x3 x4 x5 x6 x7 x8 x9 x10) i) := rfl
theorem wx1_eq (i : S20x4096.Idx) : (val_main_v171 (F := Ideal) x1 x2 x3 x4 x5 x6 x7 x8 x9 x10) i = Sampling.clampWord ((val_main_v139 (F := Ideal) x1 x2 x3 x4 x5 x6 x7 x8 x9 x10) i) := rfl

/-- Neighbour 2: the inside indicator and the two clamped words, from its float position. -/
theorem ins2_eq (i : S20x4096.Idx) : (val_main_v196 (F := Ideal) x1 x2 x3 x4 x5 x6 x7 x8 x9 x10) i = Sampling.inside ((val_main_v185 (F := Ideal) x1 x2 x3 x4 x5 x6 x7 x8 x9 x10) i) ((val_main_v140 (F := Ideal) x1 x2 x3 x4 x5 x6 x7 x8 x9 x10) i) := rfl
theorem wy2_eq (i : S20x4096.Idx) : (val_main_v205 (F := Ideal) x1 x2 x3 x4 x5 x6 x7 x8 x9 x10) i = Sampling.clampWord ((val_main_v140 (F := Ideal) x1 x2 x3 x4 x5 x6 x7 x8 x9 x10) i) := rfl
theorem wx2_eq (i : S20x4096.Idx) : (val_main_v210 (F := Ideal) x1 x2 x3 x4 x5 x6 x7 x8 x9 x10) i = Sampling.clampWord ((val_main_v185 (F := Ideal) x1 x2 x3 x4 x5 x6 x7 x8 x9 x10) i) := rfl

/-- Neighbour 3: the inside indicator and the two clamped words, from its float position. -/
theorem ins3_eq (i : S20x4096.Idx) : (val_main_v236 (F := Ideal) x1 x2 x3 x4 x5 x6 x7 x8 x9 x10) i = Sampling.inside ((val_main_v139 (F := Ideal) x1 x2 x3 x4 x5 x6 x7 x8 x9 x10) i) ((val_main_v225 (F := Ideal) x1 x2 x3 x4 x5 x6 x7 x8 x9 x10) i) := rfl
theorem wy3_eq (i : S20x4096.Idx) : (val_main_v245 (F := Ideal) x1 x2 x3 x4 x5 x6 x7 x8 x9 x10) i = Sampling.clampWord ((val_main_v225 (F := Ideal) x1 x2 x3 x4 x5 x6 x7 x8 x9 x10) i) := rfl
theorem wx3_eq (i : S20x4096.Idx) : (val_main_v250 (F := Ideal) x1 x2 x3 x4 x5 x6 x7 x8 x9 x10) i = Sampling.clampWord ((val_main_v139 (F := Ideal) x1 x2 x3 x4 x5 x6 x7 x8 x9 x10) i) := rfl

/-- Neighbour 4: the inside indicator and the two clamped words, from its float position. -/
theorem ins4_eq (i : S20x4096.Idx) : (val_main_v278 (F := Ideal) x1 x2 x3 x4 x5 x6 x7 x8 x9 x10) i = Sampling.inside ((val_main_v265 (F := Ideal) x1 x2 x3 x4 x5 x6 x7 x8 x9 x10) i) ((val_main_v267 (F := Ideal) x1 x2 x3 x4 x5 x6 x7 x8 x9 x10) i) := rfl
theorem wy4_eq (i : S20x4096.Idx) : (val_main_v287 (F := Ideal) x1 x2 x3 x4 x5 x6 x7 x8 x9 x10) i = Sampling.clampWord ((val_main_v267 (F := Ideal) x1 x2 x3 x4 x5 x6 x7 x8 x9 x10) i) := rfl
theorem wx4_eq (i : S20x4096.Idx) : (val_main_v292 (F := Ideal) x1 x2 x3 x4 x5 x6 x7 x8 x9 x10) i = Sampling.clampWord ((val_main_v265 (F := Ideal) x1 x2 x3 x4 x5 x6 x7 x8 x9 x10) i) := rfl

/-! ## The four neighbours' terms -/

/-- Neighbour 1's term at `(b, c, p)`: the image at the clamped position times the inside indicator, times the
    product of its two weights. -/
theorem nb1_apply (b : Fin 20) (c : Fin 128) (p : Fin 4096) :
    (val_main_v183 (F := Ideal) x0 x1 x2 x3 x4 x5 x6 x7 x8 x9 x10) (ix3 b c p)
      = Sampling.corner (fun h w => (val_main_v121 (F := Ideal) x0) (ix4 b c h w)) ((val_main_v139 (F := Ideal) x1 x2 x3 x4 x5 x6 x7 x8 x9 x10) (ix2 b p)) ((val_main_v140 (F := Ideal) x1 x2 x3 x4 x5 x6 x7 x8 x9 x10) (ix2 b p))
          * ((val_main_v143 (F := Ideal) x1 x2 x3 x4 x5 x6 x7 x8 x9 x10) (ix2 b p) * (val_main_v146 (F := Ideal) x1 x2 x3 x4 x5 x6 x7 x8 x9 x10) (ix2 b p)) := by
  have hg : (val_main_v175 (F := Ideal) x0 x1 x2 x3 x4 x5 x6 x7 x8 x9 x10) (ix3 b c p)
      = (val_main_v121 (F := Ideal) x0) (ix4 b c (clampIdx ((val_main_v166 (F := Ideal) x1 x2 x3 x4 x5 x6 x7 x8 x9 x10) (ix2 b p))) (clampIdx ((val_main_v171 (F := Ideal) x1 x2 x3 x4 x5 x6 x7 x8 x9 x10) (ix2 b p)))) :=
    gathered_apply (val_main_v121 (F := Ideal) x0) (val_main_v166 (F := Ideal) x1 x2 x3 x4 x5 x6 x7 x8 x9 x10) (val_main_v171 (F := Ideal) x1 x2 x3 x4 x5 x6 x7 x8 x9 x10) b c p
  have hm : (val_main_v178 (F := Ideal) x1 x2 x3 x4 x5 x6 x7 x8 x9 x10) (ix3 b c p) = (val_main_v176 (F := Ideal) x1 x2 x3 x4 x5 x6 x7 x8 x9 x10) (ix2 b p) := bcast_mid_apply (val_main_v176 (F := Ideal) x1 x2 x3 x4 x5 x6 x7 x8 x9 x10) b c p
  have hw : (val_main_v182 (F := Ideal) x1 x2 x3 x4 x5 x6 x7 x8 x9 x10) (ix3 b c p) = (val_main_v180 (F := Ideal) x1 x2 x3 x4 x5 x6 x7 x8 x9 x10) (ix2 b p) := bcast_mid_apply (val_main_v180 (F := Ideal) x1 x2 x3 x4 x5 x6 x7 x8 x9 x10) b c p
  show (val_main_v175 (F := Ideal) x0 x1 x2 x3 x4 x5 x6 x7 x8 x9 x10) (ix3 b c p) * (val_main_v178 (F := Ideal) x1 x2 x3 x4 x5 x6 x7 x8 x9 x10) (ix3 b c p) * (val_main_v182 (F := Ideal) x1 x2 x3 x4 x5 x6 x7 x8 x9 x10) (ix3 b c p) = _
  rw [hg, hm, hw, wy1_eq, wx1_eq]
  rfl

/-- Neighbour 2's term at `(b, c, p)`: the image at the clamped position times the inside indicator, times the
    product of its two weights. -/
theorem nb2_apply (b : Fin 20) (c : Fin 128) (p : Fin 4096) :
    (val_main_v222 (F := Ideal) x0 x1 x2 x3 x4 x5 x6 x7 x8 x9 x10) (ix3 b c p)
      = Sampling.corner (fun h w => (val_main_v121 (F := Ideal) x0) (ix4 b c h w)) ((val_main_v185 (F := Ideal) x1 x2 x3 x4 x5 x6 x7 x8 x9 x10) (ix2 b p)) ((val_main_v140 (F := Ideal) x1 x2 x3 x4 x5 x6 x7 x8 x9 x10) (ix2 b p))
          * ((val_main_v141 (F := Ideal) x1 x2 x3 x4 x5 x6 x7 x8 x9 x10) (ix2 b p) * (val_main_v146 (F := Ideal) x1 x2 x3 x4 x5 x6 x7 x8 x9 x10) (ix2 b p)) := by
  have hg : (val_main_v214 (F := Ideal) x0 x1 x2 x3 x4 x5 x6 x7 x8 x9 x10) (ix3 b c p)
      = (val_main_v121 (F := Ideal) x0) (ix4 b c (clampIdx ((val_main_v205 (F := Ideal) x1 x2 x3 x4 x5 x6 x7 x8 x9 x10) (ix2 b p))) (clampIdx ((val_main_v210 (F := Ideal) x1 x2 x3 x4 x5 x6 x7 x8 x9 x10) (ix2 b p)))) :=
    gathered_apply (val_main_v121 (F := Ideal) x0) (val_main_v205 (F := Ideal) x1 x2 x3 x4 x5 x6 x7 x8 x9 x10) (val_main_v210 (F := Ideal) x1 x2 x3 x4 x5 x6 x7 x8 x9 x10) b c p
  have hm : (val_main_v217 (F := Ideal) x1 x2 x3 x4 x5 x6 x7 x8 x9 x10) (ix3 b c p) = (val_main_v215 (F := Ideal) x1 x2 x3 x4 x5 x6 x7 x8 x9 x10) (ix2 b p) := bcast_mid_apply (val_main_v215 (F := Ideal) x1 x2 x3 x4 x5 x6 x7 x8 x9 x10) b c p
  have hw : (val_main_v221 (F := Ideal) x1 x2 x3 x4 x5 x6 x7 x8 x9 x10) (ix3 b c p) = (val_main_v219 (F := Ideal) x1 x2 x3 x4 x5 x6 x7 x8 x9 x10) (ix2 b p) := bcast_mid_apply (val_main_v219 (F := Ideal) x1 x2 x3 x4 x5 x6 x7 x8 x9 x10) b c p
  show (val_main_v214 (F := Ideal) x0 x1 x2 x3 x4 x5 x6 x7 x8 x9 x10) (ix3 b c p) * (val_main_v217 (F := Ideal) x1 x2 x3 x4 x5 x6 x7 x8 x9 x10) (ix3 b c p) * (val_main_v221 (F := Ideal) x1 x2 x3 x4 x5 x6 x7 x8 x9 x10) (ix3 b c p) = _
  rw [hg, hm, hw, wy2_eq, wx2_eq]
  rfl

/-- Neighbour 3's term at `(b, c, p)`: the image at the clamped position times the inside indicator, times the
    product of its two weights. -/
theorem nb3_apply (b : Fin 20) (c : Fin 128) (p : Fin 4096) :
    (val_main_v262 (F := Ideal) x0 x1 x2 x3 x4 x5 x6 x7 x8 x9 x10) (ix3 b c p)
      = Sampling.corner (fun h w => (val_main_v121 (F := Ideal) x0) (ix4 b c h w)) ((val_main_v139 (F := Ideal) x1 x2 x3 x4 x5 x6 x7 x8 x9 x10) (ix2 b p)) ((val_main_v225 (F := Ideal) x1 x2 x3 x4 x5 x6 x7 x8 x9 x10) (ix2 b p))
          * ((val_main_v143 (F := Ideal) x1 x2 x3 x4 x5 x6 x7 x8 x9 x10) (ix2 b p) * (val_main_v144 (F := Ideal) x1 x2 x3 x4 x5 x6 x7 x8 x9 x10) (ix2 b p)) := by
  have hg : (val_main_v254 (F := Ideal) x0 x1 x2 x3 x4 x5 x6 x7 x8 x9 x10) (ix3 b c p)
      = (val_main_v121 (F := Ideal) x0) (ix4 b c (clampIdx ((val_main_v245 (F := Ideal) x1 x2 x3 x4 x5 x6 x7 x8 x9 x10) (ix2 b p))) (clampIdx ((val_main_v250 (F := Ideal) x1 x2 x3 x4 x5 x6 x7 x8 x9 x10) (ix2 b p)))) :=
    gathered_apply (val_main_v121 (F := Ideal) x0) (val_main_v245 (F := Ideal) x1 x2 x3 x4 x5 x6 x7 x8 x9 x10) (val_main_v250 (F := Ideal) x1 x2 x3 x4 x5 x6 x7 x8 x9 x10) b c p
  have hm : (val_main_v257 (F := Ideal) x1 x2 x3 x4 x5 x6 x7 x8 x9 x10) (ix3 b c p) = (val_main_v255 (F := Ideal) x1 x2 x3 x4 x5 x6 x7 x8 x9 x10) (ix2 b p) := bcast_mid_apply (val_main_v255 (F := Ideal) x1 x2 x3 x4 x5 x6 x7 x8 x9 x10) b c p
  have hw : (val_main_v261 (F := Ideal) x1 x2 x3 x4 x5 x6 x7 x8 x9 x10) (ix3 b c p) = (val_main_v259 (F := Ideal) x1 x2 x3 x4 x5 x6 x7 x8 x9 x10) (ix2 b p) := bcast_mid_apply (val_main_v259 (F := Ideal) x1 x2 x3 x4 x5 x6 x7 x8 x9 x10) b c p
  show (val_main_v254 (F := Ideal) x0 x1 x2 x3 x4 x5 x6 x7 x8 x9 x10) (ix3 b c p) * (val_main_v257 (F := Ideal) x1 x2 x3 x4 x5 x6 x7 x8 x9 x10) (ix3 b c p) * (val_main_v261 (F := Ideal) x1 x2 x3 x4 x5 x6 x7 x8 x9 x10) (ix3 b c p) = _
  rw [hg, hm, hw, wy3_eq, wx3_eq]
  rfl

/-- Neighbour 4's term at `(b, c, p)`: the image at the clamped position times the inside indicator, times the
    product of its two weights. -/
theorem nb4_apply (b : Fin 20) (c : Fin 128) (p : Fin 4096) :
    (val_main_v304 (F := Ideal) x0 x1 x2 x3 x4 x5 x6 x7 x8 x9 x10) (ix3 b c p)
      = Sampling.corner (fun h w => (val_main_v121 (F := Ideal) x0) (ix4 b c h w)) ((val_main_v265 (F := Ideal) x1 x2 x3 x4 x5 x6 x7 x8 x9 x10) (ix2 b p)) ((val_main_v267 (F := Ideal) x1 x2 x3 x4 x5 x6 x7 x8 x9 x10) (ix2 b p))
          * ((val_main_v141 (F := Ideal) x1 x2 x3 x4 x5 x6 x7 x8 x9 x10) (ix2 b p) * (val_main_v144 (F := Ideal) x1 x2 x3 x4 x5 x6 x7 x8 x9 x10) (ix2 b p)) := by
  have hg : (val_main_v296 (F := Ideal) x0 x1 x2 x3 x4 x5 x6 x7 x8 x9 x10) (ix3 b c p)
      = (val_main_v121 (F := Ideal) x0) (ix4 b c (clampIdx ((val_main_v287 (F := Ideal) x1 x2 x3 x4 x5 x6 x7 x8 x9 x10) (ix2 b p))) (clampIdx ((val_main_v292 (F := Ideal) x1 x2 x3 x4 x5 x6 x7 x8 x9 x10) (ix2 b p)))) :=
    gathered_apply (val_main_v121 (F := Ideal) x0) (val_main_v287 (F := Ideal) x1 x2 x3 x4 x5 x6 x7 x8 x9 x10) (val_main_v292 (F := Ideal) x1 x2 x3 x4 x5 x6 x7 x8 x9 x10) b c p
  have hm : (val_main_v299 (F := Ideal) x1 x2 x3 x4 x5 x6 x7 x8 x9 x10) (ix3 b c p) = (val_main_v297 (F := Ideal) x1 x2 x3 x4 x5 x6 x7 x8 x9 x10) (ix2 b p) := bcast_mid_apply (val_main_v297 (F := Ideal) x1 x2 x3 x4 x5 x6 x7 x8 x9 x10) b c p
  have hw : (val_main_v303 (F := Ideal) x1 x2 x3 x4 x5 x6 x7 x8 x9 x10) (ix3 b c p) = (val_main_v301 (F := Ideal) x1 x2 x3 x4 x5 x6 x7 x8 x9 x10) (ix2 b p) := bcast_mid_apply (val_main_v301 (F := Ideal) x1 x2 x3 x4 x5 x6 x7 x8 x9 x10) b c p
  show (val_main_v296 (F := Ideal) x0 x1 x2 x3 x4 x5 x6 x7 x8 x9 x10) (ix3 b c p) * (val_main_v299 (F := Ideal) x1 x2 x3 x4 x5 x6 x7 x8 x9 x10) (ix3 b c p) * (val_main_v303 (F := Ideal) x1 x2 x3 x4 x5 x6 x7 x8 x9 x10) (ix3 b c p) = _
  rw [hg, hm, hw, wy4_eq, wx4_eq]
  rfl

/-- The four terms added in the program's order, over the merged batch axis: the gathered arrangement without its mask. -/
theorem sum_apply (b : Fin 20) (c : Fin 128) (p : Fin 4096) (bnd : EReal) :
    (val_main_v305 (F := Ideal) x0 x1 x2 x3 x4 x5 x6 x7 x8 x9 x10) (ix3 b c p) * bnd
      = Sampling.gatherPt (fun h w => (val_main_v121 (F := Ideal) x0) (ix4 b c h w)) ((val_main_v124 (F := Ideal) x1 x2 x3 x4 x5 x6 x7 x8 x9 x10) (ix2 b p)) ((val_main_v132 (F := Ideal) x1 x2 x3 x4 x5 x6 x7 x8 x9 x10) (ix2 b p)) bnd := by
  show ((((val_main_v183 (F := Ideal) x0 x1 x2 x3 x4 x5 x6 x7 x8 x9 x10) (ix3 b c p) + (val_main_v222 (F := Ideal) x0 x1 x2 x3 x4 x5 x6 x7 x8 x9 x10) (ix3 b c p)) + (val_main_v262 (F := Ideal) x0 x1 x2 x3 x4 x5 x6 x7 x8 x9 x10) (ix3 b c p)) + (val_main_v304 (F := Ideal) x0 x1 x2 x3 x4 x5 x6 x7 x8 x9 x10) (ix3 b c p)) * bnd = _
  rw [nb1_apply, nb2_apply, nb3_apply, nb4_apply, x1a_eq, y1a_eq, x1b_eq, y1b_eq, basex_eq, basey_eq, upx_eq, dnx_eq, upy_eq, dny_eq]
  rfl

/-! ## The layout changes -/

/-- The merged batch coordinate `5 n + v`. -/
abbrev bIdx (n : Fin 4) (v : Fin 5) : Fin 20 := ⟨5 * n.val + v.val, by have := n.isLt; have := v.isLt; omega⟩

/-- The image array with its batch axes merged reads the image at the split coordinates. -/
theorem img_eq (n : Fin 4) (v : Fin 5) (c h w : Fin 128) :
    (val_main_v121 (F := Ideal) x0) (ix4 (bIdx n v) c h w) = x0 (ix5 n v c h w) := by
  rw [val_main_v121_apply]
  congr 1
  funext a
  have hn := n.isLt; have hv := v.isLt; have hc := c.isLt; have hh := h.isLt; have hw := w.isLt
  match a with
  | ⟨0, _⟩ => exact Fin.ext (by dsimp only [idx_main_v121, ix4, ix5, bIdx]; omega)
  | ⟨1, _⟩ => exact Fin.ext (by dsimp only [idx_main_v121, ix4, ix5, bIdx]; omega)
  | ⟨2, _⟩ => exact Fin.ext (by dsimp only [idx_main_v121, ix4, ix5, bIdx]; omega)
  | ⟨3, _⟩ => exact Fin.ext (by dsimp only [idx_main_v121, ix4, ix5, bIdx]; omega)
  | ⟨4, _⟩ => exact Fin.ext (by dsimp only [idx_main_v121, ix4, ix5, bIdx]; omega)

/-- The first normalized coordinate over the merged batch axis is the clipped coordinate array's component 0 … -/
theorem tx_eq (n : Fin 4) (v : Fin 5) (p : Fin 4096) :
    (val_main_v124 (F := Ideal) x1 x2 x3 x4 x5 x6 x7 x8 x9 x10) (ix2 (bIdx n v) p) = (val_main_v120 (F := Ideal) x1 x2 x3 x4 x5 x6 x7 x8 x9 x10) (ix4 n v p (0 : Fin 2)) := by
  rw [val_main_v124_apply, val_main_v123_apply, val_main_v122_apply]
  congr 1
  funext a
  have hn := n.isLt; have hv := v.isLt; have hp := p.isLt
  match a with
  | ⟨0, _⟩ => exact Fin.ext (by dsimp only [idx_main_v122, idx_main_v123, idx_main_v124, ix2, ix4, bIdx]; omega)
  | ⟨1, _⟩ => exact Fin.ext (by dsimp only [idx_main_v122, idx_main_v123, idx_main_v124, ix2, ix4, bIdx]; omega)
  | ⟨2, _⟩ => exact Fin.ext (by dsimp only [idx_main_v122, idx_main_v123, idx_main_v124, ix2, ix4, bIdx]; omega)
  | ⟨3, _⟩ => exact Fin.ext (by dsimp only [idx_main_v122, idx_main_v123, idx_main_v124, ix2, ix4, bIdx]; show _ = 0; omega)

/-- … and the second its component 1. -/
theorem ty_eq (n : Fin 4) (v : Fin 5) (p : Fin 4096) :
    (val_main_v132 (F := Ideal) x1 x2 x3 x4 x5 x6 x7 x8 x9 x10) (ix2 (bIdx n v) p) = (val_main_v120 (F := Ideal) x1 x2 x3 x4 x5 x6 x7 x8 x9 x10) (ix4 n v p (1 : Fin 2)) := by
  rw [val_main_v132_apply, val_main_v131_apply, val_main_v122_apply]
  congr 1
  funext a
  have hn := n.isLt; have hv := v.isLt; have hp := p.isLt
  match a with
  | ⟨0, _⟩ => exact Fin.ext (by dsimp only [idx_main_v122, idx_main_v131, idx_main_v132, ix2, ix4, bIdx]; omega)
  | ⟨1, _⟩ => exact Fin.ext (by dsimp only [idx_main_v122, idx_main_v131, idx_main_v132, ix2, ix4, bIdx]; omega)
  | ⟨2, _⟩ => exact Fin.ext (by dsimp only [idx_main_v122, idx_main_v131, idx_main_v132, ix2, ix4, bIdx]; omega)
  | ⟨3, _⟩ => exact Fin.ext (by dsimp only [idx_main_v122, idx_main_v131, idx_main_v132, ix2, ix4, bIdx]; show _ = 1; omega)

/-- The sum with its batch axis split again reads the sum over the merged axis. -/
theorem split_eq (n : Fin 4) (v : Fin 5) (c : Fin 128) (p : Fin 4096) :
    (val_main_v306 (F := Ideal) x0 x1 x2 x3 x4 x5 x6 x7 x8 x9 x10) (ix4 n v c p) = (val_main_v305 (F := Ideal) x0 x1 x2 x3 x4 x5 x6 x7 x8 x9 x10) (ix3 (bIdx n v) c p) := by
  rw [val_main_v306_apply]
  congr 1
  funext a
  have hn := n.isLt; have hv := v.isLt; have hc := c.isLt; have hp := p.isLt
  match a with
  | ⟨0, _⟩ => exact Fin.ext (by dsimp only [idx_main_v306, ix3, ix4, bIdx]; omega)
  | ⟨1, _⟩ => exact Fin.ext (by dsimp only [idx_main_v306, ix3, ix4, bIdx]; omega)
  | ⟨2, _⟩ => exact Fin.ext (by dsimp only [idx_main_v306, ix3, ix4, bIdx]; omega)

/-- The mask spread over the channel axis reads the mask, converted to a float. -/
theorem mask_eq (n : Fin 4) (v : Fin 5) (c : Fin 128) (p : Fin 4096) :
    (val_main_v308 (F := Ideal) x1 x2 x3 x4 x5 x6 x7 x9) (ix4 n v c p) = FloatOps.uitofp (F := Ideal) .f32 ((val_main_v95 (F := Ideal) x1 x2 x3 x4 x5 x6 x7 x9) (ix3 n v p)) := by
  rw [val_main_v308_apply, val_main_v307_apply]
  have e : idx_main_v307 (idx_main_v308 (ix4 n v c p)) = ix3 n v p := by
    funext a
    match a with
    | ⟨0, _⟩ => rfl
    | ⟨1, _⟩ => rfl
    | ⟨2, _⟩ => rfl
  rw [e]
  rfl

/-! ## The result -/

/-- THE FIRST RESULT AT `(n, p, v, c)`: the gathered arrangement of the image `(n, v, c)` at the point's two clipped
    coordinates, times the point's mask. -/
theorem feats_apply (n : Fin 4) (p : Fin 4096) (v : Fin 5) (c : Fin 128) :
    (val_main_v310 (F := Ideal) x0 x1 x2 x3 x4 x5 x6 x7 x8 x9 x10) (ix4 n p v c)
      = Sampling.gatherPt (fun h w => x0 (ix5 n v c h w))
          ((val_main_v120 (F := Ideal) x1 x2 x3 x4 x5 x6 x7 x8 x9 x10) (ix4 n v p (0 : Fin 2)))
          ((val_main_v120 (F := Ideal) x1 x2 x3 x4 x5 x6 x7 x8 x9 x10) (ix4 n v p (1 : Fin 2)))
          (FloatOps.uitofp (F := Ideal) .f32 ((val_main_v95 (F := Ideal) x1 x2 x3 x4 x5 x6 x7 x9) (ix3 n v p))) := by
  rw [val_main_v310_apply]
  have e : idx_main_v310 (ix4 n p v c) = ix4 n v c p := by
    funext a
    match a with
    | ⟨0, _⟩ => rfl
    | ⟨1, _⟩ => rfl
    | ⟨2, _⟩ => rfl
    | ⟨3, _⟩ => rfl
  rw [e]
  show (val_main_v306 (F := Ideal) x0 x1 x2 x3 x4 x5 x6 x7 x8 x9 x10) (ix4 n v c p) * (val_main_v308 (F := Ideal) x1 x2 x3 x4 x5 x6 x7 x9) (ix4 n v c p) = _
  rw [split_eq, mask_eq, sum_apply, tx_eq, ty_eq]
  have hf : (fun h w => (val_main_v121 (F := Ideal) x0) (ix4 (bIdx n v) c h w)) = fun h w => x0 (ix5 n v c h w) :=
    funext fun h => funext fun w => img_eq x0 n v c h w
  rw [hf]

/-- THE COUNT'S SIGN AT `(n, p)`: whether the sum over the five views of the point's masks exceeds zero. -/
theorem count_apply (n : Fin 4) (p : Fin 4096) :
    (val_main_v316 (F := Ideal) x1 x2 x3 x4 x5 x6 x7 x9) (ix2 n p)
      = FloatOps.cmpf (F := Ideal) (φ := .f32) .ogt
          (Sampling.f0 + ∑ k : Fin 5, FloatOps.uitofp (F := Ideal) .f32 ((val_main_v95 (F := Ideal) x1 x2 x3 x4 x5 x6 x7 x9) (ix3 n k p))) Sampling.f0 := by
  show FloatOps.cmpf (F := Ideal) (φ := .f32) .ogt ((val_main_v314 (F := Ideal) x1 x2 x3 x4 x5 x6 x7 x9) (ix2 n p)) Sampling.f0 = _
  rw [val_main_v314_apply]
  refine congrArg (fun s => FloatOps.cmpf (F := Ideal) (φ := .f32) .ogt s Sampling.f0) ?_
  refine congrArg (Sampling.f0 + ·) (Finset.sum_congr rfl fun k _ => ?_)
  have e : idx_main_v314 (ix2 n p) k = ix3 n k p := by
    funext a
    match a with
    | ⟨0, _⟩ => rfl
    | ⟨1, _⟩ => rfl
    | ⟨2, _⟩ => rfl
  rw [e]
  rfl

end Program

end Cert.ReferenceIdeal.RefValue

end
-- ==== Proof.KRun.lean ====
/-
  The kernel program's run, read: both results as functions of the program's own arguments.

  The pallas_call's result array holds the dense sampling sums (module KBlocks) of operands that are the tents of the
  clipped normalized position, the image and the mask (modules KHost, KPrefix). At every index this is the dense
  arrangement of the specification, which equals the gathered arrangement (module Collapse) because the image entries
  are real and the clipped coordinates lie between the clipping bounds; and the gathered arrangement is what the
  reference program computes at that index (module RefRead). So the kernel's first result IS the reference's stage
  function of the same arguments. The second result is a bit per point: "some camera sees the point" — a positive
  integer count of the mask on the kernel's side, a positive float sum on the reference's — and "no sample is
  unordered with itself", the same operations of the first result on both sides.
-/
import proofs.«160330_j17463337026052_2_alg».proof.Proof.Gen.KernelIdeal.Frame
import proofs.«160330_j17463337026052_2_alg».proof.Proof.KPrefix
import proofs.«160330_j17463337026052_2_alg».proof.Proof.KBlocks
import proofs.«160330_j17463337026052_2_alg».proof.Proof.Collapse
import proofs.«160330_j17463337026052_2_alg».proof.Proof.RefRead
import Idealize.ShloMosaic.PureOps.Reduce

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Host Idealize.ShloMosaic.ValueIdx Cert.Sampling
open Idealize.ShloMosaic.StableHlo

variable (m : (ℓ : Loc nD τ sig) → Buf (Elt Ideal) ℓ) (ρ : Dev nD → PrngReg)

/-- The reference's stages at the kernel program's own arguments: the clipped position, the mask, the two results. -/
abbrev normOf (c : Dev nD) := Cert.ReferenceIdeal.ReadP.val_main_v120 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
abbrev maskOf (c : Dev nD) := Cert.ReferenceIdeal.ReadP.val_main_v95 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9))
abbrev featsOf (c : Dev nD) := Cert.ReferenceIdeal.ReadP.val_main_v310 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
abbrev countOf (c : Dev nD) := Cert.ReferenceIdeal.ReadP.val_main_v316 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9))
abbrev flagsOf (c : Dev nD) := Cert.ReferenceIdeal.ReadP.val_main_v317 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-! ## The lines after the pallas_call, as functions of its result array and the mask -/

def tailFeats (A : FVec Ideal S20x128x4096 .f32) : FVec Ideal S4x4096x5x128 .f32 :=
  transpose S4x4096x5x128 [0, 3, 1, 2] (shapeCast S4x5x128x4096 A shapeCasts_S20x128x4096_S4x5x128x4096)
    transposes_S4x5x128x4096_S4x4096x5x128_0_3_1_2

/-- No sample compares unequal to itself, at any camera and channel of a point. -/
def selfOrdered (X : FVec Ideal S4x4096x5x128 .f32) : IVec S4x4096 1 :=
  noti (Host.reduce IntOp.ori (cmpf .une X X) (constantI S_ 1 0#1) reducesTo_S4x4096x5x128_S4x4096_d2_3 h_S_)

/-- The integer count of cameras whose mask holds is positive. -/
def countPos (B : IVec S4x5x4096 1) : IVec S4x4096 1 :=
  cmpi .sgt (Host.reduce IntOp.addi (extui 32 B natLt_1_32) (constantI S_ 32 0#32) reducesTo_S4x5x4096_S4x4096_d1 h_S_)
    (broadcastInDim S4x4096 ![] bcast_S_S4x4096 (constantI S_ 32 0#32))

set_option maxHeartbeats 2000000 in
theorem tail_feats (c : Dev nD) :
    Pipeline.afterTail₀ cfgs (dats m) 0 (V0 m) [hostOps1] c main_v195 = tailFeats ((dats m 0 c).arrAt 4 cfg0.N) := by
  unfold Pipeline.afterTail₀
  show StableHlo.after hostOps1 _ (Proc.devRef .tc main_v195) = _
  simp only [hostOps1]
  after_results
  show tailFeats (Pipeline.withArrays spec0 c (V0 m c) (fun w => (dats m 0 c).arrAt w cfg0.N) (Proc.devRef .tc main_v193)) = _
  exact congrArg tailFeats (Pipeline.withArrays_arr spec0 launch0.win.arr_inj c (V0 m c) (fun w => (dats m 0 c).arrAt w cfg0.N) 4)

set_option maxHeartbeats 2000000 in
theorem tail_flags (c : Dev nD) :
    Pipeline.afterTail₀ cfgs (dats m) 0 (V0 m) [hostOps1] c main_v203
      = andi (countPos (V m c main_v95)) (selfOrdered (tailFeats ((dats m 0 c).arrAt 4 cfg0.N))) := by
  unfold Pipeline.afterTail₀
  show StableHlo.after hostOps1 _ (Proc.devRef .tc main_v203) = _
  simp only [hostOps1]
  after_results
  show andi (countPos (Pipeline.withArrays spec0 c (V0 m c) (fun w => (dats m 0 c).arrAt w cfg0.N) (Proc.devRef .tc main_v95)))
      (selfOrdered (tailFeats (Pipeline.withArrays spec0 c (V0 m c) (fun w => (dats m 0 c).arrAt w cfg0.N) (Proc.devRef .tc main_v193)))) = _
  have e4 : Pipeline.withArrays spec0 c (V0 m c) (fun w => (dats m 0 c).arrAt w cfg0.N) (Proc.devRef .tc main_v193)
      = (dats m 0 c).arrAt 4 cfg0.N :=
    Pipeline.withArrays_arr spec0 launch0.win.arr_inj c (V0 m c) (fun w => (dats m 0 c).arrAt w cfg0.N) 4
  have e95 : Pipeline.withArrays spec0 c (V0 m c) (fun w => (dats m 0 c).arrAt w cfg0.N) (Proc.devRef .tc main_v95)
      = V m c main_v95 :=
    Pipeline.withArrays_of_ne spec0 c (V0 m c) (fun w => (dats m 0 c).arrAt w cfg0.N) main_v95 (by decide)
  rw [e4, e95]

/-! ## The result array at an index: the dense arrangement -/

theorem G_point (I : FVec Ideal S4x5x128x128x128 .f32) (N : FVec Ideal S4x5x4096x2 .f32) (B : IVec S4x5x4096 1)
    (n : Fin 4) (v : Fin 5) (cc : Fin 128) (p : Fin 4096) :
    Blocks.G (opImg I) (opWx N) (opWy N) (opMask B) (ix3 (bOf n v) cc p)
      = densePt (fun h w => I (ix5 n v cc h w)) (N (ix4 n v p 0)) (N (ix4 n v p 1))
          (FloatOps.uitofp (F := Ideal) .f32 (B (ix3 n v p))) := by
  show Blocks.GAt (opImg I) (opWx N) (opWy N) (opMask B) (bOf n v) cc p = _
  unfold Blocks.GAt densePt
  simp only [opImg_apply, opWx_apply, opWy_apply, opMask_apply, nOf_bOf, vOf_bOf]

/-- The clipped position lies between the clipping bounds. -/
theorem norm_mem (c : Dev nD) (i : S4x5x4096x2.Idx) : fLo ≤ normOf m c i ∧ normOf m c i ≤ fHi :=
  clip_mem (Cert.ReferenceIdeal.ReadP.val_main_v119 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) i)

/-- THE FIRST RESULT: the kernel's re-laid result array is the reference's stage function of the same arguments. -/
theorem feats_eq (c : Dev nD) (hfin : ∀ i : S4x5x128x128x128.Idx, @Ne EReal (m ((c.tc : Thread nD τ).loc main_arg0) i) ⊥ ∧ @Ne EReal (m ((c.tc : Thread nD τ).loc main_arg0) i) ⊤) :
    tailFeats (Blocks.G (opImg (m ((c.tc : Thread nD τ).loc main_arg0))) (opWx (normOf m c)) (opWy (normOf m c)) (opMask (maskOf m c)))
      = featsOf m c := by
  funext i
  obtain ⟨n, p, v, cc, rfl⟩ : ∃ (n : Fin 4) (p : Fin 4096) (v : Fin 5) (cc : Fin 128), i = ix4 n p v cc :=
    ⟨i 0, i 1, i 2, i 3, eq_ix4 i⟩
  unfold tailFeats
  rw [transp_apply, unresh_apply, G_point,
    densePt_eq_gatherPt _ (fun h w => hfin _) _ _ _ (norm_mem m c _) (norm_mem m c _)]
  exact (Cert.ReferenceIdeal.RefValue.feats_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) n p v cc).symm

/-! ## The second result -/

/-- The count bit at a point. -/
theorem count_eq (c : Dev nD) : countPos (maskOf m c) = countOf m c := by
  funext i
  obtain ⟨n, p, rfl⟩ : ∃ (n : Fin 4) (p : Fin 4096), i = ix2 n p := ⟨i 0, i 1, eq_ix2 i⟩
  refine Eq.trans ?_ ((count_pos (fun k => maskOf m c (ix3 n k p))).trans
    (Cert.ReferenceIdeal.RefValue.count_apply (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) n p).symm)
  show IntOp.cmpi .sgt (Host.reduce IntOp.addi (extui 32 (maskOf m c) natLt_1_32) (constantI S_ 32 0#32)
      reducesTo_S4x5x4096_S4x4096_d1 h_S_ (ix2 n p)) 0#32
    = IntOp.cmpi .sgt ((Finset.univ : Finset (Fin 5)).fold IntOp.addi 0#32 (fun k => (maskOf m c (ix3 n k p)).setWidth 32)) 0#32
  refine congrArg (fun z => IntOp.cmpi .sgt z 0#32) ?_
  refine (Host.reduce_eq_fold_single IntOp.addi _ _ reducesTo_S4x5x4096_S4x4096_d1
    (by decide : S4x5x4096.Reduces [1] S4x4096) h_S_ (ix2 n p)).trans ?_
  refine congrArg (fun g : Fin 5 → BitVec 32 => (Finset.univ : Finset (Fin 5)).fold IntOp.addi 0#32 g) (funext fun k => ?_)
  show (maskOf m c _).setWidth 32 = (maskOf m c (ix3 n k p)).setWidth 32
  refine congrArg (fun j => (maskOf m c j).setWidth 32) (funext fun a => ?_)
  match a with
  | ⟨0, _⟩ => rfl
  | ⟨1, _⟩ => rfl
  | ⟨2, _⟩ => rfl

/-- THE SECOND RESULT. -/
theorem flags_eq (c : Dev nD) : andi (countPos (maskOf m c)) (selfOrdered (featsOf m c)) = flagsOf m c := by
  rw [count_eq]
  rfl

/-! ## The run -/

set_option backward.isDefEq.respectTransparency.types false in
theorem run (hfin : ∀ (c : Dev nD) (i : S4x5x128x128x128.Idx), @Ne EReal (m ((c.tc : Thread nD τ).loc main_arg0) i) ⊥ ∧ @Ne EReal (m ((c.tc : Thread nD τ).loc main_arg0) i) ⊤) :
    θ_run defs (onTc (τ := τ) (main (F := Ideal))) ⟨m, fun _ => 0, ρ⟩ (fun r => ∀ c : Dev nD,
      r.2.mem ((c.tc : Thread nD τ).loc main_v195) = featsOf m c
      ∧ r.2.mem ((c.tc : Thread nD τ).loc main_v203) = flagsOf m c
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  have harr : ∀ c : Dev nD, (dats m 0 c).arrAt 4 cfg0.N
      = Blocks.G (opImg (m ((c.tc : Thread nD τ).loc main_arg0))) (opWx (normOf m c)) (opWy (normOf m c)) (opMask (maskOf m c)) := by
    intro c
    rw [Blocks.final, V_img, V_wx, V_wy, V_mask, Vn_img, Vn_norm, Vn_bound]
  refine (θ_run defs _ _).mono (fun r h c => ?_) (run_main m ρ)
  refine ⟨?_, ?_, ?_, ?_, ?_, ?_, ?_, ?_, ?_, ?_, ?_, ?_, ?_, ?_⟩
  · refine ((h c).2 main_v195 (Pipeline.mem_restRefs_of main_v195 (by decide) (by decide))).trans ?_
    rw [tail_feats, harr]
    exact feats_eq m c (hfin c)
  · refine ((h c).2 main_v203 (Pipeline.mem_restRefs_of main_v203 (by decide) (by decide))).trans ?_
    rw [tail_flags, harr, V_bound, Vn_bound, feats_eq m c (hfin c)]
    exact flags_eq m c
  · exact ((h c).2 main_arg1 (Pipeline.mem_restRefs_of main_arg1 (by decide) (by decide))).trans (W_main_arg1 m (dats m) c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)
  · exact ((h c).2 main_arg5 (Pipeline.mem_restRefs_of main_arg5 (by decide) (by decide))).trans (W_main_arg5 m (dats m) c)
  · exact ((h c).2 main_arg6 (Pipeline.mem_restRefs_of main_arg6 (by decide) (by decide))).trans (W_main_arg6 m (dats m) c)
  · exact ((h c).2 main_arg7 (Pipeline.mem_restRefs_of main_arg7 (by decide) (by decide))).trans (W_main_arg7 m (dats m) c)
  · exact ((h c).2 main_arg8 (Pipeline.mem_restRefs_of main_arg8 (by decide) (by decide))).trans (W_main_arg8 m (dats m) c)
  · exact ((h c).2 main_arg9 (Pipeline.mem_restRefs_of main_arg9 (by decide) (by decide))).trans (W_main_arg9 m (dats m) c)
  · exact ((h c).2 main_arg10 (Pipeline.mem_restRefs_of main_arg10 (by decide) (by decide))).trans (W_main_arg10 m (dats m) c)

end Cert.KernelIdeal.Run

end
-- ==== Proof.Finite.lean ====
/-
  The precondition, read back at the image: every entry of argument 0 is a real number.

  The precondition is a conjunction (by "and" on one-bit words) of eleven "all entries satisfy |x| < +∞", one per
  argument; the image's is the innermost-left one. A conjunction of one-bit words that is 1 has both sides 1; an
  "all" (a reduction by "and" over every axis, from 1) that is 1 had a 1 at every entry; and on the extended
  reals max x (-x) < ⊤ rules out both infinities, since at either of them one of x, -x is ⊤.
-/
import Mathlib
import proofs.«160330_j17463337026052_2_alg».proof.Defs
import proofs.«160330_j17463337026052_2_alg».proof.Proof.Gen.Pre_finite_inputs
import Idealize.ShloMosaic.Lib.ReduceAll
import Idealize.ShloMosaic.Lib.ValueIdx

noncomputable section

namespace Cert.Proof.Finite

open Idealize.ShloMosaic Idealize.SL.Sem
open Cert

/-- The shape with no axes has one index. -/
instance : Subsingleton Cert.Pre_finite_inputs.S_.Idx := ⟨fun a b => funext fun d => d.elim0⟩

/-- An extended real whose absolute value max x (-x) is below the word of +∞ is neither infinity. -/
theorem finite_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ ⊥ ∧ x ≠ ⊤ := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  have hlt : max x (-x) < ⊤ := by
    by_contra hn
    rw [decide_eq_false hn] at h
    exact absurd h (by decide)
  rw [max_lt_iff] at hlt
  constructor
  · rintro rfl; simp at hlt
  · rintro rfl; simp at hlt

/-- Under the precondition every image entry, on every device, is a real number. -/
theorem image_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S4x5x128x128x128.Idx) :
    @Ne EReal (m ((c.tc : Thread Cert.KernelIdeal.nD Cert.KernelIdeal.τ).loc Cert.KernelIdeal.main_arg0) i) ⊥
      ∧ @Ne EReal (m ((c.tc : Thread Cert.KernelIdeal.nD Cert.KernelIdeal.τ).loc Cert.KernelIdeal.main_arg0) i) ⊤ := by
  have h0 := congrFun (h c) ValueIdx.ix0
  dsimp only [Cert.Pre_finite_inputs.fn, Cert.Pre_finite_inputs.fn_part1, Cert.Pre_finite_inputs.fn_part2,
    Cert.Pre_finite_inputs.fn_part3] at h0
  simp only [andi, IntOp.andi_eq_one] at h0
  have h3 := h0.1.1.1.1.1.1.1.1.1.1
  have he : FloatOps.cmpf (F := Ideal) (φ := .f32) .olt
      (FloatOps.hostAbsf (F := Ideal) (φ := .f32)
        (m ((c.tc : Thread Cert.KernelIdeal.nD Cert.KernelIdeal.τ).loc Cert.KernelIdeal.main_arg0) i))
      (FloatOps.ofBits (F := Ideal) .f32 0x7F800000#32) = 1#1 :=
    Host.reduce_andi_all _ _ _ _ _ h3 i
  exact finite_of_abs_lt _ he

end Cert.Proof.Finite

end
-- ==== Proof.lean ====
/-
  Bilinear sampling of camera feature maps at projected points: a dense kernel against a gathering reference.

  Both programs project 4096 points into 5 cameras (for each of 4 sample sets), clip the normalized image position to
  ∓1.1, and sample a 128-channel, 128 × 128 feature map bilinearly there, zero outside the map, times the point's
  in-bounds mask. The reference reads the four neighbouring pixels by gathers. The kernel instead spreads each axis's two
  bilinear weights over the 128 positions of the axis (a "tent": the fractional part on the upper neighbour, its
  complement on the cell, by integer comparison with the cell's index) and contracts the whole map against the two
  tents — a matrix product, a pointwise product, a sum down the rows. Read on the extended reals, with every image
  entry a real number (the precondition) and the clipped coordinates between the clipping bounds, the double sum keeps
  exactly the neighbours that lie on the map, with the products of their weights: the two programs compute the same
  number at every index. The second result, a flag per point, combines "some camera sees the point" (a positive count
  of the mask: counted in integers by the kernel, in floats by the reference) with the same test of the first result
  on both sides. The third result is an argument returned as it came.

  The frames of the two kernel programs and the kernel program's run are the generated ones; the reference's run is read in two passes over
  its generated list of operations (modules ROps, RRun). Nothing was rewritten by the idealization, so it preserves
  the program trivially.
-/
import proofs.«160330_j17463337026052_2_alg».proof.Defs
import proofs.«160330_j17463337026052_2_alg».proof.Proof.Gen.Kernel
import proofs.«160330_j17463337026052_2_alg».proof.Proof.Gen.Kernel.Frame
import proofs.«160330_j17463337026052_2_alg».proof.Proof.Gen.KernelIdeal
import proofs.«160330_j17463337026052_2_alg».proof.Proof.Gen.KernelIdeal.Frame
import proofs.«160330_j17463337026052_2_alg».proof.Proof.Gen.ReferenceIdeal
import proofs.«160330_j17463337026052_2_alg».proof.Proof.Gen.Pre_finite_inputs
import proofs.«160330_j17463337026052_2_alg».proof.Proof.ROps
import proofs.«160330_j17463337026052_2_alg».proof.Proof.RRun
import proofs.«160330_j17463337026052_2_alg».proof.Proof.ReadP
import proofs.«160330_j17463337026052_2_alg».proof.Proof.KRun
import proofs.«160330_j17463337026052_2_alg».proof.Proof.Finite
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.RunH.run m ρ)

/-- Both programs end with the reference's stage functions of the (agreeing) arguments: the kernel program by its run
    read back (module KRun, which uses that the image entries are real), the reference by its own run, in which the
    arguments are then replaced by the kernel program's. -/
theorem algebraic : Cert.algebraic_KernelIdeal_ReferenceIdeal := by
  intro m ρ m' ρ' hpre hagree
  refine ⟨_, _, _, Cert.KernelIdeal.Run.run m ρ (fun c i => Cert.Proof.Finite.image_real m hpre c i), ?_⟩
  refine (θ_run Cert.ReferenceIdeal.defs _ _).mono (fun _ h c => ?_) (Cert.ReferenceIdeal.RunH.run m' ρ')
  obtain ⟨e0, e1, e2, e3, e4, e5, e6, e7, e8, e9, e10⟩ := hagree c
  refine ⟨(h c).1.trans ?_, (h c).2.1.trans ?_, (h c).2.2.1.trans e1, (h c).2.2.2⟩
  · rw [e0, e1, e2, e3, e4, e5, e6, e7, e8, e9, e10]
  · rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
